-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32x32 : Shape := ⟨4, ![16, 2048, 32, 32]⟩
abbrev S64x2 : Shape := ⟨2, ![64, 2]⟩
abbrev S64 : Shape := ⟨1, ![64]⟩
abbrev S_ : Shape := ⟨0, ![]⟩
abbrev S16x32x32 : Shape := ⟨3, ![16, 32, 32]⟩

class Facts : Prop where
  bcast_S_S16x2048x32x32 : S_.BroadcastsInDim S16x2048x32x32 (![] : Fin 0 → Fin S16x2048x32x32.rank)
  reducesTo_S16x2048x32x32_S_d0_1_2_3 : S16x2048x32x32.ReducesTo [0, 1, 2, 3] S_
  h_S_ : 0 < S_.numel
  bcast_S_S64x2 : S_.BroadcastsInDim S64x2 (![] : Fin 0 → Fin S64x2.rank)
  reducesTo_S64x2_S_d0_1 : S64x2.ReducesTo [0, 1] S_
  reducesTo_S16x2048x32x32_S16x32x32_d1 : S16x2048x32x32.ReducesTo [1] S16x32x32
  reducesTo_S16x32x32_S_d0_1_2 : S16x32x32.ReducesTo [0, 1, 2] S_

variable [Facts]

def fn {F : FTy → Type} [FloatOps F] (main_arg0 : FVec F S16x2048x32x32 .f32) (main_arg1 : FVec F S64x2 .f32) (main_arg2 : IVec S64 1) : IVec S_ 1 :=
  let main_v0 : FVec F S16x2048x32x32 .f32 := Host.absf main_arg0
  let main_cst : FVec F S_ .f32 := constant S_ .f32 0x7F800000#32
  let main_v1 : FVec F S16x2048x32x32 .f32 := broadcastInDim S16x2048x32x32 ![] bcast_S_S16x2048x32x32 main_cst
  let main_v2 : IVec S16x2048x32x32 1 := cmpf .olt main_v0 main_v1
  let main_c : IVec S_ 1 := constantI S_ 1 1#1
  let main_v3 : IVec S_ 1 := (fun x v => Host.reduce IntOp.andi x v reducesTo_S16x2048x32x32_S_d0_1_2_3 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_cst_2 : FVec F S_ .f32 := constant S_ .f32 0x00000000#32
  let main_v9 : FVec F S16x2048x32x32 .f32 := broadcastInDim S16x2048x32x32 ![] bcast_S_S16x2048x32x32 main_cst_2
  let main_v10 : IVec S16x2048x32x32 1 := cmpf .une main_arg0 main_v9
  let main_c_3 : IVec S_ 1 := constantI S_ 1 0#1
  let main_v11 : IVec S16x32x32 1 := (fun x v => Host.reduce IntOp.ori x v reducesTo_S16x2048x32x32_S16x32x32_d1 h_S_) main_v10 main_c_3
  let main_c_4 : IVec S_ 1 := constantI S_ 1 1#1
  let main_v12 : IVec S_ 1 := (fun x v => Host.reduce IntOp.andi x v reducesTo_S16x32x32_S_d0_1_2 h_S_) main_v11 main_c_4
  let main_v13 : IVec S_ 1 := andi main_v8 main_v12
  main_v13
-- ==== Kernel.lean ====
abbrev S16x2048x32x32 : Shape := ⟨4, ![16, 2048, 32, 32]⟩
abbrev S64x2 : Shape := ⟨2, ![64, 2]⟩
abbrev S64 : Shape := ⟨1, ![64]⟩
abbrev S64x1 : Shape := ⟨2, ![64, 1]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S16x2048x1024 : Shape := ⟨3, ![16, 2048, 1024]⟩
abbrev S16x64x1024 : Shape := ⟨3, ![16, 64, 1024]⟩
abbrev S1x512x1024 : Shape := ⟨3, ![1, 512, 1024]⟩
abbrev S1x64x1024 : Shape := ⟨3, ![1, 64, 1024]⟩
abbrev S64x1024 : Shape := ⟨2, ![64, 1024]⟩
abbrev S1x1024 : Shape := ⟨2, ![1, 1024]⟩
abbrev S512x1024 : Shape := ⟨2, ![512, 1024]⟩
abbrev S512x64 : Shape := ⟨2, ![512, 64]⟩
abbrev S64x512 : Shape := ⟨2, ![64, 512]⟩
abbrev S16x64x32x32 : Shape := ⟨4, ![16, 64, 32, 32]⟩

abbrev nBuf : Space → Nat
  | .hbm => 47
  | .vmem => 9
  | .smem => 0
  | _ => 0

abbrev bufTy : (tb : Table) → Fin (tcTables nBuf tb) → BufTy
  | .hbm, ⟨0, _⟩ => ⟨S16x2048x32x32, .f32⟩
  | .hbm, ⟨1, _⟩ => ⟨S64x2, .f32⟩
  | .hbm, ⟨2, _⟩ => ⟨S64, .i1⟩
  | .hbm, ⟨3, _⟩ => ⟨S64x1, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64x1, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S1024, .i32⟩
  | .hbm, ⟨36, _⟩ => ⟨S1024x1, .i32⟩
  | .hbm, ⟨37, _⟩ => ⟨S1x64, .i32⟩
  | .hbm, ⟨38, _⟩ => ⟨S1024x64, .i32⟩
  | .hbm, ⟨39, _⟩ => ⟨S1024x64, .i32⟩
  | .hbm, ⟨40, _⟩ => ⟨S1024x64, .i1⟩
  | .hbm, ⟨41, _⟩ => ⟨S1024x64, .f32⟩
  | .hbm, ⟨42, _⟩ => ⟨S64, .f32⟩
  | .hbm, ⟨43, _⟩ => ⟨S64x1, .f32⟩
  | .hbm, ⟨44, _⟩ => ⟨S16x2048x1024, .f32⟩
  | .hbm, ⟨45, _⟩ => ⟨S16x64x1024, .f32⟩
  | .hbm, ⟨46, _⟩ => ⟨S16x64x32x32, .f32⟩
  | .local _ .vmem, ⟨0, _⟩ => ⟨S1x512x1024, .f32⟩
  | .local _ .vmem, ⟨1, _⟩ => ⟨S1x512x1024, .f32⟩
  | .local _ .vmem, ⟨2, _⟩ => ⟨S1024x64, .f32⟩
  | .local _ .vmem, ⟨3, _⟩ => ⟨S64x1, .f32⟩
  | .local _ .vmem, ⟨4, _⟩ => ⟨S1x64x1024, .f32⟩
  | .local _ .vmem, ⟨5, _⟩ => ⟨S1x64x1024, .f32⟩
  | .local _ .vmem, ⟨6, _⟩ => ⟨S64x1024, .f32⟩
  | .local _ .vmem, ⟨7, _⟩ => ⟨S1x1024, .f32⟩
  | .local _ .vmem, ⟨8, _⟩ => ⟨S64x1, .f32⟩
  | _, _ => ⟨S16x2048x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_20 : BitVec 32 := 0#32
  let v36 : BitVec 1 := Scalar.cmpi .ne v35 c0_i32_20
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  shapeCasts_S64_S64x1 : S64.ShapeCasts S64x1
  shapeCasts_S16x2048x32x32_S16x2048x1024 : S16x2048x32x32.ShapeCasts S16x2048x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S512x64_p1_0_S64x512 : S512x64.Transposes [1, 0] S64x512
  reduces_S64x512_S64 : S64x512.Reduces [1] S64
  reduces_S512x1024_S1024 : S512x1024.Reduces [0] S1024
  shapeCasts_S1024_S1x1024 : S1024.ShapeCasts S1x1024
  broadcasts_S1x1024_S64x1024 : S1x1024.Broadcasts S64x1024
  broadcasts_S64x1_S64x1024 : S64x1.Broadcasts S64x1024
  reduces_S64x1024_S64 : S64x1024.Reduces [1] S64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  shapeCasts_S16x64x1024_S16x64x32x32 : S16x64x1024.ShapeCasts S16x64x32x32
  dot_S512x1024_S1024x64_S512x64_1_0_0_1_n_n_wf : DotDims.WF S512x1024 S1024x64 S512x64 [1] [0] [0] [1] [] []
  dot_S64x512_S512x1024_S64x1024_1_0_0_1_n_n_wf : DotDims.WF S64x512 S512x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1024.size a ≤ S16x64x1024.size a
  hwx0_3 : ∀ i : grid0.Coords, EltTy.bits .f32 = 32 ∨ (Rect.block (s := S16x64x1024) S1x64x1024.size (cc0_transform_3 i) (hinb0_3 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.ofSpec (Memref.whole main_v24) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x32x32 : Shape := ⟨4, ![16, 2048, 32, 32]⟩
abbrev S64x2 : Shape := ⟨2, ![64, 2]⟩
abbrev S64 : Shape := ⟨1, ![64]⟩
abbrev S64x1 : Shape := ⟨2, ![64, 1]⟩
abbrev S_ : Shape := ⟨0, ![]⟩
abbrev S16x2048x64 : Shape := ⟨3, ![16, 2048, 64]⟩
abbrev S16x32x32 : Shape := ⟨3, ![16, 32, 32]⟩
abbrev S16x1x32x32 : Shape := ⟨4, ![16, 1, 32, 32]⟩
abbrev S16x64 : Shape := ⟨2, ![16, 64]⟩
abbrev S16x1x64 : Shape := ⟨3, ![16, 1, 64]⟩
abbrev S16x2048x1024 : Shape := ⟨3, ![16, 2048, 1024]⟩
abbrev S16x64x1024 : Shape := ⟨3, ![16, 64, 1024]⟩
abbrev S16x64x1 : Shape := ⟨3, ![16, 64, 1]⟩
abbrev S16x64x32x32 : Shape := ⟨4, ![16, 64, 32, 32]⟩
abbrev S1x64x1x1 : Shape := ⟨4, ![1, 64, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x32x32, .f32⟩
  | .hbm, ⟨1, _⟩ => ⟨S64x2, .f32⟩
  | .hbm, ⟨2, _⟩ => ⟨S64, .i1⟩
  | .hbm, ⟨3, _⟩ => ⟨S64x1, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64x1, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S64x1, .i32⟩
  | .hbm, ⟨46, _⟩ => ⟨S64x1, .i32⟩
  | .hbm, ⟨47, _⟩ => ⟨S64x2, .i32⟩
  | .hbm, ⟨48, _⟩ => ⟨S16x2048x64, .f32⟩
  | .hbm, ⟨49, _⟩ => ⟨S16x2048x32x32, .f32⟩
  | .hbm, ⟨50, _⟩ => ⟨S_, .f32⟩
  | .hbm, ⟨51, _⟩ => ⟨S16x32x32, .f32⟩
  | .hbm, ⟨52, _⟩ => ⟨S16x1x32x32, .f32⟩
  | .hbm, ⟨53, _⟩ => ⟨S16x1x32x32, .f32⟩
  | .hbm, ⟨54, _⟩ => ⟨S16x2048x32x32, .f32⟩
  | .hbm, ⟨55, _⟩ => ⟨S16x2048x32x32, .f32⟩
  | .hbm, ⟨56, _⟩ => ⟨S16x2048x64, .f32⟩
  | .hbm, ⟨57, _⟩ => ⟨S_, .f32⟩
  | .hbm, ⟨58, _⟩ => ⟨S16x64, .f32⟩
  | .hbm, ⟨59, _⟩ => ⟨S16x1x64, .f32⟩
  | .hbm, ⟨60, _⟩ => ⟨S16x1x64, .f32⟩
  | .hbm, ⟨61, _⟩ => ⟨S16x2048x64, .f32⟩
  | .hbm, ⟨62, _⟩ => ⟨S16x2048x64, .f32⟩
  | .hbm, ⟨63, _⟩ => ⟨S16x2048x1024, .f32⟩
  | .hbm, ⟨64, _⟩ => ⟨S16x64x1024, .f32⟩
  | .hbm, ⟨65, _⟩ => ⟨S_, .f32⟩
  | .hbm, ⟨66, _⟩ => ⟨S16x64, .f32⟩
  | .hbm, ⟨67, _⟩ => ⟨S16x64x1, .f32⟩
  | .hbm, ⟨68, _⟩ => ⟨S_, .f32⟩
  | .hbm, ⟨69, _⟩ => ⟨S16x64, .f32⟩
  | .hbm, ⟨70, _⟩ => ⟨S16x64x1, .f32⟩
  | .hbm, ⟨71, _⟩ => ⟨S16x64x1024, .f32⟩
  | .hbm, ⟨72, _⟩ => ⟨S16x64x1024, .f32⟩
  | .hbm, ⟨73, _⟩ => ⟨S16x64x1024, .f32⟩
  | .hbm, ⟨74, _⟩ => ⟨S16x64x1024, .f32⟩
  | .hbm, ⟨75, _⟩ => ⟨S16x64x32x32, .f32⟩
  | .hbm, ⟨76, _⟩ => ⟨S1x64x1x1, .i1⟩
  | .hbm, ⟨77, _⟩ => ⟨S_, .f32⟩
  | .hbm, ⟨78, _⟩ => ⟨S16x64x32x32, .i1⟩
  | .hbm, ⟨79, _⟩ => ⟨S16x64x32x32, .f32⟩
  | .hbm, ⟨80, _⟩ => ⟨S16x64x32x32, .f32⟩
  | _, _ => ⟨S16x2048x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_6 : Ref sig .tc := ⟨.hbm, 38, rfl⟩
abbrev main_v17 : Ref sig .tc := ⟨.hbm, 39, rfl⟩
abbrev main_v18 : Ref sig .tc := ⟨.hbm, 40, rfl⟩
abbrev main_c_7 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call2_v0 : Ref sig .tc := ⟨.hbm, 49, rfl⟩
abbrev main_call2_cst : Ref sig .tc := ⟨.hbm, 50, rfl⟩
abbrev main_call2_v1 : Ref sig .tc := ⟨.hbm, 51, rfl⟩
abbrev main_call2_v2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_call3_v2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_8 : Ref sig .tc := ⟨.hbm, 65, rfl⟩
abbrev main_v34 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_call4_v0 : Ref sig .tc := ⟨.hbm, 78, rfl⟩
abbrev main_call4_v1 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  bcast_S64_S64x1_0 : S64.BroadcastsInDim S64x1 (![0] : Fin 1 → Fin S64x1.rank)
  concatenates_S64x1_S64x1_S64x2_d1 : Shape.Concatenates [S64x1, S64x1] S64x2 1
  reducesTo_S16x2048x32x32_S16x32x32_d1 : S16x2048x32x32.ReducesTo [1] S16x32x32
  h_S_ : 0 < S_.numel
  bcast_S16x32x32_S16x1x32x32_0_2_3 : S16x32x32.BroadcastsInDim S16x1x32x32 (![0, 2, 3] : Fin 3 → Fin S16x1x32x32.rank)
  bcast_S16x1x32x32_S16x2048x32x32_0_1_2_3 : S16x1x32x32.BroadcastsInDim S16x2048x32x32 (![0, 1, 2, 3] : Fin 4 → Fin S16x2048x32x32.rank)
  reducesTo_S16x2048x64_S16x64_d1 : S16x2048x64.ReducesTo [1] S16x64
  bcast_S16x64_S16x1x64_0_2 : S16x64.BroadcastsInDim S16x1x64 (![0, 2] : Fin 2 → Fin S16x1x64.rank)
  bcast_S16x1x64_S16x2048x64_0_1_2 : S16x1x64.BroadcastsInDim S16x2048x64 (![0, 1, 2] : Fin 3 → Fin S16x2048x64.rank)
  shapeCasts_S16x2048x32x32_S16x2048x1024 : S16x2048x32x32.ShapeCasts S16x2048x1024
  reducesTo_S16x64x1024_S16x64_d2 : S16x64x1024.ReducesTo [2] S16x64
  bcast_S16x64_S16x64x1_0_1 : S16x64.BroadcastsInDim S16x64x1 (![0, 1] : Fin 2 → Fin S16x64x1.rank)
  bcast_S16x64x1_S16x64x1024_0_1_2 : S16x64x1.BroadcastsInDim S16x64x1024 (![0, 1, 2] : Fin 3 → Fin S16x64x1024.rank)
  shapeCasts_S16x64x1024_S16x64x32x32 : S16x64x1024.ShapeCasts S16x64x32x32
  bcast_S64_S1x64x1x1_1 : S64.BroadcastsInDim S1x64x1x1 (![1] : Fin 1 → Fin S1x64x1x1.rank)
  bcast_S1x64x1x1_S16x64x32x32_0_1_2_3 : S1x64x1x1.BroadcastsInDim S16x64x32x32 (![0, 1, 2, 3] : Fin 4 → Fin S16x64x32x32.rank)
  bcast_S_S16x64x32x32 : S_.BroadcastsInDim S16x64x32x32 (![] : Fin 0 → Fin S16x64x32x32.rank)
  gather_S16x2048x32x32_S64x2_S16x2048x64_01_23_n_n_23_1_16204811_wf : GatherDims.WF S16x2048x32x32 S64x2 S16x2048x64 [0, 1] [2, 3] [] [2, 3] [] 1 ![16, 2048, 1, 1]
  dot_S16x2048x64_S16x2048x1024_S16x64x1024_1_1_2_2_0_0_wf : DotDims.WF S16x2048x64 S16x2048x1024 S16x64x1024 [1] [1] [2] [2] [0] [0]

variable [Facts₀]

def gather_S16x2048x32x32_S64x2_S16x2048x64_01_23_n_n_23_1_16204811 : GatherDims S16x2048x32x32 S64x2 S16x2048x64 where
  offsetDims := [0, 1]
  collapsedSliceDims := [2, 3]
  operandBatchingDims := []
  startIndicesBatchingDims := []
  startIndexMap := [2, 3]
  indexVectorDim := 1
  sliceSizes := ![16, 2048, 1, 1]
  wf := gather_S16x2048x32x32_S64x2_S16x2048x64_01_23_n_n_23_1_16204811_wf
def dot_S16x2048x64_S16x2048x1024_S16x64x1024_1_1_2_2_0_0 : DotDims S16x2048x64 S16x2048x1024 S16x64x1024 where
  lhsContracting := [1]
  rhsContracting := [1]
  lhsNonContracting := [2]
  rhsNonContracting := [2]
  lhsBatch := [0]
  rhsBatch := [0]
  wf := dot_S16x2048x64_S16x2048x1024_S16x64x1024_1_1_2_2_0_0_wf

class Facts : Prop extends Facts₀ where

variable [Facts]
-- ==== Proof.Pieces.lean ====
/-
  What each control case of the kernel leaves in the three running sums it carries from tile to tile, as the
  tile's arithmetic applied to the tile's blocks and to what the sums held before.

  Case A is a batch's first tile: the sums start from zero. Case B is a middle tile and case C the last one: they
  start from what the tile before left.
-/
import proofs.«174781_j17617955848291_1_alg».proof.Proof.Gen.KernelIdeal.Frame
import Idealize.ShloMosaic.Lib.Pipeline.Value

set_option maxRecDepth 16384

noncomputable section

namespace Cert.Pieces

open Cert.KernelIdeal Cert.KernelIdeal.Gen Idealize.ShloMosaic Idealize.ShloMosaic.TcCoe Idealize.ShloMosaic.Tactic Idealize.SL.Sem

variable {F : FTy → Type} [FloatOps F]

/-- The zero offsets of a rank-2 buffer, however they are spelt. -/
theorem zero2 : (![0, 0] : Fin 2 → Nat) = fun _ => 0 := by funext a; fin_cases a <;> rfl

/-- The zero offsets of a rank-3 buffer, however they are spelt. -/
theorem zero3 : (![0, 0, 0] : Fin 3 → Nat) = fun _ => 0 := by funext a; fin_cases a <;> rfl

/-- First tile, query norms: the tile's sum of squared queries added to zero. -/
theorem first_query_norms (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : cond0_0 i) (hc1 : ¬cond0_1 i)
    (x0 : Vec F S1x512x1024 .f32) (x1 : Vec F S1024x64 .f32) (x2 : Vec F S64x1 .f32) :
    sout0_A_2 (F := F) c i arg2 harg2 arg3 harg3 arg4 harg4 arg5 harg5 arg6 harg6 arg7 harg7 arg8 harg8 hc0 hc1 x0 x1 x2
      = k0_pay9 x0 x1 (k0_pay5 (F := F)) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero zero2]
  simp only [View.readAt_eq_ld, harg2.read_unread, harg3.read_unread, View.ld_unit_zero (S := S1x512x1024) zero3,
    View.ld_unit_zero (S := S1024x64) zero2, View.readCov_unit_zero (S := S64x1) _ zero2]

/-- First tile, inner products: the tile's products added to zero. -/
theorem first_inner (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : cond0_0 i) (hc1 : ¬cond0_1 i)
    (x0 : Vec F S1x512x1024 .f32) (x1 : Vec F S1024x64 .f32) (x2 : Vec F S64x1 .f32) :
    sout0_A_0 (F := F) c i arg2 harg2 arg3 harg3 arg4 harg4 arg5 harg5 arg6 harg6 arg7 harg7 arg8 harg8 hc0 hc1 x0 x1 x2
      = k0_pay10 x0 x1 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- First tile, column norms: the tile's sum of squares added to zero. -/
theorem first_column_norms (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : cond0_0 i) (hc1 : ¬cond0_1 i)
    (x0 : Vec F S1x512x1024 .f32) (x1 : Vec F S1024x64 .f32) (x2 : Vec F S64x1 .f32) :
    sout0_A_1 (F := F) c i arg2 harg2 arg3 harg3 arg4 harg4 arg5 harg5 arg6 harg6 arg7 harg7 arg8 harg8 hc0 hc1 x0 x1 x2
      = k0_pay1 (k0_pay11 x0 (k0_pay4 (F := F))) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Middle tile, inner products: the tile's products added to what the tile before left. -/
theorem middle_inner (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : ¬cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    sout0_B_0 (F := F) c i arg2 harg2 arg3 harg3 arg4 harg4 arg5 harg5 arg6 harg6 arg7 harg7 arg8 harg8 hc0 hc1 x0 x1 x2 xs0 xs1 xs2
      = k0_pay10 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Middle tile, column norms: the tile's sum of squares added to what the tile before left. -/
theorem middle_column_norms (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : ¬cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    sout0_B_1 (F := F) c i arg2 harg2 arg3 harg3 arg4 harg4 arg5 harg5 arg6 harg6 arg7 harg7 arg8 harg8 hc0 hc1 x0 x1 x2 xs0 xs1 xs2
      = k0_pay1 (k0_pay11 x0 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Middle tile, query norms: the tile's sum of squared queries added to what the tile before left. -/
theorem middle_query_norms (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : ¬cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    sout0_B_2 (F := F) c i arg2 harg2 arg3 harg3 arg4 harg4 arg5 harg5 arg6 harg6 arg7 harg7 arg8 harg8 hc0 hc1 x0 x1 x2 xs0 xs1 xs2
      = k0_pay9 x0 x1 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Last tile, inner products: the tile's products added to what the tile before left. -/
theorem last_inner (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    sout0_C_0 (F := F) c i arg2 harg2 arg3 harg3 arg4 harg4 arg5 harg5 arg6 harg6 arg7 harg7 arg8 harg8 hc0 hc1 x0 x1 x2 xs0 xs1 xs2
      = k0_pay10 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Last tile, column norms: the tile's sum of squares added to what the tile before left. -/
theorem last_column_norms (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    sout0_C_1 (F := F) c i arg2 harg2 arg3 harg3 arg4 harg4 arg5 harg5 arg6 harg6 arg7 harg7 arg8 harg8 hc0 hc1 x0 x1 x2 xs0 xs1 xs2
      = k0_pay1 (k0_pay11 x0 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Last tile, query norms: the tile's sum of squared queries added to what the tile before left. -/
theorem last_query_norms (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    sout0_C_2 (F := F) c i arg2 harg2 arg3 harg3 arg4 harg4 arg5 harg5 arg6 harg6 arg7 harg7 arg8 harg8 hc0 hc1 x0 x1 x2 xs0 xs1 xs2
      = k0_pay9 x0 x1 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero zero2]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

/-- Last tile, the stored block: the rescaled cosines formed from the three completed sums and the valid column. -/
theorem last_result (c : Dev nD) (i : grid0.Coords) (arg2 : Memref sig .tc .vmem S1x512x1024 .f32) (harg2 : arg2.IsWhole) (arg3 : Memref sig .tc .vmem S1024x64 .f32) (harg3 : arg3.IsWhole) (arg4 : Memref sig .tc .vmem S64x1 .f32) (harg4 : arg4.IsWhole) (arg5 : Memref sig .tc .vmem S1x64x1024 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S64x1 .f32) (harg8 : arg8.IsWhole) (hc0 : ¬cond0_0 i) (hc1 : cond0_1 i)
    (x0 : Vec F S1x512x1024 .f32) (x1 : Vec F S1024x64 .f32) (x2 : Vec F S64x1 .f32) (xs0 : Vec F S64x1024 .f32) (xs1 : Vec F S1x1024 .f32) (xs2 : Vec F S64x1 .f32) :
    out0_C_3 (F := F) c i arg2 harg2 arg3 harg3 arg4 harg4 arg5 harg5 arg6 harg6 arg7 harg7 arg8 harg8 hc0 hc1 x0 x1 x2 xs0 xs1 xs2
      = k0_pay2 (k0_pay1 (k0_pay11 x0 xs1)) (k0_pay9 x0 x1 xs2) (k0_pay10 x0 x1 xs0) x2 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_cons_unit_zero zero3]
  simp only [View.readAt_eq_ld, harg2.read_unread, harg3.read_unread, harg4.read_unread, harg6.read_unread, harg7.read_unread, harg8.read_unread,
    View.ld_unit_zero (S := S1x512x1024) zero3, View.ld_unit_zero (S := S1024x64) zero2, View.ld_unit_zero (S := S64x1) zero2,
    View.ld_unit_zero (S := S64x1024) zero2, View.ld_unit_zero (S := S1x1024) zero2,
    View.readCov_unit_zero (S := S64x1) _ zero2, View.readCov_unit_zero (S := S64x1024) _ zero2, View.readCov_unit_zero (S := S1x1024) _ zero2]

end Cert.Pieces

end
-- ==== Proof.KernelTile.lean ====
/-
  One channel tile of the kernel, read entry by entry on the extended reals.

  A tile is 512 consecutive channels of one batch: a [512, 1024] block `x` (channel within the tile, location).
  `w` is the [1024, 64] selection matrix (location, point). The first matrix product contracts the 1024 locations:
  its entry at (channel c, point p) is  sum over locations k of  x[c, k] * w[k, p].
-/
import proofs.«174781_j17617955848291_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelTile

open Cert.KernelIdeal Cert.KernelIdeal.Gen Idealize.ShloMosaic Idealize.ShloMosaic.ValueIdx

local notation "DSel" => dot_S512x1024_S1024x64_S512x64_1_0_0_1_n_n

/-- The left operand's channel coordinate is the entry's channel. -/
theorem sel_lhs0 (c : Fin 512) (p : Fin 64) (q : (DSel).contr.Idx) : ((DSel).lhsIdx (ix2 c p) q 0).val = c.val := by
  unfold DotDims.lhsIdx
  rw [dif_neg (show ¬(0 : Fin S512x1024.rank) ∈ (DSel).lhsBatch by decide),
    dif_pos (show (0 : Fin S512x1024.rank) ∈ (DSel).lhsNonContracting by decide)]
  rfl

/-- The left operand's location coordinate is the contracted one. -/
theorem sel_lhs1 (c : Fin 512) (p : Fin 64) (q : (DSel).contr.Idx) :
    ((DSel).lhsIdx (ix2 c p) q 1).val = (q ⟨0, by decide⟩).val :=
  (DSel).lhsIdx_val_of_single rfl (ix2 c p) q

/-- The right operand's location coordinate is the contracted one. -/
theorem sel_rhs0 (c : Fin 512) (p : Fin 64) (q : (DSel).contr.Idx) :
    ((DSel).rhsIdx (ix2 c p) q 0).val = (q ⟨0, by decide⟩).val :=
  (DSel).rhsIdx_val_of_single rfl (ix2 c p) q

/-- The right operand's point coordinate is the entry's point. -/
theorem sel_rhs1 (c : Fin 512) (p : Fin 64) (q : (DSel).contr.Idx) : ((DSel).rhsIdx (ix2 c p) q 1).val = p.val := by
  unfold DotDims.rhsIdx
  rw [dif_neg (show ¬(1 : Fin S1024x64.rank) ∈ (DSel).rhsBatch by decide),
    dif_pos (show (1 : Fin S1024x64.rank) ∈ (DSel).rhsNonContracting by decide)]
  rfl

/-- The selection product into the zero accumulator, at (channel c, point p): the sum over locations. -/
theorem sel_apply (x : FVec Ideal S512x1024 .bf16) (w : FVec Ideal S1024x64 .bf16) (c : Fin 512) (p : Fin 64) :
    FloatOps.matmul (DSel) none x w (constant S512x64 .f32 0x00000000#32) (ix2 c p)
      = ∑ k : Fin 1024, x (ix2 c k) * w (ix2 k p) := by
  rw [Ideal.matmul_constant_zero_apply, ← Equiv.sum_comp (contrEquiv1 (DSel) 1024 rfl rfl).symm]
  refine Finset.sum_congr rfl fun k _ => ?_
  have hk := contrEquiv1_symm_val (DSel) 1024 rfl rfl k
  have el : (DSel).lhsIdx (ix2 c p) ((contrEquiv1 (DSel) 1024 rfl rfl).symm k) = ix2 c k := funext fun a => Fin.ext (by
    match a with
    | ⟨0, _⟩ => exact sel_lhs0 c p _
    | ⟨1, _⟩ => exact (sel_lhs1 c p _).trans hk)
  have er : (DSel).rhsIdx (ix2 c p) ((contrEquiv1 (DSel) 1024 rfl rfl).symm k) = ix2 k p := funext fun a => Fin.ext (by
    match a with
    | ⟨0, _⟩ => exact (sel_rhs0 c p _).trans hk
    | ⟨1, _⟩ => exact sel_rhs1 c p _)
  rw [el, er]

/-! The second matrix product contracts the tile's 512 channels: for `q` of shape [64, 512] (point, channel) and the
    block `x` of shape [512, 1024], its entry at (point p, location k) is  sum over channels c of  q[p, c] * x[c, k]. -/

local notation "DDot" => dot_S64x512_S512x1024_S64x1024_1_0_0_1_n_n

/-- The left operand's point coordinate is the entry's point. -/
theorem dot_lhs0 (p : Fin 64) (k : Fin 1024) (q : (DDot).contr.Idx) : ((DDot).lhsIdx (ix2 p k) q 0).val = p.val := by
  unfold DotDims.lhsIdx
  rw [dif_neg (show ¬(0 : Fin S64x512.rank) ∈ (DDot).lhsBatch by decide),
    dif_pos (show (0 : Fin S64x512.rank) ∈ (DDot).lhsNonContracting by decide)]
  rfl

/-- The left operand's channel coordinate is the contracted one. -/
theorem dot_lhs1 (p : Fin 64) (k : Fin 1024) (q : (DDot).contr.Idx) :
    ((DDot).lhsIdx (ix2 p k) q 1).val = (q ⟨0, by decide⟩).val :=
  (DDot).lhsIdx_val_of_single rfl (ix2 p k) q

/-- The right operand's channel coordinate is the contracted one. -/
theorem dot_rhs0 (p : Fin 64) (k : Fin 1024) (q : (DDot).contr.Idx) :
    ((DDot).rhsIdx (ix2 p k) q 0).val = (q ⟨0, by decide⟩).val :=
  (DDot).rhsIdx_val_of_single rfl (ix2 p k) q

/-- The right operand's location coordinate is the entry's location. -/
theorem dot_rhs1 (p : Fin 64) (k : Fin 1024) (q : (DDot).contr.Idx) : ((DDot).rhsIdx (ix2 p k) q 1).val = k.val := by
  unfold DotDims.rhsIdx
  rw [dif_neg (show ¬(1 : Fin S512x1024.rank) ∈ (DDot).rhsBatch by decide),
    dif_pos (show (1 : Fin S512x1024.rank) ∈ (DDot).rhsNonContracting by decide)]
  rfl

/-- The channel product into the zero accumulator, at (point p, location k): the sum over the tile's channels. -/
theorem dot_apply (q : FVec Ideal S64x512 .bf16) (x : FVec Ideal S512x1024 .bf16) (p : Fin 64) (k : Fin 1024) :
    FloatOps.matmul (DDot) none q x (constant S64x1024 .f32 0x00000000#32) (ix2 p k)
      = ∑ c : Fin 512, q (ix2 p c) * x (ix2 c k) := by
  rw [Ideal.matmul_constant_zero_apply, ← Equiv.sum_comp (contrEquiv1 (DDot) 512 rfl rfl).symm]
  refine Finset.sum_congr rfl fun c _ => ?_
  have hc := contrEquiv1_symm_val (DDot) 512 rfl rfl c
  have el : (DDot).lhsIdx (ix2 p k) ((contrEquiv1 (DDot) 512 rfl rfl).symm c) = ix2 p c := funext fun a => Fin.ext (by
    match a with
    | ⟨0, _⟩ => exact dot_lhs0 p k _
    | ⟨1, _⟩ => exact (dot_lhs1 p k _).trans hc)
  have er : (DDot).rhsIdx (ix2 p k) ((contrEquiv1 (DDot) 512 rfl rfl).symm c) = ix2 c k := funext fun a => Fin.ext (by
    match a with
    | ⟨0, _⟩ => exact (dot_rhs0 p k _).trans hc
    | ⟨1, _⟩ => exact dot_rhs1 p k _)
  rw [el, er]

/-! The query tile. The kernel forms it as the selection product transposed: at (point p, channel c) it is the sum
    over locations k of  block[0, c, k] * w[k, p]  — with `w` a one-hot matrix, the block's entry at the location
    point `p` samples. The two changes of float format on the way are the identity on the extended reals. -/

theorem query_apply (v3 : Vec Ideal S1x512x1024 .f32) (v6 : Vec Ideal S1024x64 .f32) (p : Fin 64) (c : Fin 512) :
    k0_pay8 (F := Ideal) v3 v6 (ix2 p c) = ∑ k : Fin 1024, v3 (ix3 0 c k) * v6 (ix2 k p) := by
  unfold k0_pay8 k0_pay7 k0_pay6
  refine (transpose_ix2_apply _ _ p c).trans ?_
  refine (sel_apply _ _ c p).trans ?_
  refine Finset.sum_congr rfl fun k _ => ?_
  rw [truncf_apply, truncf_apply, shapeCast_1ab_ab_apply, shapeCast_self]

/-! The three running sums a tile adds to. With `q` the query tile and `block` the tile's channels:
      query norms    new[p]    = old[p]    + sum over the tile's channels c of  q[p, c]^2
      inner products new[p, k] = old[p, k] + sum over the tile's channels c of  q[p, c] * block[c, k]
      column norms   new[k]    = old[k]    + sum over the tile's channels c of  block[c, k]^2 -/

/-- The point `p` with channel `c` inserted on the lane axis is (p, c). -/
theorem lift_lane (h : S64x512.Reduces [1] S64) (p : Fin 64) (c : Fin (S64x512.size 1)) :
    h.lift (ix1 p) c = ix2 p (⟨c.val, c.isLt⟩ : Fin 512) := by
  funext a; apply Fin.ext
  fin_cases a <;> rfl

/-- The location `k` with channel `c` inserted on the leading axis is (c, k). -/
theorem lift_chan (h : S512x1024.Reduces [0] S1024) (k : Fin 1024) (c : Fin (S512x1024.size 0)) :
    h.lift (ix1 k) c = ix2 (⟨c.val, c.isLt⟩ : Fin 512) k := by
  funext a; apply Fin.ext
  fin_cases a <;> rfl

/-- A vector of 64 entries stored as a column [64, 1] reads, at (p, 0), its entry p. -/
theorem column_cast_apply (v : FVec Ideal S64 .f32) (h : S64.ShapeCasts S64x1) (p : Fin 64) :
    shapeCast S64x1 v h (ix2 p (0 : Fin 1)) = v (ix1 p) :=
  shapeCast_apply v h _ _ (by
    rewrite [Shape.rowMajor_val_one, Shape.rowMajor_val_two]
    show p.val = p.val * 1 + 0
    omega)

/-- A vector of 1024 entries stored as a row [1, 1024] reads, at (0, k), its entry k. -/
theorem row_cast_apply (v : FVec Ideal S1024 .f32) (h : S1024.ShapeCasts S1x1024) (k : Fin 1024) :
    shapeCast S1x1024 v h (ix2 (0 : Fin 1) k) = v (ix1 k) :=
  shapeCast_apply v h _ _ (by
    rewrite [Shape.rowMajor_val_one, Shape.rowMajor_val_two]
    show k.val = 0 * 1024 + k.val
    omega)

/-- The query norms after a tile. -/
theorem query_norm_apply (v3 : Vec Ideal S1x512x1024 .f32) (v6 : Vec Ideal S1024x64 .f32) (v11 : Vec Ideal S64x1 .f32)
    (p : Fin 64) :
    k0_pay9 (F := Ideal) v3 v6 v11 (ix2 p (0 : Fin 1))
      = v11 (ix2 p (0 : Fin 1)) + ∑ c : Fin 512, k0_pay8 (F := Ideal) v3 v6 (ix2 p c) * k0_pay8 (F := Ideal) v3 v6 (ix2 p c) := by
  unfold k0_pay9
  rw [shapeCast_self]
  refine (addf_apply _ _ _).trans ?_
  refine congrArg (v11 (ix2 p (0 : Fin 1)) + ·) ?_
  refine (column_cast_apply _ _ p).trans ?_
  refine (Ideal.multiReduction_add_single _ _ _ _ _ (ix1 p)).trans ?_
  exact Finset.sum_congr rfl fun c _ => by rw [lift_lane]; rfl

/-- The inner products after a tile. -/
theorem inner_apply (v3 : Vec Ideal S1x512x1024 .f32) (v6 : Vec Ideal S1024x64 .f32) (v20 : Vec Ideal S64x1024 .f32)
    (p : Fin 64) (k : Fin 1024) :
    k0_pay10 (F := Ideal) v3 v6 v20 (ix2 p k)
      = v20 (ix2 p k) + ∑ c : Fin 512, k0_pay8 (F := Ideal) v3 v6 (ix2 p c) * v3 (ix3 (0 : Fin 1) c k) := by
  unfold k0_pay10
  rw [shapeCast_self]
  refine (addf_apply _ _ _).trans ?_
  refine congrArg (v20 (ix2 p k) + ·) ?_
  refine (dot_apply _ _ p k).trans ?_
  refine Finset.sum_congr rfl fun c _ => ?_
  unfold k0_pay7 k0_pay6
  rw [truncf_apply, truncf_apply, shapeCast_1ab_ab_apply]

/-- The column norms after a tile. -/
theorem column_norm_apply (v3 : Vec Ideal S1x512x1024 .f32) (v26 : Vec Ideal S1x1024 .f32) (k : Fin 1024) :
    k0_pay11 (F := Ideal) v3 v26 (ix2 (0 : Fin 1) k)
      = v26 (ix2 (0 : Fin 1) k) + ∑ c : Fin 512, v3 (ix3 (0 : Fin 1) c k) * v3 (ix3 (0 : Fin 1) c k) := by
  unfold k0_pay11
  refine (addf_apply _ _ _).trans ?_
  refine congrArg (v26 (ix2 (0 : Fin 1) k) + ·) ?_
  refine (row_cast_apply _ _ k).trans ?_
  refine (Ideal.multiReduction_add_single _ _ _ _ _ (ix1 k)).trans ?_
  refine Finset.sum_congr rfl fun c _ => ?_
  rw [lift_chan, mulf_apply]
  unfold k0_pay6
  rw [shapeCast_1ab_ab_apply]
  rfl

end Cert.KernelTile

end
-- ==== Proof.BlockReads.lean ====
/-
  Where each grid point's blocks sit in their arrays.

  The grid has 16 batches by 4 tiles; point `t` is tile `t % 4` of batch `t / 4`. Its block of the flattened feature
  map is batch `t / 4`, channels `512 * (t % 4)` to `512 * (t % 4) + 511`, all 1024 locations; its output block is
  batch `t / 4`, all 64 points, all 1024 locations. The selection matrix and the valid column are read whole at
  every point.
-/
import proofs.«174781_j17617955848291_1_alg».proof.Proof.Gen.KernelIdeal.Frame
import Idealize.ShloMosaic.Lib.Pipeline.Value
import Idealize.ShloMosaic.Lib.ValueIdx

set_option maxRecDepth 16384

noncomputable section

namespace Cert.BlockReads

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided once over the 64 grid points. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- The feature block of point `t`, at (channel c within the tile, location k): the flattened feature map at
    batch `t / 4`, channel `512 * (t % 4) + c`, location k. -/
theorem fea_block (c : Dev nD) (t : Fin cfg0.N) (ch : Fin 512) (k : Fin 1024) :
    iblk m c 0 t (ix3 (0 : Fin 1) ch k)
      = V m c main_v24 (ix3 (⟨t.val / 4, by have := t.isLt; have h : cfg0.N = 64 := N_0; omega⟩ : Fin 16)
          (⟨512 * (t.val % 4) + ch.val, by have := ch.isLt; omega⟩ : Fin 2048) k) := by
  obtain ⟨e0, e1, e2, -⟩ := index_facts t
  unfold iblk
  show V m c main_v24 (((cfg0.win 0).blk t).view.emb (ix3 (0 : Fin 1) ch k)) = _
  refine congrArg (V m c main_v24) (funext fun a => Fin.ext ?_)
  match a with
  | ⟨0, _⟩ => show win0_0.index t (0 : Fin 3) * 1 + 1 * 0 = t.val / 4; omega
  | ⟨1, _⟩ => show win0_0.index t (1 : Fin 3) * 512 + 1 * ch.val = 512 * (t.val % 4) + ch.val; omega
  | ⟨2, _⟩ => show win0_0.index t (2 : Fin 3) * 1024 + 1 * k.val = k.val; omega

/-- The selection matrix is read whole at every point. -/
theorem selection_block (c : Dev nD) (t : Fin cfg0.N) (k : Fin 1024) (p : Fin 64) :
    iblk m c 1 t (ix2 k p) = V m c main_v21 (ix2 k p) := by
  obtain ⟨-, -, -, e0, e1, -⟩ := index_facts t
  unfold iblk
  show V m c main_v21 (((cfg0.win 1).blk t).view.emb (ix2 k p)) = _
  refine congrArg (V m c main_v21) (funext fun a => Fin.ext ?_)
  match a with
  | ⟨0, _⟩ => show win0_1.index t (0 : Fin 2) * 1024 + 1 * k.val = k.val; omega
  | ⟨1, _⟩ => show win0_1.index t (1 : Fin 2) * 64 + 1 * p.val = p.val; omega

/-- The valid column is read whole at every point. -/
theorem valid_block (c : Dev nD) (t : Fin cfg0.N) (p : Fin 64) :
    iblk m c 2 t (ix2 p (0 : Fin 1)) = V m c main_v23 (ix2 p (0 : Fin 1)) := by
  obtain ⟨-, -, -, -, -, e0, e1, -⟩ := index_facts t
  unfold iblk
  show V m c main_v23 (((cfg0.win 2).blk t).view.emb (ix2 p (0 : Fin 1))) = _
  refine congrArg (V m c main_v23) (funext fun a => Fin.ext ?_)
  match a with
  | ⟨0, _⟩ => show win0_2.index t (0 : Fin 2) * 64 + 1 * p.val = p.val; omega
  | ⟨1, _⟩ => show win0_2.index t (1 : Fin 2) * 1 + 1 * 0 = 0; omega

/-- The output window is written back exactly at a batch's last tile. -/
theorem flush_last : ∀ t : Fin cfg0.N, (cfg0.win 3).flush t = true ↔ t.val % 4 = 3 :=
  (by decide +kernel : ∀ t : Fin grid0.N, _)

/-- An index of the output array lies in point `t`'s output block exactly when its batch is `t / 4`. -/
theorem mem_out_block (t : Fin cfg0.N) (i : S16x64x1024.Idx) :
    i ∈ ((cfg0.win 3).blk t).view.set ↔ (i 0).val = t.val / 4 := by
  obtain ⟨-, -, -, -, -, -, -, e0, e1, e2⟩ := index_facts t
  show i ∈ ((View.whole main_v25).slice (win0_3.rect t)).set ↔ _
  rw [View.set_slice_whole, Rect.mem_set_unit]
  have h0 : (i 0).val < 16 := (i 0).isLt
  have h1 : (i 1).val < 64 := (i 1).isLt
  have h2 : (i 2).val < 1024 := (i 2).isLt
  constructor
  · intro h
    have b0 : win0_3.index t (0 : Fin 3) * 1 ≤ (i 0).val ∧ (i 0).val < win0_3.index t (0 : Fin 3) * 1 + 1 := h 0
    omega
  · intro h a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 64 ≤ (i 1).val ∧ (i 1).val < win0_3.index t (1 : Fin 3) * 64 + 64; omega
    | ⟨2, _⟩ => show win0_3.index t (2 : Fin 3) * 1024 ≤ (i 2).val ∧ (i 2).val < win0_3.index t (2 : Fin 3) * 1024 + 1024; omega

/-- Every index of the output array is in the output block of its batch's last tile. -/
theorem out_cover (i : S16x64x1024.Idx) :
    ∃ t : Fin cfg0.N, (cfg0.win 3).flush t = true ∧ i ∈ ((cfg0.win 3).blk t).view.set := by
  have h0 : (i 0).val < 16 := (i 0).isLt
  refine ⟨⟨4 * (i 0).val + 3, by have h : cfg0.N = 64 := N_0; omega⟩, (flush_last _).mpr (by show (4 * (i 0).val + 3) % 4 = 3; omega), ?_⟩
  rw [mem_out_block]
  show (i 0).val = (4 * (i 0).val + 3) / 4
  omega

end Cert.BlockReads

end
-- ==== Proof.LibTileSums.lean ====
/-
  Two facts about finite sums that a tiled, selected contraction needs.

  (1) A sum over 2048 channels is the sum, over 4 tiles, of the sums over each tile's 512 channels, channel
      `512 * j + c` being channel `c` of tile `j`.
  (2) A sum of entries each multiplied by a zero-or-one selector that is one at exactly one place is the entry at
      that place. On the extended reals this needs no finiteness: a product with zero is zero even at an infinity.
-/
import Mathlib.Algebra.BigOperators.Fin
import Mathlib.Algebra.BigOperators.Group.Finset.Basic
import Mathlib.Data.EReal.Operations
import Mathlib.Tactic.Ring

noncomputable section

namespace Cert.Lib.TileSums

/-- Channel `c` of tile `j`, among 4 tiles of 512 channels. -/
def chan (j : Fin 4) (c : Fin 512) : Fin 2048 := ⟨512 * j.val + c.val, by have := j.isLt; have := c.isLt; omega⟩

/-- A sum over all 2048 channels, taken tile by tile. -/
theorem sum_tiles {M : Type*} [AddCommMonoid M] (f : Fin 2048 → M) :
    (∑ c : Fin 2048, f c) = ∑ j : Fin 4, ∑ c : Fin 512, f (chan j c) := by
  rw [← Finset.sum_product']
  refine (Finset.sum_bij' (fun (a : Fin 2048) _ => ((⟨a.val / 512, by have := a.isLt; omega⟩ : Fin 4), (⟨a.val % 512, Nat.mod_lt _ (by decide)⟩ : Fin 512)))
    (fun (jc : Fin 4 × Fin 512) _ => chan jc.1 jc.2) (fun _ _ => Finset.mem_univ _) (fun _ _ => Finset.mem_univ _) ?_ ?_ ?_)
  · intro a _
    apply Fin.ext
    show 512 * (a.val / 512) + a.val % 512 = a.val
    exact Nat.div_add_mod a.val 512
  · rintro ⟨j, c⟩ _
    have hj := j.isLt; have hc := c.isLt
    refine Prod.ext (Fin.ext ?_) (Fin.ext ?_)
    · show (512 * j.val + c.val) / 512 = j.val
      omega
    · show (512 * j.val + c.val) % 512 = c.val
      omega
  · intro a _
    congr 1
    apply Fin.ext
    show a.val = 512 * (a.val / 512) + a.val % 512
    exact (Nat.div_add_mod a.val 512).symm

/-- Selecting by a zero-or-one weight that is one exactly at `s`: the sum is the entry at `s`. -/
theorem sum_select {ι : Type*} [Fintype ι] [DecidableEq ι] (x : ι → EReal) (s : ι) :
    (∑ k : ι, x k * (if k = s then (1 : EReal) else 0)) = x s := by
  rw [Finset.sum_eq_single s]
  · rw [if_pos rfl, mul_one]
  · intro k _ hk
    rw [if_neg hk, mul_zero]
  · intro h
    exact absurd (Finset.mem_univ s) h

/-! A running sum over the channels of the first tiles, written as a sum over all 2048 channels that counts only
    the channels below a bound. -/

/-- The sum of `f` over the channels below `n`. -/
def sumBelow {M : Type*} [AddCommMonoid M] (f : Fin 2048 → M) (n : ℕ) : M := ∑ c : Fin 2048, if c.val < n then f c else 0

/-- No channel is below zero. -/
theorem sumBelow_zero {M : Type*} [AddCommMonoid M] (f : Fin 2048 → M) : sumBelow f 0 = 0 := by
  unfold sumBelow
  exact Finset.sum_eq_zero fun c _ => if_neg (Nat.not_lt_zero _)

/-- Every channel is below 2048. -/
theorem sumBelow_all {M : Type*} [AddCommMonoid M] (f : Fin 2048 → M) : sumBelow f 2048 = ∑ c : Fin 2048, f c := by
  unfold sumBelow
  exact Finset.sum_congr rfl fun c _ => if_pos c.isLt

/-- One more tile: the channels below `512 * (j + 1)` are those below `512 * j` and tile `j`'s. -/
theorem sumBelow_succ {M : Type*} [AddCommMonoid M] (f : Fin 2048 → M) (j : Fin 4) :
    sumBelow f (512 * (j.val + 1)) = sumBelow f (512 * j.val) + ∑ c : Fin 512, f (chan j c) := by
  unfold sumBelow
  rw [sum_tiles, sum_tiles (fun c => if c.val < 512 * j.val then f c else 0), ← Finset.sum_erase_add _ _ (Finset.mem_univ j),
    ← Finset.sum_erase_add (Finset.univ : Finset (Fin 4)) (fun i => ∑ c : Fin 512, if (chan i c).val < 512 * j.val then f (chan i c) else 0) (Finset.mem_univ j)]
  have hj : (∑ c : Fin 512, if (chan j c).val < 512 * j.val then f (chan j c) else 0) = 0 :=
    Finset.sum_eq_zero fun c _ => if_neg (by show ¬(512 * j.val + c.val < 512 * j.val); omega)
  have hj' : (∑ c : Fin 512, if (chan j c).val < 512 * (j.val + 1) then f (chan j c) else 0) = ∑ c : Fin 512, f (chan j c) :=
    Finset.sum_congr rfl fun c _ => if_pos (by show 512 * j.val + c.val < 512 * (j.val + 1); have := c.isLt; omega)
  rw [hj, hj', add_zero]
  congr 1
  refine Finset.sum_congr rfl fun i hi => Finset.sum_congr rfl fun c _ => ?_
  have hne : i ≠ j := Finset.ne_of_mem_erase hi
  have hv : i.val ≠ j.val := fun h => hne (Fin.ext h)
  have hc := c.isLt
  by_cases h : i.val < j.val
  · rw [if_pos (by show 512 * i.val + c.val < 512 * (j.val + 1); omega), if_pos (by show 512 * i.val + c.val < 512 * j.val; omega)]
  · rw [if_neg (by show ¬(512 * i.val + c.val < 512 * (j.val + 1)); omega), if_neg (by show ¬(512 * i.val + c.val < 512 * j.val); omega)]

end Cert.Lib.TileSums

end
-- ==== Proof.Invariant.lean ====
/-
  The running sums after each grid point.

  Point t is tile (t % 4) of batch (t / 4). With fea3 the flattened feature map, sel the selection matrix, and
    query b p ch = sum over locations k of fea3[b, ch, k] * sel[k, p],
  after point t the three carried sums hold, at every point p and location k,
    inner products = sum over channels ch below 512 * (t % 4 + 1) of  query b p ch * fea3[b, ch, k]
    column norms   = sum over channels ch below 512 * (t % 4 + 1) of  fea3[b, ch, k]^2
    query norms    = sum over channels ch below 512 * (t % 4 + 1) of  (query b p ch)^2.
  By induction on t: a batch's first tile starts from zero, every other tile adds its 512 channels to what the
  point before left.
-/
import proofs.«174781_j17617955848291_1_alg».proof.Proof.Pieces
import proofs.«174781_j17617955848291_1_alg».proof.Proof.KernelTile
import proofs.«174781_j17617955848291_1_alg».proof.Proof.BlockReads
import proofs.«174781_j17617955848291_1_alg».proof.Proof.LibTileSums

set_option maxRecDepth 16384

noncomputable section

namespace Cert.Invariant

open Cert.KernelIdeal Cert.KernelIdeal.Gen Idealize.ShloMosaic Idealize.ShloMosaic.TcCoe Idealize.SL.Sem Idealize.ShloMosaic.ValueIdx
open Cert.Lib.TileSums

variable (m : (ℓ : Loc nD τ sig) → Buf (Elt Ideal) ℓ) (c : Dev nD)

/-- The flattened feature map as the call finds it. -/
def fea3 (b : Fin 16) (ch : Fin 2048) (k : Fin 1024) : EReal := V (F := Ideal) m c main_v24 (ix3 b ch k)
/-- The selection matrix as the call finds it. -/
def sel (k : Fin 1024) (p : Fin 64) : EReal := V (F := Ideal) m c main_v21 (ix2 k p)
/-- The query of point p in channel ch of batch b. -/
def query (b : Fin 16) (p : Fin 64) (ch : Fin 2048) : EReal := ∑ k : Fin 1024, fea3 m c b ch k * sel m c k p

theorem N64 : cfg0.N = 64 := N_0

/-- The batch of a grid point. -/
def batch (t : Fin cfg0.N) : Fin 16 := ⟨t.val / 4, by have := t.isLt; have h := N64; omega⟩
/-- The tile of a grid point. -/
def tile (t : Fin cfg0.N) : Fin 4 := ⟨t.val % 4, Nat.mod_lt _ (by decide)⟩

/-- The feature block of point t is its batch's channels of its tile. -/
theorem block_entry (t : Fin cfg0.N) (ch : Fin 512) (k : Fin 1024) :
    iblk (F := Ideal) m c 0 t (ix3 (0 : Fin 1) ch k) = fea3 m c (batch t) (chan (tile t) ch) k :=
  BlockReads.fea_block m c t ch k

/-- The query tile of point t is its batch's queries in its tile's channels. -/
theorem tile_query (t : Fin cfg0.N) (p : Fin 64) (ch : Fin 512) :
    k0_pay8 (F := Ideal) (iblk m c 0 t) (iblk m c 1 t) (ix2 p ch) = query m c (batch t) p (chan (tile t) ch) := by
  refine (KernelTile.query_apply (iblk m c 0 t) (iblk m c 1 t) p ch).trans ?_
  refine Finset.sum_congr rfl fun k _ => ?_
  rw [block_entry m c t ch k]
  exact congrArg (fea3 m c (batch t) (chan (tile t) ch) k * ·) (BlockReads.selection_block m c t k p)

/-- The terms of the three sums. -/
def innerTerm (b : Fin 16) (p : Fin 64) (k : Fin 1024) (ch : Fin 2048) : EReal := query m c b p ch * fea3 m c b ch k
def colTerm (b : Fin 16) (k : Fin 1024) (ch : Fin 2048) : EReal := fea3 m c b ch k * fea3 m c b ch k
def queryTerm (b : Fin 16) (p : Fin 64) (ch : Fin 2048) : EReal := query m c b p ch * query m c b p ch

/-- One tile's step of the inner products. -/
theorem step_inner (t : Fin cfg0.N) (old : Vec Ideal S64x1024 .f32) (p : Fin 64) (k : Fin 1024)
    (hold : old (ix2 p k) = sumBelow (innerTerm m c (batch t) p k) (512 * (tile t).val)) :
    k0_pay10 (F := Ideal) (iblk m c 0 t) (iblk m c 1 t) old (ix2 p k)
      = sumBelow (innerTerm m c (batch t) p k) (512 * ((tile t).val + 1)) := by
  refine (KernelTile.inner_apply (iblk m c 0 t) (iblk m c 1 t) old p k).trans ?_
  rw [hold, sumBelow_succ]
  refine congrArg (sumBelow (innerTerm m c (batch t) p k) (512 * (tile t).val) + ·) (Finset.sum_congr rfl fun ch _ => ?_)
  rw [tile_query m c t p ch, block_entry m c t ch k]
  rfl

/-- One tile's step of the column norms. -/
theorem step_col (t : Fin cfg0.N) (old : Vec Ideal S1x1024 .f32) (k : Fin 1024)
    (hold : old (ix2 (0 : Fin 1) k) = sumBelow (colTerm m c (batch t) k) (512 * (tile t).val)) :
    k0_pay1 (F := Ideal) (k0_pay11 (F := Ideal) (iblk m c 0 t) old) (ix2 (0 : Fin 1) k)
      = sumBelow (colTerm m c (batch t) k) (512 * ((tile t).val + 1)) := by
  unfold k0_pay1
  rw [shapeCast_self]
  refine (KernelTile.column_norm_apply (iblk m c 0 t) old k).trans ?_
  rw [hold, sumBelow_succ]
  refine congrArg (sumBelow (colTerm m c (batch t) k) (512 * (tile t).val) + ·) (Finset.sum_congr rfl fun ch _ => ?_)
  rw [block_entry m c t ch k]
  rfl

/-- One tile's step of the query norms. -/
theorem step_query (t : Fin cfg0.N) (old : Vec Ideal S64x1 .f32) (p : Fin 64)
    (hold : old (ix2 p (0 : Fin 1)) = sumBelow (queryTerm m c (batch t) p) (512 * (tile t).val)) :
    k0_pay9 (F := Ideal) (iblk m c 0 t) (iblk m c 1 t) old (ix2 p (0 : Fin 1))
      = sumBelow (queryTerm m c (batch t) p) (512 * ((tile t).val + 1)) := by
  refine (KernelTile.query_norm_apply (iblk m c 0 t) (iblk m c 1 t) old p).trans ?_
  rw [hold, sumBelow_succ]
  refine congrArg (sumBelow (queryTerm m c (batch t) p) (512 * (tile t).val) + ·) (Finset.sum_congr rfl fun ch _ => ?_)
  rw [tile_query m c t p ch]
  rfl

/-- The three zero starts. -/
theorem zero_inner (i : S64x1024.Idx) : k0_pay3 (F := Ideal) i = 0 := by
  unfold k0_pay3; rw [shapeCast_self]; exact Ideal.ofBits_zero_f32
theorem zero_col (i : S1x1024.Idx) : k0_pay4 (F := Ideal) i = 0 := by
  unfold k0_pay4; rw [shapeCast_self]; exact Ideal.ofBits_zero_f32
theorem zero_query (i : S64x1.Idx) : k0_pay5 (F := Ideal) i = 0 := by
  unfold k0_pay5; rw [shapeCast_self]; exact Ideal.ofBits_zero_f32

/-- The three carried sums after point t. -/
def Holds (t : Fin cfg0.N) : Prop :=
  (∀ (p : Fin 64) (k : Fin 1024), (outsAt0 (F := Ideal) m c t.val t.isLt).2.1 (ix2 p k)
      = sumBelow (innerTerm m c (batch t) p k) (512 * ((tile t).val + 1)))
  ∧ (∀ k : Fin 1024, (outsAt0 (F := Ideal) m c t.val t.isLt).2.2.1 (ix2 (0 : Fin 1) k)
      = sumBelow (colTerm m c (batch t) k) (512 * ((tile t).val + 1)))
  ∧ (∀ p : Fin 64, (outsAt0 (F := Ideal) m c t.val t.isLt).2.2.2 (ix2 p (0 : Fin 1))
      = sumBelow (queryTerm m c (batch t) p) (512 * ((tile t).val + 1)))

/-- A batch's first tile. -/
theorem holds_first (t : Fin cfg0.N) (h0 : t.val % 4 = 0) : Holds m c t := by
  have h1 : ¬t.val % 4 = 3 := by omega
  have hz : (tile t).val = 0 := h0
  have hc0 : cond0_0 (grid0.coords t) := (hcond0_0 t).mpr h0
  have hc1 : ¬cond0_1 (grid0.coords t) := fun h => h1 ((hcond0_1 t).mp h)
  unfold Holds
  rw [outsAt0_A m c t h0 h1]
  dsimp only
  refine ⟨fun p k => ?_, fun k => ?_, fun p => ?_⟩
  · exact (congrFun (Pieces.first_inner (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t)) (ix2 p k)).trans
      (step_inner m c t _ p k (by rw [zero_inner, hz, Nat.mul_zero, sumBelow_zero]))
  · exact (congrFun (Pieces.first_column_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t)) (ix2 (0 : Fin 1) k)).trans
      (step_col m c t _ k (by rw [zero_col, hz, Nat.mul_zero, sumBelow_zero]))
  · exact (congrFun (Pieces.first_query_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t)) (ix2 p (0 : Fin 1))).trans
      (step_query m c t _ p (by rw [zero_query, hz, Nat.mul_zero, sumBelow_zero]))

/-- A middle tile adds its channels to what the point before left. -/
theorem holds_middle (t : Fin cfg0.N) (h0 : ¬t.val % 4 = 0) (h1 : ¬t.val % 4 = 3)
    (ih : Holds m c ⟨t.val - 1, Nat.lt_of_le_of_lt (Nat.sub_le _ _) t.isLt⟩) : Holds m c t := by
  have hb : batch (⟨t.val - 1, Nat.lt_of_le_of_lt (Nat.sub_le _ _) t.isLt⟩ : Fin cfg0.N) = batch t :=
    Fin.ext (by show (t.val - 1) / 4 = t.val / 4; omega)
  have ht : (tile (⟨t.val - 1, Nat.lt_of_le_of_lt (Nat.sub_le _ _) t.isLt⟩ : Fin cfg0.N)).val + 1 = (tile t).val := by
    show (t.val - 1) % 4 + 1 = t.val % 4; omega
  have hc0 : ¬cond0_0 (grid0.coords t) := fun h => h0 ((hcond0_0 t).mp h)
  have hc1 : ¬cond0_1 (grid0.coords t) := fun h => h1 ((hcond0_1 t).mp h)
  obtain ⟨i1, i2, i3⟩ := ih
  unfold Holds
  rw [outsAt0_B m c t h0 h1]
  dsimp only
  refine ⟨fun p k => ?_, fun k => ?_, fun p => ?_⟩
  · exact (congrFun (Pieces.middle_inner (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p k)).trans
      (step_inner m c t _ p k ((i1 p k).trans (by rw [hb, ht])))
  · exact (congrFun (Pieces.middle_column_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) k)).trans
      (step_col m c t _ k ((i2 k).trans (by rw [hb, ht])))
  · exact (congrFun (Pieces.middle_query_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans
      (step_query m c t _ p ((i3 p).trans (by rw [hb, ht])))

/-- A batch's last tile adds its channels to what the point before left. -/
theorem holds_last (t : Fin cfg0.N) (h0 : ¬t.val % 4 = 0) (h1 : t.val % 4 = 3)
    (ih : Holds m c ⟨t.val - 1, Nat.lt_of_le_of_lt (Nat.sub_le _ _) t.isLt⟩) : Holds m c t := by
  have hb : batch (⟨t.val - 1, Nat.lt_of_le_of_lt (Nat.sub_le _ _) t.isLt⟩ : Fin cfg0.N) = batch t :=
    Fin.ext (by show (t.val - 1) / 4 = t.val / 4; omega)
  have ht : (tile (⟨t.val - 1, Nat.lt_of_le_of_lt (Nat.sub_le _ _) t.isLt⟩ : Fin cfg0.N)).val + 1 = (tile t).val := by
    show (t.val - 1) % 4 + 1 = t.val % 4; omega
  have hc0 : ¬cond0_0 (grid0.coords t) := fun h => h0 ((hcond0_0 t).mp h)
  have hc1 : cond0_1 (grid0.coords t) := (hcond0_1 t).mpr h1
  obtain ⟨i1, i2, i3⟩ := ih
  unfold Holds
  rw [outsAt0_C m c t h0 h1]
  dsimp only
  refine ⟨fun p k => ?_, fun k => ?_, fun p => ?_⟩
  · exact (congrFun (Pieces.last_inner (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p k)).trans
      (step_inner m c t _ p k ((i1 p k).trans (by rw [hb, ht])))
  · exact (congrFun (Pieces.last_column_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 (0 : Fin 1) k)).trans
      (step_col m c t _ k ((i2 k).trans (by rw [hb, ht])))
  · exact (congrFun (Pieces.last_query_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans
      (step_query m c t _ p ((i3 p).trans (by rw [hb, ht])))

/-- After every grid point the three carried sums are the sums over the channels seen so far. -/
theorem holds : ∀ (n : ℕ) (hn : n < cfg0.N), Holds m c ⟨n, hn⟩ := by
  intro n
  induction n with
  | zero => intro hn; exact holds_first m c ⟨0, hn⟩ (Nat.zero_mod 4)
  | succ n ih =>
    intro hn
    by_cases h0 : (n + 1) % 4 = 0
    · exact holds_first m c ⟨n + 1, hn⟩ h0
    · by_cases h1 : (n + 1) % 4 = 3
      · exact holds_last m c ⟨n + 1, hn⟩ h0 h1 (ih (Nat.lt_of_succ_lt hn))
      · exact holds_middle m c ⟨n + 1, hn⟩ h0 h1 (ih (Nat.lt_of_succ_lt hn))

/-- At a batch's last tile the three sums are complete: over all 2048 channels. -/
theorem complete (t : Fin cfg0.N) (h3 : t.val % 4 = 3) :
    (∀ (p : Fin 64) (k : Fin 1024), (outsAt0 (F := Ideal) m c t.val t.isLt).2.1 (ix2 p k) = ∑ ch : Fin 2048, innerTerm m c (batch t) p k ch)
    ∧ (∀ k : Fin 1024, (outsAt0 (F := Ideal) m c t.val t.isLt).2.2.1 (ix2 (0 : Fin 1) k) = ∑ ch : Fin 2048, colTerm m c (batch t) k ch)
    ∧ (∀ p : Fin 64, (outsAt0 (F := Ideal) m c t.val t.isLt).2.2.2 (ix2 p (0 : Fin 1)) = ∑ ch : Fin 2048, queryTerm m c (batch t) p ch) := by
  obtain ⟨i1, i2, i3⟩ := holds m c t.val t.isLt
  have hN : 512 * ((tile t).val + 1) = 2048 := by show 512 * (t.val % 4 + 1) = 2048; omega
  refine ⟨fun p k => ?_, fun k => ?_, fun p => ?_⟩
  · rw [← sumBelow_all, ← hN]; exact i1 p k
  · rw [← sumBelow_all, ← hN]; exact i2 k
  · rw [← sumBelow_all, ← hN]; exact i3 p

end Cert.Invariant

end
-- ==== Proof.HostValues.lean ====
/-
  The arrays the kernel's call is handed, as functions of the program's inputs.

  Before the call the host program reshapes the feature map from [16, 2048, 32, 32] to [16, 2048, 1024] (a location's
  row and column become one flat number), builds the selection matrix, and turns the valid flags into a column of
  zeros and ones.
-/
import proofs.«174781_j17617955848291_1_alg».proof.Proof.Gen.KernelIdeal.Frame
import Idealize.ShloMosaic.Lib.StableHlo.Run
import Idealize.ShloMosaic.Lib.Pipeline.Value
import Idealize.ShloMosaic.Lib.ValueIdx

noncomputable section

namespace Cert.HostValues

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The feature map as the call finds it: the input with each location's row and column flattened. -/
theorem fea_flat (c : Dev nD) :
    (V (F := Ideal) m c main_v24 : S16x2048x1024.Idx → EReal)
      = shapeCast S16x2048x1024 (m ((c : Thread nD τ).loc main_arg0)) shapeCasts_S16x2048x32x32_S16x2048x1024 := by
  dsimp only [V, V0]
  simp only [hostOps0, hostOps0_1, hostOps0_2, hostOps0_3, hostOps0_4, List.flatten_cons, List.flatten_nil, List.append_nil,
    List.cons_append, List.nil_append]
  after_results
  rfl

/-- The valid flags as the call finds them: each flag read as 0 or 1, stored as a column. -/
theorem valid_column (c : Dev nD) :
    (V (F := Ideal) m c main_v23 : S64x1.Idx → EReal)
      = shapeCast S64x1 (uitofp (F := Ideal) .f32 (m ((c : Thread nD τ).loc main_arg2))) shapeCasts_S64_S64x1 := by
  dsimp only [V, V0]
  simp only [hostOps0, hostOps0_1, hostOps0_2, hostOps0_3, hostOps0_4, List.flatten_cons, List.flatten_nil, List.append_nil,
    List.cons_append, List.nil_append]
  after_results
  rfl

/-- The selection matrix as the call finds it: at (location, point) it compares the location's number with the
    point's flat sampled location, and reads the answer as 0 or 1. -/
theorem selection (c : Dev nD) :
    (V (F := Ideal) m c main_v21 : S1024x64.Idx → EReal)
      = uitofp (F := Ideal) .f32 (cmpi .eq
          (broadcastInDim S1024x64 ![0, 1] bcast_S1024x1_S1024x64_0_1 (broadcastInDim S1024x1 ![0] bcast_S1024_S1024x1_0 (iotaInDim S1024 32 0)))
          (broadcastInDim S1024x64 ![0, 1] bcast_S1x64_S1024x64_0_1 (broadcastInDim S1x64 ![1] bcast_S64_S1x64_1 (V (F := Ideal) m c main_v14)))) := by
  dsimp only [V, V0]
  simp only [hostOps0, hostOps0_1, hostOps0_2, hostOps0_3, hostOps0_4, List.flatten_cons, List.flatten_nil, List.append_nil,
    List.cons_append, List.nil_append]
  after_results_simp <;> rfl

/-- The flat sampled location of each point: 32 times its clamped row plus its clamped column. -/
theorem flat_location (c : Dev nD) :
    (V (F := Ideal) m c main_v14 : IVec S64 32)
      = addi (muli (V (F := Ideal) m c main_v11) (broadcastInDim S64 ![] bcast_S_S64 (constantI S_ 32 32#32))) (V (F := Ideal) m c main_v5) := by
  dsimp only [V, V0]
  simp only [hostOps0, hostOps0_1, hostOps0_2, hostOps0_3, hostOps0_4, List.flatten_cons, List.flatten_nil, List.append_nil,
    List.cons_append, List.nil_append]
  after_results_simp <;> rfl

/-- The clamped column of each point: the column word held between 0 and 31. -/
theorem clamped_column (c : Dev nD) :
    (V (F := Ideal) m c main_v5 : IVec S64 32)
      = minsi (broadcastInDim S64 ![] bcast_S_S64 (constantI S_ 32 31#32))
          (maxsi (broadcastInDim S64 ![] bcast_S_S64 (constantI S_ 32 0#32)) (V (F := Ideal) m c main_v4)) := by
  dsimp only [V, V0]
  simp only [hostOps0, hostOps0_1, hostOps0_2, hostOps0_3, hostOps0_4, List.flatten_cons, List.flatten_nil, List.append_nil,
    List.cons_append, List.nil_append]
  after_results_simp <;> rfl

/-- The clamped row of each point: the row word held between 0 and 31. -/
theorem clamped_row (c : Dev nD) :
    (V (F := Ideal) m c main_v11 : IVec S64 32)
      = minsi (broadcastInDim S64 ![] bcast_S_S64 (constantI S_ 32 31#32))
          (maxsi (broadcastInDim S64 ![] bcast_S_S64 (constantI S_ 32 0#32)) (V (F := Ideal) m c main_v10)) := by
  dsimp only [V, V0]
  simp only [hostOps0, hostOps0_1, hostOps0_2, hostOps0_3, hostOps0_4, List.flatten_cons, List.flatten_nil, List.append_nil,
    List.cons_append, List.nil_append]
  after_results_simp <;> rfl

/-- The column words: each point's first coordinate, scaled by 32 and converted to a 32-bit integer. -/
theorem column_words (c : Dev nD) :
    (V (F := Ideal) m c main_v4 : IVec S64 32)
      = fptosi 32 (mulf (shapeCast S64 (extractStridedSlice S64x1 ![0, 0] (m ((c : Thread nD τ).loc main_arg1)) slices_S64x2_S64x1_0_0) shapeCasts_S64x1_S64)
          (broadcastInDim S64 ![] bcast_S_S64 (constant (F := Ideal) S_ .f32 0x42000000#32))) := by
  dsimp only [V, V0]
  simp only [hostOps0, hostOps0_1, hostOps0_2, hostOps0_3, hostOps0_4, List.flatten_cons, List.flatten_nil, List.append_nil,
    List.cons_append, List.nil_append]
  after_results_simp <;> rfl

/-- The row words: each point's second coordinate, scaled by 32 and converted to a 32-bit integer. -/
theorem row_words (c : Dev nD) :
    (V (F := Ideal) m c main_v10 : IVec S64 32)
      = fptosi 32 (mulf (shapeCast S64 (extractStridedSlice S64x1 ![0, 1] (m ((c : Thread nD τ).loc main_arg1)) slices_S64x2_S64x1_0_1) shapeCasts_S64x1_S64)
          (broadcastInDim S64 ![] bcast_S_S64 (constant (F := Ideal) S_ .f32 0x42000000#32))) := by
  dsimp only [V, V0]
  simp only [hostOps0, hostOps0_1, hostOps0_2, hostOps0_3, hostOps0_4, List.flatten_cons, List.flatten_nil, List.append_nil,
    List.cons_append, List.nil_append]
  after_results_simp <;> rfl

end Cert.HostValues

end
-- ==== Proof.OneHot.lean ====
/-
  The selection matrix, entry by entry.

  The host compares, at (location k, point p), the location's number with the point's flat sampled location and
  reads the answer as a float: the entry is 1 where k is the location point p samples and 0 elsewhere. The flat
  location is 32 * row + column of two words that lie between 0 and 31, so the 32-bit arithmetic does not wrap.
-/
import proofs.«174781_j17617955848291_1_alg».proof.Proof.Gen.KernelIdeal
import Idealize.ShloMosaic.Lib.Pipeline.Value
import Idealize.ShloMosaic.Lib.ValueIdx
import Idealize.ShloMosaic.PureOps.Ideal

noncomputable section

namespace Cert.OneHot

open Cert.KernelIdeal Idealize.ShloMosaic Idealize.ShloMosaic.ValueIdx

/-- 32 * row + column of two words below 32, computed on 32-bit words, is that number. -/
theorem flat_toNat (r c : BitVec 32) (hr : r.toNat < 32) (hc : c.toNat < 32) :
    (IntOp.addi (IntOp.muli r 32#32) c).toNat = r.toNat * 32 + c.toNat := by
  unfold IntOp.addi IntOp.muli
  rw [BitVec.toNat_add, BitVec.toNat_mul]
  show (r.toNat * 32 % 2 ^ 32 + c.toNat) % 2 ^ 32 = r.toNat * 32 + c.toNat
  omega

/-- A location's number, as the host's counting array broadcast over the points reads it. -/
theorem counting_entry (h1 : S1024.BroadcastsInDim S1024x1 ![0]) (h3 : S1024x1.BroadcastsInDim S1024x64 ![0, 1])
    (k : Fin 1024) (p : Fin 64) :
    broadcastInDim S1024x64 ![0, 1] h3 (broadcastInDim S1024x1 ![0] h1 (iotaInDim S1024 32 0)) (ix2 k p)
      = BitVec.ofNat 32 k.val := by
  rw [broadcastInDim_apply ![0, 1] h3 _ (ix2 k p) (ix2 k (0 : Fin 1)) (fun a => by fin_cases a <;> rfl),
    broadcastInDim_apply ![0] h1 _ (ix2 k (0 : Fin 1)) (ix1 k) (fun a => by fin_cases a <;> rfl)]
  rfl

/-- A point's flat sampled location, as the host's row of them broadcast over the locations reads it. -/
theorem sampled_entry (h2 : S64.BroadcastsInDim S1x64 ![1]) (h4 : S1x64.BroadcastsInDim S1024x64 ![0, 1])
    (Fw : IVec S64 32) (k : Fin 1024) (p : Fin 64) :
    broadcastInDim S1024x64 ![0, 1] h4 (broadcastInDim S1x64 ![1] h2 Fw) (ix2 k p) = Fw (ix1 p) := by
  rw [broadcastInDim_apply ![0, 1] h4 _ (ix2 k p) (ix2 (0 : Fin 1) p) (fun a => by fin_cases a <;> rfl),
    broadcastInDim_apply ![1] h2 _ (ix2 (0 : Fin 1) p) (ix1 p) (fun a => by fin_cases a <;> rfl)]

/-- The selection matrix at (location k, point p): one where k is the sampled location, zero elsewhere. -/
theorem selection_entry (h1 : S1024.BroadcastsInDim S1024x1 ![0]) (h2 : S64.BroadcastsInDim S1x64 ![1])
    (h3 : S1024x1.BroadcastsInDim S1024x64 ![0, 1]) (h4 : S1x64.BroadcastsInDim S1024x64 ![0, 1])
    (Fw : IVec S64 32) (k : Fin 1024) (p : Fin 64) :
    uitofp (F := Ideal) .f32 (cmpi .eq
        (broadcastInDim S1024x64 ![0, 1] h3 (broadcastInDim S1024x1 ![0] h1 (iotaInDim S1024 32 0)))
        (broadcastInDim S1024x64 ![0, 1] h4 (broadcastInDim S1x64 ![1] h2 Fw))) (ix2 k p)
      = if k.val = (Fw (ix1 p)).toNat then (1 : EReal) else 0 := by
  show (((IntOp.cmpi .eq _ _).toNat : ℝ) : EReal) = _
  rw [counting_entry h1 h3 k p, sampled_entry h2 h4 Fw k p]
  unfold IntOp.cmpi
  have hk : k.val < 2 ^ 32 := lt_trans k.isLt (by decide)
  by_cases h : k.val = (Fw (ix1 p)).toNat
  · have e : (BitVec.ofNat 32 k.val == Fw (ix1 p)) = true := by
      rw [beq_iff_eq]; apply BitVec.eq_of_toNat_eq; rw [BitVec.toNat_ofNat, Nat.mod_eq_of_lt hk]; exact h
    rw [if_pos h, e]; simp
  · have e : (BitVec.ofNat 32 k.val == Fw (ix1 p)) = false := by
      rw [beq_eq_false_iff_ne]; intro hh; apply h
      have := congrArg BitVec.toNat hh
      rwa [BitVec.toNat_ofNat, Nat.mod_eq_of_lt hk] at this
    rw [if_neg h, e]; simp

end Cert.OneHot

end
-- ==== Proof.RefIndex.lean ====
/-
  The index arithmetic of the reference, read at one index.

  Each of the 64 points gets a row and a column index: a 32-bit word clamped into [0, 31] by a signed
  maximum with 0 followed by a signed minimum with 31. A clamped word is non-negative, so the
  negative-index wrap (add 32 where the word is negative) leaves it unchanged, and as a natural number it
  is below 32. The two index columns are joined side by side into a [64, 2] array, and the gather reads the
  feature map at (b, c, row, column): its start indices are already inside the map, so the clamping the
  gather applies to them is the identity.
-/
import Idealize.ShloMosaic.Lib.ValueIdx
import Idealize.ShloMosaic.Lib.Pipeline.Value
import proofs.«174781_j17617955848291_1_alg».proof.Proof.Gen.ReferenceIdeal

noncomputable section

namespace Cert.RefIndex

open Idealize.ShloMosaic Idealize.ShloMosaic.ValueIdx Cert.ReferenceIdeal

/-! ## The clamp, on one word -/

/-- The clamp of a word: the signed minimum of 31 with the signed maximum of 0 with the word. -/
abbrev clampW (w : BitVec 32) : BitVec 32 := IntOp.minsi 31#32 (IntOp.maxsi 0#32 w)

/-- A clamped word, read signed, lies in [0, 31]. -/
theorem clampW_toInt (w : BitVec 32) : 0 ≤ (clampW w).toInt ∧ (clampW w).toInt ≤ 31 := by
  have h0 : (0#32 : BitVec 32).toInt = 0 := by decide
  have h31 : (31#32 : BitVec 32).toInt = 31 := by decide
  simp only [clampW, IntOp.minsi, IntOp.maxsi, BitVec.slt, decide_eq_true_eq]
  split_ifs <;> omega

/-- A word that is non-negative read signed and at most 31 is below 32 as a natural number. -/
theorem toNat_lt_of_toInt (c : BitVec 32) (h0 : 0 ≤ c.toInt) (h31 : c.toInt ≤ 31) : c.toNat < 32 := by
  have hc := BitVec.toInt_eq_toNat_cond c
  have hlt := c.isLt
  split_ifs at hc <;> omega

/-- A clamped word is below 32 as a natural number. -/
theorem clampW_toNat_lt (w : BitVec 32) : (clampW w).toNat < 32 :=
  toNat_lt_of_toInt _ (clampW_toInt w).1 (clampW_toInt w).2

/-- The negative-index wrap of a word that is non-negative read signed is the word itself. -/
theorem wrapW_of_nonneg (c : BitVec 32) (h0 : 0 ≤ c.toInt) :
    Scalar.select (IntOp.cmpi .slt c 0#32) (IntOp.addi c 32#32) c = c := by
  have hz : (0#32 : BitVec 32).toInt = 0 := by decide
  have hs : c.slt 0#32 = false := by
    simp only [BitVec.slt, decide_eq_false_iff_not]; omega
  show Scalar.select (BitVec.ofBool (c.slt 0#32)) (IntOp.addi c 32#32) c = c
  rw [hs]
  exact select_zero _ _

/-- The wrap of a clamped word is the clamped word. -/
theorem wrapW_clampW (w : BitVec 32) :
    Scalar.select (IntOp.cmpi .slt (clampW w) 0#32) (IntOp.addi (clampW w) 32#32) (clampW w) = clampW w :=
  wrapW_of_nonneg _ (clampW_toInt w).1

/-! ## The clamp and the wrap, on the vectors of 64 words -/

/-- The clamp of a vector, as the called clip function spells it: the bounds are rank-zero constants spread
    over the 64 entries, the maximum taken first. -/
abbrev clampV (hb : S_.BroadcastsInDim S64 (![] : Fin 0 → Fin S64.rank)) (x : IVec S64 32) : IVec S64 32 :=
  minsi (broadcastInDim S64 ![] hb (constantI S_ 32 31#32))
    (maxsi (broadcastInDim S64 ![] hb (constantI S_ 32 0#32)) x)

/-- The wrap of a vector, as the program spells it: where the word is negative, the word plus 32. -/
abbrev wrapV (hb : S_.BroadcastsInDim S64 (![] : Fin 0 → Fin S64.rank)) (c : IVec S64 32) : IVec S64 32 :=
  select (cmpi .slt c (broadcastInDim S64 ![] hb (constantI S_ 32 0#32)))
    (addi c (broadcastInDim S64 ![] hb (constantI S_ 32 32#32))) c

/-- The clamp of a vector at an entry is the clamp of the entry. -/
theorem clampV_apply (hb : S_.BroadcastsInDim S64 (![] : Fin 0 → Fin S64.rank)) (x : IVec S64 32) (i : S64.Idx) :
    clampV hb x i = clampW (x i) := rfl

/-- The wrap of a vector at an entry is the wrap of the entry. -/
theorem wrapV_apply (hb : S_.BroadcastsInDim S64 (![] : Fin 0 → Fin S64.rank)) (c : IVec S64 32) (i : S64.Idx) :
    wrapV hb c i = Scalar.select (IntOp.cmpi .slt (c i) 0#32) (IntOp.addi (c i) 32#32) (c i) := rfl

/-- Every entry of a clamped vector, read signed, lies in [0, 31], and is below 32 as a natural number. -/
theorem clamp_range (hb : S_.BroadcastsInDim S64 (![] : Fin 0 → Fin S64.rank)) (x : IVec S64 32) (i : S64.Idx) :
    0 ≤ (clampV hb x i).toInt ∧ (clampV hb x i).toInt ≤ 31 ∧ (clampV hb x i).toNat < 32 :=
  ⟨(clampW_toInt (x i)).1, (clampW_toInt (x i)).2, clampW_toNat_lt (x i)⟩

/-- The wrap of a clamped vector is the clamped vector. -/
theorem wrapV_clampV (hb : S_.BroadcastsInDim S64 (![] : Fin 0 → Fin S64.rank)) (x : IVec S64 32) :
    wrapV hb (clampV hb x) = clampV hb x :=
  funext fun i => wrapW_clampW (x i)

/-- Every entry of the wrapped clamped vector is below 32 as a natural number. -/
theorem wrapV_clampV_toNat_lt (hb : S_.BroadcastsInDim S64 (![] : Fin 0 → Fin S64.rank)) (x : IVec S64 32)
    (i : S64.Idx) : (wrapV hb (clampV hb x) i).toNat < 32 := by
  rw [wrapV_clampV]; exact clampW_toNat_lt (x i)

/-! ## The two index columns joined -/

/-- A vector of 64 entries spread down a [64, 1] column, read at (p, 0), is entry p. -/
theorem column_apply {α : Type} (hb : S64.BroadcastsInDim S64x1 (![0] : Fin 1 → Fin S64x1.rank)) (v : S64.Idx → α)
    (p : Fin 64) : broadcastInDim S64x1 ![0] hb v (ix2 p (0 : Fin 1)) = v (ix1 p) :=
  broadcastInDim_apply _ hb v _ (ix1 p) (by intro a; fin_cases a; rfl)

/-- The two columns joined along axis 1, read at (p, 0): the first column at (p, 0). -/
theorem concat_apply_zero {α : Type} (hc : Shape.Concatenates [S64x1, S64x1] S64x2 1) (u v : S64x1.Idx → α)
    (p : Fin 64) :
    concatenate S64x2 1 [⟨S64x1, u⟩, ⟨S64x1, v⟩] hc (ix2 p (0 : Fin 2)) = u (ix2 p (0 : Fin 1)) :=
  concatenate_pair_apply_left 1 u v hc (ix2 p (0 : Fin 2)) rfl (ix2 p (0 : Fin 1))
    (by intro b; fin_cases b <;> rfl)

/-- The two columns joined along axis 1, read at (p, 1): the second column at (p, 0). -/
theorem concat_apply_one {α : Type} (hc : Shape.Concatenates [S64x1, S64x1] S64x2 1) (u v : S64x1.Idx → α)
    (p : Fin 64) :
    concatenate S64x2 1 [⟨S64x1, u⟩, ⟨S64x1, v⟩] hc (ix2 p (1 : Fin 2)) = v (ix2 p (0 : Fin 1)) :=
  concatenate_pair_apply_right 1 u v hc (ix2 p (1 : Fin 2)) rfl rfl (ix2 p (0 : Fin 1))
    (by intro b hb; fin_cases b
        · rfl
        · exact absurd rfl hb)
    rfl

/-! ## The gather -/

/-- A word below 32 as a natural number, read signed and clamped into [0, 31], is itself. -/
theorem clampStart (w : BitVec 32) (h : w.toNat < 32) : min w.toInt.toNat 31 = w.toNat := by
  have hi : w.toInt = (w.toNat : Int) := by
    rw [BitVec.toInt_eq_toNat_cond, if_pos (by omega)]
  rw [hi, Int.toNat_natCast]
  exact Nat.min_eq_left (by omega)

section Gather
variable [Facts₀] {α : Type}

/-- The gather of the feature map at the joined index array, read at (b, c, p): the map at
    (b, c, row, column), the row the index array's entry (p, 0) and the column its entry (p, 1), both
    already inside the map. The first two result axes are the map's first two axes whole; the last two map
    axes are collapsed and take their coordinate from the start index alone. -/
theorem gather_apply (fea : S16x2048x32x32.Idx → α) (idx : IVec S64x2 32) (b : Fin 16) (c : Fin 2048) (p : Fin 64)
    (h0 : (idx (ix2 p (0 : Fin 2))).toNat < 32) (h1 : (idx (ix2 p (1 : Fin 2))).toNat < 32) :
    Host.gather gather_S16x2048x32x32_S64x2_S16x2048x64_01_23_n_n_23_1_16204811 fea idx (ix3 b c p)
      = fea (ix4 b c (⟨(idx (ix2 p (0 : Fin 2))).toNat, h0⟩ : Fin 32) (⟨(idx (ix2 p (1 : Fin 2))).toNat, h1⟩ : Fin 32)) := by
  -- the membership facts of the dimension numbers, on the literal lists
  have m0 : (0 : Fin 4) ∉ ([2, 3] : List (Fin 4)) := by decide
  have m1 : (1 : Fin 4) ∉ ([2, 3] : List (Fin 4)) := by decide
  have m2 : (2 : Fin 4) ∈ ([2, 3] : List (Fin 4)) := by decide
  have m3 : (3 : Fin 4) ∈ ([2, 3] : List (Fin 4)) := by decide
  let G := gather_S16x2048x32x32_S64x2_S16x2048x64_01_23_n_n_23_1_16204811
  let j : S16x2048x64.Idx := ix3 b c p
  -- axes 0 and 1: no start, the result's own coordinate as the offset
  have hs0 : G.start j idx 0 = 0 := by unfold GatherDims.start; exact dif_neg m0
  have hs1 : G.start j idx 1 = 0 := by unfold GatherDims.start; exact dif_neg m1
  have ho0 : G.offCoord j 0 = b.val := by
    unfold GatherDims.offCoord
    rw [dif_pos ((G.mem_sKept 0).2 ⟨m0, List.not_mem_nil⟩)]
    rfl
  have ho1 : G.offCoord j 1 = c.val := by
    unfold GatherDims.offCoord
    rw [dif_pos ((G.mem_sKept 1).2 ⟨m1, List.not_mem_nil⟩)]
    rfl
  -- axes 2 and 3: collapsed, so no offset; the start is the index array's entry, already in range
  have ho2 : G.offCoord j 2 = 0 := G.offCoord_eq_zero j 2 fun h => ((G.mem_sKept 2).1 h).1 m2
  have ho3 : G.offCoord j 3 = 0 := G.offCoord_eq_zero j 3 fun h => ((G.mem_sKept 3).1 h).1 m3
  have hs2 : G.start j idx 2 = (idx (ix2 p (0 : Fin 2))).toNat := by
    unfold GatherDims.start
    rw [dif_pos (show (2 : Fin 4) ∈ G.startIndexMap from m2)]
    have hsi : G.siIdx j ⟨List.idxOf (2 : Fin 4) G.startIndexMap, List.idxOf_lt_length_iff.2 m2⟩ = ix2 p (0 : Fin 2) := by
      funext b'; refine Fin.ext ?_
      match b' with
      | ⟨0, _⟩ => rfl
      | ⟨1, _⟩ => rfl
    rw [hsi]
    exact clampStart _ h0
  have hs3 : G.start j idx 3 = (idx (ix2 p (1 : Fin 2))).toNat := by
    unfold GatherDims.start
    rw [dif_pos (show (3 : Fin 4) ∈ G.startIndexMap from m3)]
    have hsi : G.siIdx j ⟨List.idxOf (3 : Fin 4) G.startIndexMap, List.idxOf_lt_length_iff.2 m3⟩ = ix2 p (1 : Fin 2) := by
      funext b'; refine Fin.ext ?_
      match b' with
      | ⟨0, _⟩ => rfl
      | ⟨1, _⟩ => rfl
    rw [hsi]
    exact clampStart _ h1
  unfold Host.gather
  refine congrArg fea (funext fun a => Fin.ext ?_)
  show G.start j idx a + G.batchCoord j a + G.offCoord j a = _
  rw [G.batchCoord_eq_zero j a List.not_mem_nil, Nat.add_zero]
  match a with
  | ⟨0, _⟩ => show G.start j idx 0 + G.offCoord j 0 = b.val; rw [hs0, ho0, Nat.zero_add]
  | ⟨1, _⟩ => show G.start j idx 1 + G.offCoord j 1 = c.val; rw [hs1, ho1, Nat.zero_add]
  | ⟨2, _⟩ => show G.start j idx 2 + G.offCoord j 2 = (idx (ix2 p (0 : Fin 2))).toNat; rw [hs2, ho2, Nat.add_zero]
  | ⟨3, _⟩ => show G.start j idx 3 + G.offCoord j 3 = (idx (ix2 p (1 : Fin 2))).toNat; rw [hs3, ho3, Nat.add_zero]

end Gather

/-! ## The index array and the gather, composed -/

/-- The index array built from the two raw index vectors: each clamped, wrapped and spread down a column,
    the first vector's column on the left (column 0), the second's on the right (column 1). -/
abbrev indexArray (hb : S_.BroadcastsInDim S64 (![] : Fin 0 → Fin S64.rank))
    (hb' : S64.BroadcastsInDim S64x1 (![0] : Fin 1 → Fin S64x1.rank))
    (hc : Shape.Concatenates [S64x1, S64x1] S64x2 1) (r s : IVec S64 32) : IVec S64x2 32 :=
  concatenate S64x2 1
    [⟨S64x1, broadcastInDim S64x1 ![0] hb' (wrapV hb (clampV hb r))⟩,
     ⟨S64x1, broadcastInDim S64x1 ![0] hb' (wrapV hb (clampV hb s))⟩] hc

/-- The index array at (p, 0): the first vector's entry p, clamped. -/
theorem indexArray_zero (hb : S_.BroadcastsInDim S64 (![] : Fin 0 → Fin S64.rank))
    (hb' : S64.BroadcastsInDim S64x1 (![0] : Fin 1 → Fin S64x1.rank))
    (hc : Shape.Concatenates [S64x1, S64x1] S64x2 1) (r s : IVec S64 32) (p : Fin 64) :
    indexArray hb hb' hc r s (ix2 p (0 : Fin 2)) = clampW (r (ix1 p)) := by
  rw [indexArray, concat_apply_zero, column_apply, wrapV_clampV]
  rfl

/-- The index array at (p, 1): the second vector's entry p, clamped. -/
theorem indexArray_one (hb : S_.BroadcastsInDim S64 (![] : Fin 0 → Fin S64.rank))
    (hb' : S64.BroadcastsInDim S64x1 (![0] : Fin 1 → Fin S64x1.rank))
    (hc : Shape.Concatenates [S64x1, S64x1] S64x2 1) (r s : IVec S64 32) (p : Fin 64) :
    indexArray hb hb' hc r s (ix2 p (1 : Fin 2)) = clampW (s (ix1 p)) := by
  rw [indexArray, concat_apply_one, column_apply, wrapV_clampV]
  rfl

section Composed
variable [Facts₀] {α : Type}

/-- The gather of the feature map at the index array, read at (b, c, p): the map at row the first vector's
    clamped entry p and column the second vector's clamped entry p. -/
theorem gather_indexArray_apply (hb : S_.BroadcastsInDim S64 (![] : Fin 0 → Fin S64.rank))
    (hb' : S64.BroadcastsInDim S64x1 (![0] : Fin 1 → Fin S64x1.rank))
    (hc : Shape.Concatenates [S64x1, S64x1] S64x2 1) (fea : S16x2048x32x32.Idx → α) (r s : IVec S64 32)
    (b : Fin 16) (c : Fin 2048) (p : Fin 64) :
    Host.gather gather_S16x2048x32x32_S64x2_S16x2048x64_01_23_n_n_23_1_16204811 fea (indexArray hb hb' hc r s) (ix3 b c p)
      = fea (ix4 b c (⟨(clampW (r (ix1 p))).toNat, clampW_toNat_lt _⟩ : Fin 32)
          (⟨(clampW (s (ix1 p))).toNat, clampW_toNat_lt _⟩ : Fin 32)) := by
  have e0 := indexArray_zero hb hb' hc r s p
  have e1 := indexArray_one hb hb' hc r s p
  rw [gather_apply fea _ b c p (by rw [e0]; exact clampW_toNat_lt _) (by rw [e1]; exact clampW_toNat_lt _)]
  exact congrArg fea (congrArg₂ (ix4 b c) (Fin.ext (congrArg BitVec.toNat e0)) (Fin.ext (congrArg BitVec.toNat e1)))

end Composed

end Cert.RefIndex

end
-- ==== Proof.Sampled.lean ====
/-
  The location each point samples, as both programs compute it.

  A point's two coordinates are scaled by 32 and converted to 32-bit integers (toward zero, out-of-range values
  clamped by the conversion itself); each word is then held between 0 and 31. The column comes from the point's
  first coordinate, the row from its second; the flat location is 32 * row + column.
-/
import proofs.«174781_j17617955848291_1_alg».proof.Proof.RefIndex
import Idealize.ShloMosaic.PureOps.Ideal
import Idealize.ShloMosaic.Lib.ValueIdx

noncomputable section

namespace Cert.Sampled

open Idealize.ShloMosaic Idealize.ShloMosaic.ValueIdx Cert.RefIndex

/-- The scale: the float 32. -/
abbrev scale : EReal := Ideal.ofBits .f32 0x42000000#32

/-- The column word of point `p`: its first coordinate times 32, converted. -/
def colWord (pl : (⟨2, ![64, 2]⟩ : Shape).Idx → EReal) (p : Fin 64) : BitVec 32 := Ideal.fptosi 32 (pl (ix2 p (0 : Fin 2)) * scale)

/-- The row word of point `p`: its second coordinate times 32, converted. -/
def rowWord (pl : (⟨2, ![64, 2]⟩ : Shape).Idx → EReal) (p : Fin 64) : BitVec 32 := Ideal.fptosi 32 (pl (ix2 p (1 : Fin 2)) * scale)

/-- The flat location point `p` samples: 32 times its clamped row plus its clamped column. -/
def loc (pl : (⟨2, ![64, 2]⟩ : Shape).Idx → EReal) (p : Fin 64) : Fin 1024 :=
  ⟨(clampW (rowWord pl p)).toNat * 32 + (clampW (colWord pl p)).toNat, by
    have hr := clampW_toNat_lt (rowWord pl p)
    have hc := clampW_toNat_lt (colWord pl p)
    omega⟩

/-- The sampled location's row and column, read back from the flat number. -/
theorem loc_div (pl : (⟨2, ![64, 2]⟩ : Shape).Idx → EReal) (p : Fin 64) : (loc pl p).val / 32 = (clampW (rowWord pl p)).toNat := by
  have hc := clampW_toNat_lt (colWord pl p)
  show ((clampW (rowWord pl p)).toNat * 32 + (clampW (colWord pl p)).toNat) / 32 = _
  omega

theorem loc_mod (pl : (⟨2, ![64, 2]⟩ : Shape).Idx → EReal) (p : Fin 64) : (loc pl p).val % 32 = (clampW (colWord pl p)).toNat := by
  have hc := clampW_toNat_lt (colWord pl p)
  show ((clampW (rowWord pl p)).toNat * 32 + (clampW (colWord pl p)).toNat) % 32 = _
  omega

/-- Whether point `p` is valid: its one-bit flag is set. -/
def validAt (v : (⟨1, ![64]⟩ : Shape).Idx → BitVec 1) (p : Fin 64) : Bool := decide (v (ix1 p) = 1#1)

/-- A one-bit flag read as a number is one when set and zero otherwise. -/
theorem flag_toNat (w : BitVec 1) : ((w.toNat : ℝ) : EReal) = if w = 1#1 then (1 : EReal) else 0 := by
  have h : w = 0#1 ∨ w = 1#1 := by
    have := w.isLt
    rcases Nat.lt_or_ge w.toNat 1 with h | h
    · left; apply BitVec.eq_of_toNat_eq; simp; omega
    · right; apply BitVec.eq_of_toNat_eq; simp; omega
  rcases h with h | h <;> subst h <;> simp

end Cert.Sampled

end
-- ==== Proof.Spec.lean ====
/-
  The specification: what both programs compute, as one function of the inputs.

  `fea` is a feature map with 16 batches, 2048 channels and 32 x 32 = 1024 locations; it is read here with the
  location flattened, `feaAt fea b c k` for `k = 32 * row + column`. Each of 64 points samples one location
  `s p`. For batch `b`, point `p` and location `k`:

    normSq b k   = sum over channels c of  fea[b, c, k]^2                      (the squared norm of a column)
    inner b p k  = sum over channels c of  fea[b, c, s p] * fea[b, c, k]       (sampled column against column k)
    cosine b p k = inner b p k / (sqrt (normSq b k) * sqrt (normSq b (s p)))

  and the result at (b, p, row, column) is the cosine rescaled by its row's extremes,
  (cosine - least) / greatest with least and greatest taken over all 1024 locations, kept where the point is
  valid and zero elsewhere.
-/
import Idealize.ShloMosaic.PureOps.Ideal
import Idealize.ShloMosaic.Lib.ValueIdx

noncomputable section

namespace Cert.Spec

open Idealize.ShloMosaic Idealize.ShloMosaic.ValueIdx

/-- The location with flat number `k` is row `k / 32`, column `k % 32`. -/
def feaAt (fea : (⟨4, ![16, 2048, 32, 32]⟩ : Shape).Idx → EReal) (b : Fin 16) (c : Fin 2048) (k : Fin 1024) : EReal :=
  fea (ix4 b c ⟨k.val / 32, by have := k.isLt; omega⟩ ⟨k.val % 32, Nat.mod_lt _ (by decide)⟩)

variable (fea : (⟨4, ![16, 2048, 32, 32]⟩ : Shape).Idx → EReal) (s : Fin 64 → Fin 1024)

/-- The squared norm of the channel column at location `k` of batch `b`. -/
def normSq (b : Fin 16) (k : Fin 1024) : EReal := ∑ c : Fin 2048, feaAt fea b c k * feaAt fea b c k

/-- The inner product, over channels, of the column point `p` samples with the column at location `k`. -/
def inner (b : Fin 16) (p : Fin 64) (k : Fin 1024) : EReal := ∑ c : Fin 2048, feaAt fea b c (s p) * feaAt fea b c k

/-- The cosine of the two columns: the inner product over the product of the two norms. -/
def cosine (b : Fin 16) (p : Fin 64) (k : Fin 1024) : EReal :=
  Ideal.div (inner fea s b p k) (Ideal.sqrt (normSq fea b k) * Ideal.sqrt (normSq fea b (s p)))

/-- The least cosine of point `p` over all locations. -/
def least (b : Fin 16) (p : Fin 64) : EReal := Finset.univ.inf fun k : Fin 1024 => cosine fea s b p k

/-- The greatest cosine of point `p` over all locations. -/
def greatest (b : Fin 16) (p : Fin 64) : EReal := Finset.univ.sup fun k : Fin 1024 => cosine fea s b p k

/-- The result: the rescaled cosine at location `32 * row + column`, zero for a point that is not valid. -/
def result (valid : Fin 64 → Bool) (j : (⟨4, ![16, 64, 32, 32]⟩ : Shape).Idx) : EReal :=
  if valid (j 1) then
    Ideal.div (cosine fea s (j 0) (j 1) ⟨(j 2).val * 32 + (j 3).val, by have h2 : (j 2).val < 32 := (j 2).isLt; have h3 : (j 3).val < 32 := (j 3).isLt; show (j 2).val * 32 + (j 3).val < 1024; omega⟩
        - least fea s (j 0) (j 1)) (greatest fea s (j 0) (j 1))
  else 0

end Cert.Spec

end
-- ==== Proof.KernelJoin.lean ====
/-
  The kernel's host-side arrays in the specification's terms.

  The flattened feature map is the input read at (row, column) = (k / 32, k % 32); each point's flat sampled location,
  as the host computes it on 32-bit words, is the specification's; so the selection matrix is one exactly at the
  sampled location, and a query is the feature map's entry there.
-/
import proofs.«174781_j17617955848291_1_alg».proof.Proof.Invariant
import proofs.«174781_j17617955848291_1_alg».proof.Proof.HostValues
import proofs.«174781_j17617955848291_1_alg».proof.Proof.OneHot
import proofs.«174781_j17617955848291_1_alg».proof.Proof.Sampled
import proofs.«174781_j17617955848291_1_alg».proof.Proof.Spec

set_option maxRecDepth 16384

noncomputable section

namespace Cert.KernelJoin

open Cert.KernelIdeal Cert.KernelIdeal.Gen Idealize.ShloMosaic Idealize.ShloMosaic.TcCoe Idealize.SL.Sem Idealize.ShloMosaic.ValueIdx
open Cert.Lib.TileSums Cert.Invariant Cert.RefIndex

variable (m : (ℓ : Loc nD τ sig) → Buf (Elt Ideal) ℓ) (c : Dev nD)

/-- The feature map the program is given. -/
abbrev feaIn : S16x2048x32x32.Idx → EReal := m ((c : Thread nD τ).loc main_arg0)
/-- The points the program is given. -/
abbrev ptsIn : S64x2.Idx → EReal := m ((c : Thread nD τ).loc main_arg1)

/-- The host's row word of point p is the specification's. -/
theorem row_word (p : Fin 64) : V (F := Ideal) m c main_v10 (ix1 p) = Sampled.rowWord (ptsIn m c) p := by
  rw [HostValues.row_words m c]
  show Ideal.fptosi 32 (shapeCast S64 (extractStridedSlice S64x1 ![0, 1] (ptsIn m c) slices_S64x2_S64x1_0_1) shapeCasts_S64x1_S64 (ix1 p)
      * broadcastInDim S64 ![] bcast_S_S64 (constant (F := Ideal) S_ .f32 0x42000000#32) (ix1 p)) = _
  rw [shapeCast_apply _ shapeCasts_S64x1_S64 (ix1 p) (ix2 p (0 : Fin 1)) (by
      rewrite [Shape.rowMajor_val_two, Shape.rowMajor_val_one]; show p.val * 1 + 0 = p.val; omega),
    extractStridedSlice_apply ![0, 1] _ slices_S64x2_S64x1_0_1 (ix2 p (0 : Fin 1)) (ix2 p (1 : Fin 2)) (fun a => by
      match a with
      | ⟨0, _⟩ => show p.val = 0 + p.val; omega
      | ⟨1, _⟩ => rfl),
    broadcastInDim_apply ![] bcast_S_S64 _ (ix1 p) ix0 (fun a => a.elim0)]
  rfl

/-- The host's column word of point p is the specification's. -/
theorem col_word (p : Fin 64) : V (F := Ideal) m c main_v4 (ix1 p) = Sampled.colWord (ptsIn m c) p := by
  rw [HostValues.column_words m c]
  show Ideal.fptosi 32 (shapeCast S64 (extractStridedSlice S64x1 ![0, 0] (ptsIn m c) slices_S64x2_S64x1_0_0) shapeCasts_S64x1_S64 (ix1 p)
      * broadcastInDim S64 ![] bcast_S_S64 (constant (F := Ideal) S_ .f32 0x42000000#32) (ix1 p)) = _
  rw [shapeCast_apply _ shapeCasts_S64x1_S64 (ix1 p) (ix2 p (0 : Fin 1)) (by
      rewrite [Shape.rowMajor_val_two, Shape.rowMajor_val_one]; show p.val * 1 + 0 = p.val; omega),
    extractStridedSlice_apply ![0, 0] _ slices_S64x2_S64x1_0_0 (ix2 p (0 : Fin 1)) (ix2 p (0 : Fin 2)) (fun a => by
      match a with
      | ⟨0, _⟩ => show p.val = 0 + p.val; omega
      | ⟨1, _⟩ => rfl),
    broadcastInDim_apply ![] bcast_S_S64 _ (ix1 p) ix0 (fun a => a.elim0)]
  rfl

/-- The host's flat word of point p has the specification's sampled location as its value. -/
theorem flat_word (p : Fin 64) : (V (F := Ideal) m c main_v14 (ix1 p)).toNat = (Sampled.loc (ptsIn m c) p).val := by
  rw [HostValues.flat_location m c]
  show (IntOp.addi (IntOp.muli (V (F := Ideal) m c main_v11 (ix1 p))
      (broadcastInDim S64 ![] bcast_S_S64 (constantI S_ 32 32#32) (ix1 p))) (V (F := Ideal) m c main_v5 (ix1 p))).toNat = _
  rw [broadcastInDim_apply ![] bcast_S_S64 _ (ix1 p) ix0 (fun a => a.elim0)]
  show (IntOp.addi (IntOp.muli (V (F := Ideal) m c main_v11 (ix1 p)) 32#32) (V (F := Ideal) m c main_v5 (ix1 p))).toNat = _
  have hr : V (F := Ideal) m c main_v11 (ix1 p) = clampW (Sampled.rowWord (ptsIn m c) p) := by
    rw [HostValues.clamped_row m c]
    exact (clampV_apply bcast_S_S64 _ (ix1 p)).trans (congrArg clampW (row_word m c p))
  have hc : V (F := Ideal) m c main_v5 (ix1 p) = clampW (Sampled.colWord (ptsIn m c) p) := by
    rw [HostValues.clamped_column m c]
    exact (clampV_apply bcast_S_S64 _ (ix1 p)).trans (congrArg clampW (col_word m c p))
  rw [hr, hc, OneHot.flat_toNat _ _ (clampW_toNat_lt _) (clampW_toNat_lt _)]
  rfl

/-- The flattened feature map is the input read at row k / 32, column k % 32. -/
theorem fea3_eq (b : Fin 16) (ch : Fin 2048) (k : Fin 1024) : fea3 m c b ch k = Spec.feaAt (feaIn m c) b ch k := by
  unfold fea3 Spec.feaAt
  rw [HostValues.fea_flat m c]
  refine shapeCast_apply _ shapeCasts_S16x2048x32x32_S16x2048x1024 (ix3 b ch k) _ ?_
  rewrite [Shape.rowMajor_val_four, Shape.rowMajor_val_three]
  show ((b.val * 2048 + ch.val) * 32 + k.val / 32) * 32 + k.val % 32 = (b.val * 2048 + ch.val) * 1024 + k.val
  have := Nat.div_add_mod k.val 32
  omega

/-- The selection matrix is one exactly at the sampled location. -/
theorem sel_eq (k : Fin 1024) (p : Fin 64) :
    sel m c k p = if k = Sampled.loc (ptsIn m c) p then (1 : EReal) else 0 := by
  unfold sel
  rw [HostValues.selection m c]
  refine (OneHot.selection_entry bcast_S1024_S1024x1_0 bcast_S64_S1x64_1 bcast_S1024x1_S1024x64_0_1 bcast_S1x64_S1024x64_0_1
    (V (F := Ideal) m c main_v14) k p).trans ?_
  rw [flat_word m c p]
  exact if_congr Fin.ext_iff.symm rfl rfl

/-- A query is the feature map's entry at the sampled location. -/
theorem query_eq (b : Fin 16) (p : Fin 64) (ch : Fin 2048) :
    query m c b p ch = Spec.feaAt (feaIn m c) b ch (Sampled.loc (ptsIn m c) p) := by
  unfold query
  refine (Finset.sum_congr rfl fun k _ => ?_).trans (sum_select (fun k => Spec.feaAt (feaIn m c) b ch k) (Sampled.loc (ptsIn m c) p))
  rw [fea3_eq, sel_eq]

/-- The complete inner products are the specification's. -/
theorem inner_sum (b : Fin 16) (p : Fin 64) (k : Fin 1024) :
    (∑ ch : Fin 2048, innerTerm m c b p k ch) = Spec.inner (feaIn m c) (Sampled.loc (ptsIn m c)) b p k := by
  unfold Spec.inner
  exact Finset.sum_congr rfl fun ch _ => by unfold innerTerm; rw [query_eq, fea3_eq]

/-- The complete column norms are the specification's squared norms. -/
theorem col_sum (b : Fin 16) (k : Fin 1024) :
    (∑ ch : Fin 2048, colTerm m c b k ch) = Spec.normSq (feaIn m c) b k := by
  unfold Spec.normSq
  exact Finset.sum_congr rfl fun ch _ => by unfold colTerm; rw [fea3_eq]

/-- The complete query norms are the specification's squared norms at the sampled location. -/
theorem query_sum (b : Fin 16) (p : Fin 64) :
    (∑ ch : Fin 2048, queryTerm m c b p ch) = Spec.normSq (feaIn m c) b (Sampled.loc (ptsIn m c) p) := by
  unfold Spec.normSq
  exact Finset.sum_congr rfl fun ch _ => by unfold queryTerm; rw [query_eq]

end Cert.KernelJoin

end
-- ==== Proof.KernelLast.lean ====
/-
  The kernel's last step, read entry by entry on the extended reals.

  At its last channel tile the kernel holds three accumulated arrays: the squared norms of the 1024 locations (a row
  n2), the squared norms of the 64 points (a column m2), and the [64, 1024] array d of inner products of points
  with locations. With a column g of 64 gains it stores, at (point p, location k),

      ((c p k - min over k' of c p k') / (max over k' of c p k')) * g p,     c p k = d p k / (sqrt (n2 k) * sqrt (m2 p)),

  the cosine of point p against location k, shifted by its row's minimum and divided by its row's maximum. The
  minimum and the maximum are taken over all 1024 locations of the row, from +infinity and -infinity, so they are the
  infimum and the supremum of the row on the extended reals.
-/
import proofs.«174781_j17617955848291_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelLast

open Cert.KernelIdeal Cert.KernelIdeal.Gen Idealize.ShloMosaic Idealize.ShloMosaic.ValueIdx

/-! ## A column read through a broadcast and through a cast that adds a trailing unit axis -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two infinities, and a minimum over one axis as a fold -/

/-- The word of +infinity denotes the top of the extended reals. -/
theorem ofBits_posInf : Ideal.ofBits .f32 0x7F800000#32 = ⊤ := by simp [Ideal.ofBits, Ideal.ieee]

/-- The word of -infinity denotes the bottom of the extended reals. -/
theorem ofBits_negInf : Ideal.ofBits .f32 0xFF800000#32 = ⊥ := by simp [Ideal.ofBits, Ideal.ieee]

/-- A minimum reduction over one axis, on the extended reals: the fold of `min` from the accumulator's value over that
    axis's coordinates, as a maximum reduction is the fold of `max`. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## A row's minimum and maximum -/

/-- In a [64, 1024] array, the index over row `p` with location `k` inserted is `(p, k)`. -/
theorem lift_row (p : Fin 64) (k : Fin 1024) : reduces_S64x1024_S64.lift (ix1 p) k = ix2 p k := by
  funext c
  apply Fin.ext
  match c with
  | ⟨0, _⟩ => rfl
  | ⟨1, _⟩ => rfl

/-- The row maximum from -infinity is the supremum of the row. -/
theorem rowMax_apply (x : FVec Ideal S64x1024 .f32) (p : Fin 64) :
    multiReduction (F := Ideal) .maximumf [1] S64 x 0xFF800000#32 reduces_S64x1024_S64 (.inl rfl) rfl (ix1 p)
      = Finset.univ.sup (fun k : Fin 1024 => x (ix2 p k)) := by
  refine (Ideal.multiReduction_maximumf_single x _ reduces_S64x1024_S64 _ _ (ix1 p)).trans ?_
  have hf : (x ∘ reduces_S64x1024_S64.lift (ix1 p)) = fun k : Fin 1024 => x (ix2 p k) :=
    funext fun k => congrArg x (lift_row p k)
  rw [hf, Ideal.ofBits_def, ofBits_negInf]
  rfl

/-- The row minimum from +infinity is the infimum of the row. -/
theorem rowMin_apply (x : FVec Ideal S64x1024 .f32) (p : Fin 64) :
    multiReduction (F := Ideal) .minimumf [1] S64 x 0x7F800000#32 reduces_S64x1024_S64 (.inl rfl) rfl (ix1 p)
      = Finset.univ.inf (fun k : Fin 1024 => x (ix2 p k)) := by
  refine (multiReduction_minimumf_single x _ reduces_S64x1024_S64 _ _ (ix1 p)).trans ?_
  have hf : (x ∘ reduces_S64x1024_S64.lift (ix1 p)) = fun k : Fin 1024 => x (ix2 p k) :=
    funext fun k => congrArg x (lift_row p k)
  rw [hf, Ideal.ofBits_def, ofBits_posInf]
  rfl

/-! ## The cosines -/

/-- The cosine of point `p` against location `k`: their inner product over the product of the two norms, the norms read
    as square roots of the accumulated squared norms. -/
def cosAt (v37 : Vec Ideal S1x1024 .f32) (v39 : Vec Ideal S64x1 .f32) (v41 : Vec Ideal S64x1024 .f32) (p : Fin 64)
    (k : Fin 1024) : EReal :=
  Ideal.div (v41 (ix2 p k)) (Ideal.sqrt (v37 (ix2 0 k)) * Ideal.sqrt (v39 (ix2 p 0)))

/-- The [64, 1024] array of cosines as the kernel forms it: the inner products over the product of the row of location
    norms and the column of point norms, each spread over the whole array. -/
def cosV (v37 : Vec Ideal S1x1024 .f32) (v39 : Vec Ideal S64x1 .f32) (v41 : Vec Ideal S64x1024 .f32) :
    FVec Ideal S64x1024 .f32 :=
  divf v41 (mulf (broadcastTo S64x1024 (sqrt v37) broadcasts_S1x1024_S64x1024)
    (broadcastTo S64x1024 (sqrt v39) broadcasts_S64x1_S64x1024))

/-- The array of cosines at (p, k) is the cosine of point `p` against location `k`. -/
theorem cosV_apply (v37 : Vec Ideal S1x1024 .f32) (v39 : Vec Ideal S64x1 .f32) (v41 : Vec Ideal S64x1024 .f32) (p : Fin 64)
    (k : Fin 1024) : cosV v37 v39 v41 (ix2 p k) = cosAt v37 v39 v41 p k := by
  unfold cosV cosAt
  rw [divf_apply, mulf_apply, broadcastTo_1b_ab_apply, broadcastTo_a1_ab_apply]
  rfl

/-! ## A column of row statistics spread over the array -/

/-- A length-64 vector, cast to a column and spread over [64, 1024], reads at (p, k) its entry `p`. -/
theorem col_of_vec_apply (r : FVec Ideal S64 .f32) (p : Fin 64) (k : Fin 1024) :
    broadcastTo S64x1024 (shapeCast S64x1 r shapeCasts_S64_S64x1) broadcasts_S64x1_S64x1024 (ix2 p k) = r (ix1 p) :=
  (broadcastTo_a1_ab_apply _ broadcasts_S64x1_S64x1024 p k).trans (shapeCast_a_a1_apply r shapeCasts_S64_S64x1 p 0)

/-- A column, cast to its own shape and spread over [64, 1024], reads at (p, k) its entry `p`. -/
theorem col_apply (g : Vec Ideal S64x1 .f32) (p : Fin 64) (k : Fin 1024) :
    broadcastTo S64x1024 (shapeCast S64x1 g shapeCasts_S64x1_S64x1) broadcasts_S64x1_S64x1024 (ix2 p k) = g (ix2 p 0) :=
  (broadcastTo_a1_ab_apply _ broadcasts_S64x1_S64x1024 p k).trans
    (congrFun (shapeCast_self g shapeCasts_S64x1_S64x1) (ix2 p 0))

/-! ## The stored value -/

/-- The value stored at the last channel tile, as one expression over the array of cosines. -/
theorem pay2_eq (v37 : Vec Ideal S1x1024 .f32) (v39 : Vec Ideal S64x1 .f32) (v41 : Vec Ideal S64x1024 .f32)
    (v54 : Vec Ideal S64x1 .f32) :
    k0_pay2 (F := Ideal) v37 v39 v41 v54
      = shapeCast S1x64x1024
          (mulf
            (divf
              (subf (cosV v37 v39 v41)
                (broadcastTo S64x1024
                  (shapeCast S64x1
                    (multiReduction (F := Ideal) .minimumf [1] S64 (cosV v37 v39 v41) 0x7F800000#32 reduces_S64x1024_S64
                      (.inl rfl) rfl)
                    shapeCasts_S64_S64x1)
                  broadcasts_S64x1_S64x1024))
              (broadcastTo S64x1024
                (shapeCast S64x1
                  (multiReduction (F := Ideal) .maximumf [1] S64 (cosV v37 v39 v41) 0xFF800000#32 reduces_S64x1024_S64
                    (.inl rfl) rfl)
                  shapeCasts_S64_S64x1)
                broadcasts_S64x1_S64x1024))
            (broadcastTo S64x1024 (shapeCast S64x1 v54 shapeCasts_S64x1_S64x1) broadcasts_S64x1_S64x1024))
          shapeCasts_S64x1024_S1x64x1024 := rfl

/-- The value stored at the last channel tile, at (point p, location k): the cosine of `p` against `k`, less the
    infimum of row `p`'s cosines, over their supremum, times the gain of `p`. -/
theorem last_apply (v37 : Vec Ideal S1x1024 .f32) (v39 : Vec Ideal S64x1 .f32) (v41 : Vec Ideal S64x1024 .f32)
    (v54 : Vec Ideal S64x1 .f32) (p : Fin 64) (k : Fin 1024) :
    k0_pay2 (F := Ideal) v37 v39 v41 v54 (ix3 0 p k)
      = Ideal.div
          (cosAt v37 v39 v41 p k - Finset.univ.inf (fun k' : Fin 1024 => cosAt v37 v39 v41 p k'))
          (Finset.univ.sup (fun k' : Fin 1024 => cosAt v37 v39 v41 p k'))
        * v54 (ix2 p 0) := by
  rw [pay2_eq]
  refine (shapeCast_ab_1ab_apply _ shapeCasts_S64x1024_S1x64x1024 0 p k).trans ?_
  rw [mulf_apply, divf_apply, subf_apply, col_of_vec_apply, col_of_vec_apply, col_apply, rowMin_apply, rowMax_apply]
  simp only [cosV_apply]

end Cert.KernelLast

end
-- ==== Proof.LibRunAnd.lean ====
/-
  Two facts about every execution of one program from one state hold together.

  `θ_run defs p s Q` says: every weakly fair execution of `p` from `s` terminates, without a fault, in a state
  satisfying `Q`. Termination and absence of faults do not mention `Q`, and a final state reached satisfies both posts
  if it satisfies each: so two such statements about the same program and state give the statement for the conjunction.
-/
import Idealize.ShloMosaic.Machine.Run

namespace Cert.RunAnd

open Idealize.ShloMosaic Idealize.SL.Sem

variable {nD : Nat} {τ : Topo} {sig : RefSig} {Val : EltTy → Type} {Λ : Labels}

/-- If every weakly fair execution of `p` from `s` ends in `Q`, and every one ends in `Q'`, then every one ends in
    `Q ∧ Q'`. General: any mesh, signature, value type and body table. -/
theorem θ_run_and (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) := by
  have h1 : MeshRun defs (fun m' => Q (⟨⟩, m')) (load p s) := h
  have h2 : MeshRun defs (fun m' => Q' (⟨⟩, m')) (load p s) := h'
  exact (⟨fun t ht hf => ⟨h1.post t ht hf, h2.post t ht hf⟩, h1.progress, h1.fair⟩ :
    MeshRun defs (fun m' => Q (⟨⟩, m') ∧ Q' (⟨⟩, m')) (load p s))

end Cert.RunAnd
-- ==== Proof.KernelValue.lean ====
/-
  The kernel's result array.

  At a batch's last tile the three sums are complete, and the stored block is, entry by entry, the specification's
  rescaled cosine times the point's valid flag read as zero or one. Those blocks tile the [16, 64, 1024] array, one
  per batch; the host then reshapes it to [16, 64, 32, 32].
-/
import proofs.«174781_j17617955848291_1_alg».proof.Proof.KernelJoin
import proofs.«174781_j17617955848291_1_alg».proof.Proof.KernelLast
import proofs.«174781_j17617955848291_1_alg».proof.Proof.LibRunAnd

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Cert.Invariant Cert.KernelJoin

variable (m : (ℓ : Loc nD τ sig) → Buf (Elt Ideal) ℓ) (c : Dev nD)

/-- The valid flags the program is given. -/
abbrev validIn : S64.Idx → BitVec 1 := m ((c : Thread nD τ).loc main_arg2)

/-- The specification with the location kept flat: the value at (batch, point, location). -/
def flatResult (fea : (⟨4, ![16, 2048, 32, 32]⟩ : Shape).Idx → EReal) (s : Fin 64 → Fin 1024) (valid : Fin 64 → Bool)
    (b : Fin 16) (p : Fin 64) (k : Fin 1024) : EReal :=
  if valid p then Ideal.div (Spec.cosine fea s b p k - Spec.least fea s b p) (Spec.greatest fea s b p) else 0

/-- The specification's result at (b, p, row, column) is the flat one at location 32 * row + column. -/
theorem result_flat (fea : (⟨4, ![16, 2048, 32, 32]⟩ : Shape).Idx → EReal) (s : Fin 64 → Fin 1024) (valid : Fin 64 → Bool)
    (b : Fin 16) (p : Fin 64) (y x : Fin 32) :
    Spec.result fea s valid (ix4 b p y x) = flatResult fea s valid b p ⟨y.val * 32 + x.val, by have := y.isLt; have := x.isLt; omega⟩ := rfl

/-- The valid column as the call finds it: each flag as zero or one. -/
theorem valid_entry (t : Fin cfg0.N) (p : Fin 64) :
    iblk (F := Ideal) m c 2 t (ix2 p (0 : Fin 1)) = if Sampled.validAt (validIn m c) p then (1 : EReal) else 0 := by
  rw [BlockReads.valid_block m c t p, HostValues.valid_column m c,
    KernelLast.shapeCast_a_a1_apply _ shapeCasts_S64_S64x1 p (0 : Fin 1)]
  show (((validIn m c (ix1 p)).toNat : ℝ) : EReal) = _
  rw [Sampled.flag_toNat]
  unfold Sampled.validAt
  by_cases h : validIn m c (ix1 p) = 1#1
  · rw [if_pos h, if_pos (decide_eq_true h)]
  · rw [if_neg h, if_neg (by simpa using h)]

/-- At a batch's last tile: the stored block is the finalize of three arrays that hold the specification's complete sums. -/
theorem last_tile (t : Fin cfg0.N) (h3 : t.val % 4 = 3) :
    ∃ (A : Vec Ideal S1x1024 .f32) (B : Vec Ideal S64x1 .f32) (C : Vec Ideal S64x1024 .f32),
      (outsAt0 (F := Ideal) m c t.val t.isLt).1 = k0_pay2 (F := Ideal) A B C (iblk m c 2 t)
      ∧ (∀ k : Fin 1024, A (ix2 (0 : Fin 1) k) = Spec.normSq (feaIn m c) (batch t) k)
      ∧ (∀ p : Fin 64, B (ix2 p (0 : Fin 1)) = Spec.normSq (feaIn m c) (batch t) (Sampled.loc (ptsIn m c) p))
      ∧ (∀ (p : Fin 64) (k : Fin 1024), C (ix2 p k) = Spec.inner (feaIn m c) (Sampled.loc (ptsIn m c)) (batch t) p k) := by
  have h0 : ¬t.val % 4 = 0 := by omega
  have hc0 : ¬cond0_0 (grid0.coords t) := fun h => h0 ((hcond0_0 t).mp h)
  have hc1 : cond0_1 (grid0.coords t) := (hcond0_1 t).mpr h3
  obtain ⟨c1, c2, c3⟩ := Invariant.complete m c t h3
  rw [outsAt0_C m c t h0 h3] at c1 c2 c3 ⊢
  dsimp only at c1 c2 c3 ⊢
  refine ⟨k0_pay1 (F := Ideal) (k0_pay11 (F := Ideal) (iblk m c 0 t) (outsAt0 (F := Ideal) m c (t.val - 1) (Nat.lt_of_le_of_lt (Nat.sub_le _ _) t.isLt)).2.2.1),
    k0_pay9 (F := Ideal) (iblk m c 0 t) (iblk m c 1 t) (outsAt0 (F := Ideal) m c (t.val - 1) (Nat.lt_of_le_of_lt (Nat.sub_le _ _) t.isLt)).2.2.2,
    k0_pay10 (F := Ideal) (iblk m c 0 t) (iblk m c 1 t) (outsAt0 (F := Ideal) m c (t.val - 1) (Nat.lt_of_le_of_lt (Nat.sub_le _ _) t.isLt)).2.1,
    Pieces.last_result (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2, fun k => ?_, fun p => ?_, fun p k => ?_⟩
  · exact (congrFun (Pieces.last_column_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).symm (ix2 (0 : Fin 1) k)).trans
      ((c2 k).trans (col_sum m c (batch t) k))
  · exact (congrFun (Pieces.last_query_norms (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).symm (ix2 p (0 : Fin 1))).trans
      ((c3 p).trans (query_sum m c (batch t) p))
  · exact (congrFun (Pieces.last_inner (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2).symm (ix2 p k)).trans
      ((c1 p k).trans (inner_sum m c (batch t) p k))

/-- At a batch's last tile the stored block is the specification's flat result for that batch. -/
theorem last_block_entry (t : Fin cfg0.N) (h3 : t.val % 4 = 3) (p : Fin 64) (k : Fin 1024) :
    (outsAt0 (F := Ideal) m c t.val t.isLt).1 (ix3 (0 : Fin 1) p k)
      = flatResult (feaIn m c) (Sampled.loc (ptsIn m c)) (Sampled.validAt (validIn m c)) (batch t) p k := by
  obtain ⟨A, B, C, e, hA, hB, hC⟩ := last_tile m c t h3
  rw [e, KernelLast.last_apply A B C (iblk m c 2 t) p k, valid_entry m c t p]
  have hcos : ∀ k' : Fin 1024, KernelLast.cosAt A B C p k' = Spec.cosine (feaIn m c) (Sampled.loc (ptsIn m c)) (batch t) p k' := fun k' => by
    unfold KernelLast.cosAt Spec.cosine
    rw [hC p k', hA k', hB p]
  unfold flatResult Spec.least Spec.greatest
  simp only [hcos]
  by_cases hv : Sampled.validAt (validIn m c) p = true
  · rw [if_pos hv, if_pos hv, mul_one]
  · rw [if_neg hv, if_neg hv, mul_zero]

/-- The kernel's result array before the host reshapes it: the specification with the location kept flat. -/
def flatArray : S16x64x1024.Idx → EReal := fun i =>
  flatResult (feaIn m c) (Sampled.loc (ptsIn m c)) (Sampled.validAt (validIn m c))
    (⟨(i 0).val, (i 0).isLt⟩ : Fin 16) (⟨(i 1).val, (i 1).isLt⟩ : Fin 64) (⟨(i 2).val, (i 2).isLt⟩ : Fin 1024)

/-- What a batch's last tile writes back is that batch's block of the flat array. -/
theorem flushed_last (t : Fin cfg0.N) (h3 : t.val % 4 = 3) :
    (dats (F := Ideal) m 0 c).flushed 3 t = ((cfg0.win 3).blk t).view.read (Elt Ideal) (flatArray m c) := by
  obtain ⟨-, -, -, -, -, -, -, e0, e1, e2⟩ := BlockReads.index_facts t
  show (cfg0.win 3).cut (grid0.coords t) ((dats (F := Ideal) m 0 c).after 3 t) = _
  rw [after0_3]
  funext y
  obtain ⟨u, p, k, rfl⟩ : ∃ (u : Fin 1) (p : Fin 64) (k : Fin 1024), y = ix3 u p k := ⟨y 0, y 1, y 2, eq_ix3 y⟩
  obtain rfl : u = 0 := Subsingleton.elim _ _
  show (outsAt0 (F := Ideal) m c t.val t.isLt).1 (ix3 (0 : Fin 1) p k) = flatArray m c (((cfg0.win 3).blk t).view.emb (ix3 (0 : Fin 1) p k))
  rw [last_block_entry m c t h3 p k]
  have hemb : ((cfg0.win 3).blk t).view.emb (ix3 (0 : Fin 1) p k) = ix3 (batch t) p k := funext fun a => Fin.ext (by
    match a with
    | ⟨0, _⟩ => show win0_3.index t (0 : Fin 3) * 1 + 1 * 0 = t.val / 4; omega
    | ⟨1, _⟩ => show win0_3.index t (1 : Fin 3) * 64 + 1 * p.val = p.val; omega
    | ⟨2, _⟩ => show win0_3.index t (2 : Fin 3) * 1024 + 1 * k.val = k.val; omega)
  rw [hemb]
  rfl

/-- The kernel's result array after the region: the flat array. -/
theorem final_array : (dats (F := Ideal) m 0 c).arrAt 3 cfg0.N = flatArray m c :=
  (dats (F := Ideal) m 0 c).arrAt_eq_of_cover 3 (flatArray m c)
    (fun t hf => flushed_last m c t ((BlockReads.flush_last t).mp hf)) BlockReads.out_cover

/-- The specification's result, as an array over [16, 64, 32, 32]. -/
def resultArray : S16x64x32x32.Idx → EReal :=
  Spec.result (feaIn m c) (Sampled.loc (ptsIn m c)) (Sampled.validAt (validIn m c))

/-- After the host's last operation — the reshape of the kernel's array to [16, 64, 32, 32] — the result buffer holds
    the specification's result. -/
theorem tail_value : Pipeline.afterTail₀ cfgs (dats (F := Ideal) m) 0 (V0 m) [hostOps1] c main_v26 = resultArray m c := by
  unfold Pipeline.afterTail₀
  show StableHlo.after hostOps1 _ (Proc.devRef .tc main_v26) = _
  after_results
  funext j
  obtain ⟨b, p, y, x, rfl⟩ : ∃ (b : Fin 16) (p : Fin 64) (y x : Fin 32), j = ix4 b p y x := ⟨j 0, j 1, j 2, j 3, eq_ix4 j⟩
  have hy := y.isLt; have hx := x.isLt
  refine (shapeCast_apply _ shapeCasts_S16x64x1024_S16x64x32x32 (ix4 b p y x)
    (ix3 b p (⟨y.val * 32 + x.val, by omega⟩ : Fin 1024)) (by
      rewrite [Shape.rowMajor_val_three, Shape.rowMajor_val_four]
      show (b.val * 64 + p.val) * 1024 + (y.val * 32 + x.val) = ((b.val * 64 + p.val) * 32 + y.val) * 32 + x.val
      omega)).trans ?_
  refine (congrFun ((Pipeline.withArrays_arr spec0 launch0.win.arr_inj c _ _ 3).trans (final_array m c)) _).trans ?_
  rfl

/-- THE KERNEL'S RUN: every weakly fair execution terminates, the result buffer holding the specification's result
    of the inputs and the three inputs unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = resultArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
      ⟨((h.1 c).2 main_v26 (Pipeline.mem_restRefs_of main_v26 (by decide) (by decide))).trans (tail_value m c), h.2 c⟩)
    (Cert.RunAnd.θ_run_and (defs (F := Ideal)) _ _ (run_main (F := Ideal) m ρ) (frame (F := Ideal) m ρ))

end Cert.KernelValue

end
-- ==== Proof.RefRun.lean ====
/-
  The reference program as a list of its operations, and its run.

  The reference's entry function is a straight line of 78 array operations (a called function's operations
  standing where it is called). Run from any memory, every execution ends, and each buffer then holds what
  the operations, applied in order to the launch contents, leave in it: that value is named W here. The three
  argument buffers are written by no operation, so they end as they started.
-/
import proofs.«174781_j17617955848291_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 78 operations, in order (a called function's operations stand in its call's place, spelt `TRef.…`). -/
abbrev ops : List (HloOp τ sig (Elt F)) :=
  [ unary main_arg1 main_v0 ((extractStridedSlice S64x1 ![0, 0] · slices_S64x2_S64x1_0_0) : (⟨S64x2, .f32⟩ : BufTy).Contents (Elt F) → (⟨S64x1, .f32⟩ : BufTy).Contents (Elt F)),
    reshape main_v0 main_v1 rfl shapeCasts_S64x1_S64,
    nullary main_cst (constant S_ .f32 0x42000000#32),
    unary main_cst main_v2 (broadcastInDim S64 ![] bcast_S_S64 : (⟨S_, .f32⟩ : BufTy).Contents (Elt F) → (⟨S64, .f32⟩ : BufTy).Contents (Elt F)),
    binary main_v1 main_v2 main_v3 (mulf : (⟨S64, .f32⟩ : BufTy).Contents (Elt F) → (⟨S64, .f32⟩ : BufTy).Contents (Elt F) → (⟨S64, .f32⟩ : BufTy).Contents (Elt F)),
    unary main_v3 main_v4 (fptosi 32 : (⟨S64, .f32⟩ : BufTy).Contents (Elt F) → (⟨S64, .i32⟩ : BufTy).Contents (Elt F)),
    nullary main_c (constantI S_ 32 0#32),
    nullary main_c_0 (constantI S_ 32 31#32),
    TRef.unary (TRef.of (T := ⟨S_, .i32⟩) main_c) (TRef.of (T := ⟨S_, .i32⟩) main_call0_v0) id,
    TRef.unary (TRef.of (T := ⟨S_, .i32⟩) main_call0_v0) (TRef.of (T := ⟨S64, .i32⟩) main_call0_v1) (broadcastInDim S64 ![] bcast_S_S64),
    TRef.binary (TRef.of (T := ⟨S64, .i32⟩) main_call0_v1) (TRef.of (T := ⟨S64, .i32⟩) main_v4) (TRef.of (T := ⟨S64, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S64, .i32⟩) main_call0_v4) (broadcastInDim S64 ![] bcast_S_S64),
    TRef.binary (TRef.of (T := ⟨S64, .i32⟩) main_call0_v4) (TRef.of (T := ⟨S64, .i32⟩) main_call0_v2) (TRef.of (T := ⟨S64, .i32⟩) main_v5) minsi,
    unary main_arg1 main_v6 ((extractStridedSlice S64x1 ![0, 1] · slices_S64x2_S64x1_0_1) : (⟨S64x2, .f32⟩ : BufTy).Contents (Elt F) → (⟨S64x1, .f32⟩ : BufTy).Contents (Elt F)),
    reshape main_v6 main_v7 rfl shapeCasts_S64x1_S64,
    nullary main_cst_1 (constant S_ .f32 0x42000000#32),
    unary main_cst_1 main_v8 (broadcastInDim S64 ![] bcast_S_S64 : (⟨S_, .f32⟩ : BufTy).Contents (Elt F) → (⟨S64, .f32⟩ : BufTy).Contents (Elt F)),
    binary main_v7 main_v8 main_v9 (mulf : (⟨S64, .f32⟩ : BufTy).Contents (Elt F) → (⟨S64, .f32⟩ : BufTy).Contents (Elt F) → (⟨S64, .f32⟩ : BufTy).Contents (Elt F)),
    unary main_v9 main_v10 (fptosi 32 : (⟨S64, .f32⟩ : BufTy).Contents (Elt F) → (⟨S64, .i32⟩ : BufTy).Contents (Elt F)),
    nullary main_c_2 (constantI S_ 32 0#32),
    nullary main_c_3 (constantI S_ 32 31#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S64, .i32⟩) main_call1_v1) (broadcastInDim S64 ![] bcast_S_S64),
    TRef.binary (TRef.of (T := ⟨S64, .i32⟩) main_call1_v1) (TRef.of (T := ⟨S64, .i32⟩) main_v10) (TRef.of (T := ⟨S64, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S64, .i32⟩) main_call1_v4) (broadcastInDim S64 ![] bcast_S_S64),
    TRef.binary (TRef.of (T := ⟨S64, .i32⟩) main_call1_v4) (TRef.of (T := ⟨S64, .i32⟩) main_call1_v2) (TRef.of (T := ⟨S64, .i32⟩) main_v11) minsi,
    nullary main_c_4 (constantI S_ 32 0#32),
    unary main_c_4 main_v12 (broadcastInDim S64 ![] bcast_S_S64 : (⟨S_, .i32⟩ : BufTy).Contents (Elt F) → (⟨S64, .i32⟩ : BufTy).Contents (Elt F)),
    binary main_v11 main_v12 main_v13 (cmpi .slt : (⟨S64, .i32⟩ : BufTy).Contents (Elt F) → (⟨S64, .i32⟩ : BufTy).Contents (Elt F) → (⟨S64, .i1⟩ : BufTy).Contents (Elt F)),
    nullary main_c_5 (constantI S_ 32 32#32),
    unary main_c_5 main_v14 (broadcastInDim S64 ![] bcast_S_S64 : (⟨S_, .i32⟩ : BufTy).Contents (Elt F) → (⟨S64, .i32⟩ : BufTy).Contents (Elt F)),
    binary main_v11 main_v14 main_v15 (addi : (⟨S64, .i32⟩ : BufTy).Contents (Elt F) → (⟨S64, .i32⟩ : BufTy).Contents (Elt F) → (⟨S64, .i32⟩ : BufTy).Contents (Elt F)),
    ternary main_v13 main_v15 main_v11 main_v16 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    nullary main_c_6 (constantI S_ 32 0#32),
    unary main_c_6 main_v17 (broadcastInDim S64 ![] bcast_S_S64 : (⟨S_, .i32⟩ : BufTy).Contents (Elt F) → (⟨S64, .i32⟩ : BufTy).Contents (Elt F)),
    binary main_v5 main_v17 main_v18 (cmpi .slt : (⟨S64, .i32⟩ : BufTy).Contents (Elt F) → (⟨S64, .i32⟩ : BufTy).Contents (Elt F) → (⟨S64, .i1⟩ : BufTy).Contents (Elt F)),
    nullary main_c_7 (constantI S_ 32 32#32),
    unary main_c_7 main_v19 (broadcastInDim S64 ![] bcast_S_S64 : (⟨S_, .i32⟩ : BufTy).Contents (Elt F) → (⟨S64, .i32⟩ : BufTy).Contents (Elt F)),
    binary main_v5 main_v19 main_v20 (addi : (⟨S64, .i32⟩ : BufTy).Contents (Elt F) → (⟨S64, .i32⟩ : BufTy).Contents (Elt F) → (⟨S64, .i32⟩ : BufTy).Contents (Elt F)),
    ternary main_v18 main_v20 main_v5 main_v21 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v16 main_v22 (broadcastInDim S64x1 ![0] bcast_S64_S64x1_0 : (⟨S64, .i32⟩ : BufTy).Contents (Elt F) → (⟨S64x1, .i32⟩ : BufTy).Contents (Elt F)),
    unary main_v21 main_v23 (broadcastInDim S64x1 ![0] bcast_S64_S64x1_0 : (⟨S64, .i32⟩ : BufTy).Contents (Elt F) → (⟨S64x1, .i32⟩ : BufTy).Contents (Elt F)),
    binary main_v22 main_v23 main_v24 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    binary main_arg0 main_v24 main_v25 ((fun x i => Host.gather gather_S16x2048x32x32_S64x2_S16x2048x64_01_23_n_n_23_1_16204811 x i) : (⟨S16x2048x32x32, .f32⟩ : BufTy).Contents (Elt F) → (⟨S64x2, .i32⟩ : BufTy).Contents (Elt F) → (⟨S16x2048x64, .f32⟩ : BufTy).Contents (Elt F)),
    TRef.binary (TRef.of (T := ⟨S16x2048x32x32, .f32⟩) main_arg0) (TRef.of (T := ⟨S16x2048x32x32, .f32⟩) main_arg0) (TRef.of (T := ⟨S16x2048x32x32, .f32⟩) main_call2_v0) mulf,
    TRef.nullary (TRef.of (T := ⟨S_, .f32⟩) main_call2_cst) (constant S_ .f32 0x00000000#32),
    TRef.binary (TRef.of (T := ⟨S16x2048x32x32, .f32⟩) main_call2_v0) (TRef.of (T := ⟨S_, .f32⟩) main_call2_cst) (TRef.of (T := ⟨S16x32x32, .f32⟩) main_call2_v1) (fun x v => Host.reduceAdd x v reducesTo_S16x2048x32x32_S16x32x32_d1 h_S_),
    TRef.unary (TRef.of (T := ⟨S16x32x32, .f32⟩) main_call2_v1) (TRef.of (T := ⟨S16x1x32x32, .f32⟩) main_call2_v2) (broadcastInDim S16x1x32x32 ![0, 2, 3] bcast_S16x32x32_S16x1x32x32_0_2_3),
    TRef.unary (TRef.of (T := ⟨S16x1x32x32, .f32⟩) main_call2_v2) (TRef.of (T := ⟨S16x1x32x32, .f32⟩) main_v26) Host.sqrt,
    unary main_v26 main_v27 (broadcastInDim S16x2048x32x32 ![0, 1, 2, 3] bcast_S16x1x32x32_S16x2048x32x32_0_1_2_3 : (⟨S16x1x32x32, .f32⟩ : BufTy).Contents (Elt F) → (⟨S16x2048x32x32, .f32⟩ : BufTy).Contents (Elt F)),
    binary main_arg0 main_v27 main_v28 (Host.divf : (⟨S16x2048x32x32, .f32⟩ : BufTy).Contents (Elt F) → (⟨S16x2048x32x32, .f32⟩ : BufTy).Contents (Elt F) → (⟨S16x2048x32x32, .f32⟩ : BufTy).Contents (Elt F)),
    TRef.binary (TRef.of (T := ⟨S16x2048x64, .f32⟩) main_v25) (TRef.of (T := ⟨S16x2048x64, .f32⟩) main_v25) (TRef.of (T := ⟨S16x2048x64, .f32⟩) main_call3_v0) mulf,
    TRef.nullary (TRef.of (T := ⟨S_, .f32⟩) main_call3_cst) (constant S_ .f32 0x00000000#32),
    TRef.binary (TRef.of (T := ⟨S16x2048x64, .f32⟩) main_call3_v0) (TRef.of (T := ⟨S_, .f32⟩) main_call3_cst) (TRef.of (T := ⟨S16x64, .f32⟩) main_call3_v1) (fun x v => Host.reduceAdd x v reducesTo_S16x2048x64_S16x64_d1 h_S_),
    TRef.unary (TRef.of (T := ⟨S16x64, .f32⟩) main_call3_v1) (TRef.of (T := ⟨S16x1x64, .f32⟩) main_call3_v2) (broadcastInDim S16x1x64 ![0, 2] bcast_S16x64_S16x1x64_0_2),
    TRef.unary (TRef.of (T := ⟨S16x1x64, .f32⟩) main_call3_v2) (TRef.of (T := ⟨S16x1x64, .f32⟩) main_v29) Host.sqrt,
    unary main_v29 main_v30 (broadcastInDim S16x2048x64 ![0, 1, 2] bcast_S16x1x64_S16x2048x64_0_1_2 : (⟨S16x1x64, .f32⟩ : BufTy).Contents (Elt F) → (⟨S16x2048x64, .f32⟩ : BufTy).Contents (Elt F)),
    binary main_v25 main_v30 main_v31 (Host.divf : (⟨S16x2048x64, .f32⟩ : BufTy).Contents (Elt F) → (⟨S16x2048x64, .f32⟩ : BufTy).Contents (Elt F) → (⟨S16x2048x64, .f32⟩ : BufTy).Contents (Elt F)),
    reshape main_v28 main_v32 rfl shapeCasts_S16x2048x32x32_S16x2048x1024,
    binary main_v31 main_v32 main_v33 ((fun l r => Host.dotGeneral dot_S16x2048x64_S16x2048x1024_S16x64x1024_1_1_2_2_0_0 none l r) : (⟨S16x2048x64, .f32⟩ : BufTy).Contents (Elt F) → (⟨S16x2048x1024, .f32⟩ : BufTy).Contents (Elt F) → (⟨S16x64x1024, .f32⟩ : BufTy).Contents (Elt F)),
    nullary main_cst_8 (constant S_ .f32 0x7F800000#32),
    binary main_v33 main_cst_8 main_v34 ((fun x v => Host.reduce FloatOps.minimumf x v reducesTo_S16x64x1024_S16x64_d2 h_S_) : (⟨S16x64x1024, .f32⟩ : BufTy).Contents (Elt F) → (⟨S_, .f32⟩ : BufTy).Contents (Elt F) → (⟨S16x64, .f32⟩ : BufTy).Contents (Elt F)),
    unary main_v34 main_v35 (broadcastInDim S16x64x1 ![0, 1] bcast_S16x64_S16x64x1_0_1 : (⟨S16x64, .f32⟩ : BufTy).Contents (Elt F) → (⟨S16x64x1, .f32⟩ : BufTy).Contents (Elt F)),
    nullary main_cst_9 (constant S_ .f32 0xFF800000#32),
    binary main_v33 main_cst_9 main_v36 ((fun x v => Host.reduce FloatOps.maximumf x v reducesTo_S16x64x1024_S16x64_d2 h_S_) : (⟨S16x64x1024, .f32⟩ : BufTy).Contents (Elt F) → (⟨S_, .f32⟩ : BufTy).Contents (Elt F) → (⟨S16x64, .f32⟩ : BufTy).Contents (Elt F)),
    unary main_v36 main_v37 (broadcastInDim S16x64x1 ![0, 1] bcast_S16x64_S16x64x1_0_1 : (⟨S16x64, .f32⟩ : BufTy).Contents (Elt F) → (⟨S16x64x1, .f32⟩ : BufTy).Contents (Elt F)),
    unary main_v35 main_v38 (broadcastInDim S16x64x1024 ![0, 1, 2] bcast_S16x64x1_S16x64x1024_0_1_2 : (⟨S16x64x1, .f32⟩ : BufTy).Contents (Elt F) → (⟨S16x64x1024, .f32⟩ : BufTy).Contents (Elt F)),
    binary main_v33 main_v38 main_v39 (subf : (⟨S16x64x1024, .f32⟩ : BufTy).Contents (Elt F) → (⟨S16x64x1024, .f32⟩ : BufTy).Contents (Elt F) → (⟨S16x64x1024, .f32⟩ : BufTy).Contents (Elt F)),
    unary main_v37 main_v40 (broadcastInDim S16x64x1024 ![0, 1, 2] bcast_S16x64x1_S16x64x1024_0_1_2 : (⟨S16x64x1, .f32⟩ : BufTy).Contents (Elt F) → (⟨S16x64x1024, .f32⟩ : BufTy).Contents (Elt F)),
    binary main_v39 main_v40 main_v41 (Host.divf : (⟨S16x64x1024, .f32⟩ : BufTy).Contents (Elt F) → (⟨S16x64x1024, .f32⟩ : BufTy).Contents (Elt F) → (⟨S16x64x1024, .f32⟩ : BufTy).Contents (Elt F)),
    reshape main_v41 main_v42 rfl shapeCasts_S16x64x1024_S16x64x32x32,
    unary main_arg2 main_v43 (broadcastInDim S1x64x1x1 ![1] bcast_S64_S1x64x1x1_1 : (⟨S64, .i1⟩ : BufTy).Contents (Elt F) → (⟨S1x64x1x1, .i1⟩ : BufTy).Contents (Elt F)),
    nullary main_cst_10 (constant S_ .f32 0x00000000#32),
    TRef.unary (TRef.of (T := ⟨S1x64x1x1, .i1⟩) main_v43) (TRef.of (T := ⟨S16x64x32x32, .i1⟩) main_call4_v0) (broadcastInDim S16x64x32x32 ![0, 1, 2, 3] bcast_S1x64x1x1_S16x64x32x32_0_1_2_3),
    TRef.unary (TRef.of (T := ⟨S_, .f32⟩) main_cst_10) (TRef.of (T := ⟨S16x64x32x32, .f32⟩) main_call4_v1) (broadcastInDim S16x64x32x32 ![] bcast_S_S16x64x32x32),
    TRef.ternary (TRef.of (T := ⟨S16x64x32x32, .i1⟩) main_call4_v0) (TRef.of (T := ⟨S16x64x32x32, .f32⟩) main_v42) (TRef.of (T := ⟨S16x64x32x32, .f32⟩) main_call4_v1) (TRef.of (T := ⟨S16x64x32x32, .f32⟩) main_v44) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., reshape_bufs_sub .., binary_bufs_sub .., nullary_bufs_sub .., binary_bufs_sub .., unary_bufs_sub .., nullary_bufs_sub .., binary_bufs_sub .., unary_bufs_sub .., unary_bufs_sub .., binary_bufs_sub .., unary_bufs_sub .., binary_bufs_sub .., reshape_bufs_sub .., unary_bufs_sub .., nullary_bufs_sub .., unary_bufs_sub .., unary_bufs_sub .., ternary_bufs_sub ..⟩

/-- What buffer b of device c holds once the operations have run, in order, from the launch contents. -/
def W (m : (ℓ : Loc nD τ sig) → Buf (Elt F) ℓ) (c : Dev nD) (b : Ref sig .tc) :
    Buf (Elt F) ((c.tc : Thread nD τ).loc b) :=
  after (ops (F := F)) (launchContents m c) (Proc.devRef .tc b)

/-- No operation writes the first argument: it ends as launched. -/
theorem W_main_arg0 (m : (ℓ : Loc nD τ sig) → Buf (Elt F) ℓ) (c : Dev nD) :
    W m c main_arg0 = m ((c.tc : Thread nD τ).loc main_arg0) := by
  unfold W; after_results_simp <;> rfl

/-- No operation writes the second argument: it ends as launched. -/
theorem W_main_arg1 (m : (ℓ : Loc nD τ sig) → Buf (Elt F) ℓ) (c : Dev nD) :
    W m c main_arg1 = m ((c.tc : Thread nD τ).loc main_arg1) := by
  unfold W; after_results_simp <;> rfl

/-- No operation writes the third argument: it ends as launched. -/
theorem W_main_arg2 (m : (ℓ : Loc nD τ sig) → Buf (Elt F) ℓ) (c : Dev nD) :
    W m c main_arg2 = m ((c.tc : Thread nD τ).loc main_arg2) := by
  unfold W; after_results_simp <;> rfl

/-- On every device, for any float values, from any memory with zero counters: every weakly fair execution of
    the entry function terminates with the result buffer at W and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = W m c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v44,
      (h c main_arg0).trans (W_main_arg0 m c),
      (h c main_arg1).trans (W_main_arg1 m c),
      (h c main_arg2).trans (W_main_arg2 m c)⟩)
    (run_seq scopedRefs_eq scopedSems_eq defs main (fun _ => ops) main_eq (fun _ => ops_sub) m ρ)

end Cert.RefRun

end
-- ==== Proof.RefExtremes.lean ====
/-
  The two extreme reductions of the reference, read at one index.

  The reference reduces a [16, 64, 1024] array over its last axis twice: once with the minimum from +∞,
  once with the maximum from -∞. At the extended reals +∞ is the top element and the minimum is the
  lattice infimum, so the first reduction, read at (b, p), is the infimum over k of a[b, p, k]; dually the
  second is the supremum. A fold of a commutative, associative operation over one axis runs over that
  axis's 1024 coordinates, each inserted into (b, p) as the last coordinate.
-/
import Idealize.ShloMosaic.PureOps.Reduce
import Idealize.ShloMosaic.PureOps.Ideal.Laws
import Idealize.ShloMosaic.Lib.ValueIdx
import proofs.«174781_j17617955848291_1_alg».proof.Proof.Gen.ReferenceIdeal

noncomputable section

namespace Cert.RefExtremes

open Idealize.ShloMosaic Idealize.ShloMosaic.ValueIdx Cert.ReferenceIdeal

/-- The fold of the minimum from the top element is the infimum. -/
theorem fold_min_top_eq_inf {ι : Type} (s : Finset ι) (f : ι → EReal) :
    s.fold min ⊤ f = s.inf f := by
  induction s using Finset.cons_induction with
  | empty => simp
  | cons a s ha ih => rw [Finset.fold_cons, Finset.inf_cons, ih]

/-- The fold of the maximum from the bottom element is the supremum. -/
theorem fold_max_bot_eq_sup {ι : Type} (s : Finset ι) (f : ι → EReal) :
    s.fold max ⊥ f = s.sup f := by
  induction s using Finset.cons_induction with
  | empty => simp
  | cons a s ha ih => rw [Finset.fold_cons, Finset.sup_cons, ih]

/-- The index (b, p) with coordinate k inserted on the reduced (last) axis is (b, p, k). -/
theorem lift_ix2 (h : S16x64x1024.Reduces [2] S16x64) (b : Fin 16) (p : Fin 64)
    (k : Fin (S16x64x1024.size 2)) : h.lift (ix2 b p) k = ix3 b p (⟨k.val, k.isLt⟩ : Fin 1024) := by
  funext c; apply Fin.ext
  fin_cases c <;> rfl

/-- The minimum-reduce over the last axis from +∞, read at (b, p): the infimum over the 1024 entries of
    row (b, p). -/
theorem reduce_min_apply (a : FVec Ideal S16x64x1024 .f32) (h' : S16x64x1024.ReducesTo [2] S16x64)
    (hu : 0 < S_.numel) (b : Fin 16) (p : Fin 64) :
    Host.reduce FloatOps.minimumf a (constant S_ .f32 0x7F800000#32) h' hu (ix2 b p)
      = Finset.univ.inf fun k : Fin 1024 => a (ix3 b p k) := by
  have h : S16x64x1024.Reduces [2] S16x64 := by decide
  rw [Host.reduce_eq_fold_single FloatOps.minimumf a _ h' h hu]
  have hinit : (constant (F := Ideal) S_ .f32 0x7F800000#32) (Shape.Idx.first hu) = (⊤ : EReal) := by
    show Ideal.ofBits .f32 0x7F800000#32 = ⊤
    simp [Ideal.ofBits, Ideal.ieee]
  have hf : (a ∘ h.lift (ix2 b p)) = fun k : Fin 1024 => a (ix3 b p k) :=
    funext fun k => congrArg a (lift_ix2 h b p k)
  rw [hinit]
  exact (congrArg (fun f => Finset.fold min (⊤ : EReal) f (Finset.univ : Finset (Fin 1024))) hf).trans
    (fold_min_top_eq_inf _ _)

/-- The maximum-reduce over the last axis from -∞, read at (b, p): the supremum over the 1024 entries of
    row (b, p). -/
theorem reduce_max_apply (a : FVec Ideal S16x64x1024 .f32) (h' : S16x64x1024.ReducesTo [2] S16x64)
    (hu : 0 < S_.numel) (b : Fin 16) (p : Fin 64) :
    Host.reduce FloatOps.maximumf a (constant S_ .f32 0xFF800000#32) h' hu (ix2 b p)
      = Finset.univ.sup fun k : Fin 1024 => a (ix3 b p k) := by
  have h : S16x64x1024.Reduces [2] S16x64 := by decide
  rw [Host.reduce_eq_fold_single FloatOps.maximumf a _ h' h hu]
  have hinit : (constant (F := Ideal) S_ .f32 0xFF800000#32) (Shape.Idx.first hu) = (⊥ : EReal) := by
    show Ideal.ofBits .f32 0xFF800000#32 = ⊥
    simp [Ideal.ofBits, Ideal.ieee]
  have hf : (a ∘ h.lift (ix2 b p)) = fun k : Fin 1024 => a (ix3 b p k) :=
    funext fun k => congrArg a (lift_ix2 h b p k)
  rw [hinit]
  exact (congrArg (fun f => Finset.fold max (⊥ : EReal) f (Finset.univ : Finset (Fin 1024))) hf).trans
    (fold_max_bot_eq_sup _ _)

end Cert.RefExtremes

end
-- ==== Proof.LibCosineLaw.lean ====
/-
  The cosine law on the extended reals.

  A cosine similarity can be spelt two ways: normalise each vector by its norm and then take the inner
  product, or take the inner product of the raw vectors and divide once by the product of the two norms.
  Over the reals the two agree whenever both norms are nonzero. On the extended reals, with the quotient
  that answers an infinity (or a junk value) at a zero divisor, the same holds as long as every entry is a
  real number and both norms are nonzero reals: then every quotient is an ordinary real quotient and the
  identity is the field identity  (sum q f) / (a b) = sum (q / b) (f / a).
-/
import Idealize.ShloMosaic.PureOps.Ideal
import Mathlib.Algebra.BigOperators.Field
import Mathlib.Tactic.FieldSimp
import Mathlib.Tactic.Ring

noncomputable section

namespace Cert.Lib.CosineLaw

open Idealize.ShloMosaic

/-- A finite sum of real numbers, each read as an extended real, is the real sum read as an extended real. -/
theorem coe_sum {ι : Type*} (s : Finset ι) (g : ι → ℝ) :
    (∑ c ∈ s, ((g c : ℝ) : EReal)) = ((∑ c ∈ s, g c : ℝ) : EReal) := by
  classical
  induction s using Finset.induction_on with
  | empty => simp
  | insert a s ha ih => rw [Finset.sum_insert ha, Finset.sum_insert ha, ih, EReal.coe_add]

/-- The quotient of one real by a nonzero real, on the extended reals, is the real quotient. -/
theorem div_real {x y : ℝ} (h : y ≠ 0) : Ideal.div (x : EReal) (y : EReal) = ((x / y : ℝ) : EReal) := by
  rw [Ideal.div_coe h, ← EReal.coe_mul]
  congr 1
  field_simp

/-- The cosine law: with real entries and nonzero real norms `a` (of `f`) and `b` (of `q`), dividing the inner
    product once by `a * b` equals the inner product of the two normalised vectors. -/
theorem inner_div_norms {ι : Type*} [Fintype ι] (q f : ι → ℝ) {a b : ℝ} (ha : a ≠ 0) (hb : b ≠ 0) :
    Ideal.div (∑ c, ((q c : ℝ) : EReal) * ((f c : ℝ) : EReal)) (((a : ℝ) : EReal) * ((b : ℝ) : EReal))
      = ∑ c, Ideal.div ((q c : ℝ) : EReal) ((b : ℝ) : EReal) * Ideal.div ((f c : ℝ) : EReal) ((a : ℝ) : EReal) := by
  have hab : a * b ≠ 0 := mul_ne_zero ha hb
  have hl : (∑ c, ((q c : ℝ) : EReal) * ((f c : ℝ) : EReal)) = ((∑ c, q c * f c : ℝ) : EReal) := by
    rw [← coe_sum]; exact Finset.sum_congr rfl fun c _ => (EReal.coe_mul _ _).symm
  have hr : (∑ c, Ideal.div ((q c : ℝ) : EReal) ((b : ℝ) : EReal) * Ideal.div ((f c : ℝ) : EReal) ((a : ℝ) : EReal))
      = ((∑ c, (q c / b) * (f c / a) : ℝ) : EReal) := by
    rw [← coe_sum]
    exact Finset.sum_congr rfl fun c _ => by rw [div_real hb, div_real ha, ← EReal.coe_mul]
  rw [hl, hr, ← EReal.coe_mul, div_real hab]
  congr 1
  rw [Finset.sum_div]
  exact Finset.sum_congr rfl fun c _ => by field_simp

end Cert.Lib.CosineLaw

end
-- ==== Proof.RefStages.lean ====
/-
  The reference's stages, each from the stages before it.

  The value a buffer holds after the run is the operation that writes it applied to the values its operand
  buffers hold: no later operation writes the buffer again, and none writes its operands after they are read.
  First this is stated for each of the 78 operations; then, for the buffers the specification is read from, the
  steps are joined: the index words and their clamps and wraps, the index array, the sampled columns, the two
  families of norms, the normalised arrays, their contraction, its two extremes, the rescaling and the final
  selection.
-/
import proofs.«174781_j17617955848291_1_alg».proof.Proof.RefRun
import proofs.«174781_j17617955848291_1_alg».proof.Proof.RefIndex

set_option maxHeartbeats 1000000

noncomputable section

namespace Cert.RefStages

open Cert.ReferenceIdeal Cert.ReferenceIdeal.Gen Idealize.ShloMosaic Idealize.ShloMosaic.TcCoe Idealize.SL.Sem
  Idealize.ShloMosaic.StableHlo Cert.RefRun

/-- Drop, from the value read at a buffer, the operations that do not write that buffer. -/
macro "peel" : tactic =>
  `(tactic| simp (disch := decide) only [after_cons, after_nil, nullary_result_ne', unary_result_ne', binary_result_ne',
      ternary_result_ne', reshape_result_ne'])

/-! ## One operation at a time -/

section Steps
variable {F : FTy → Type} [FloatOps F] (m : (ℓ : Loc nD τ sig) → Buf (Elt F) ℓ) (c : Dev nD)

theorem w_main_v0 : W (F := F) m c main_v0 = (((extractStridedSlice S64x1 ![0, 0] · slices_S64x2_S64x1_0_0) : (⟨S64x2, .f32⟩ : BufTy).Contents (Elt F) → (⟨S64x1, .f32⟩ : BufTy).Contents (Elt F))) (W (F := F) m c main_arg1) := by
  unfold W
  peel
  conv_lhs => rw [unary_result]
  try peel
  try rfl

theorem w_main_v1 : W (F := F) m c main_v1 = shapeCast _ (W (F := F) m c main_v0) shapeCasts_S64x1_S64 := by
  unfold W
  peel
  conv_lhs => rw [reshape_result]
  try peel
  try rfl

theorem w_main_cst : W (F := F) m c main_cst = ((constant S_ .f32 0x42000000#32)) := by
  unfold W
  peel
  conv_lhs => rw [nullary_result]
  try peel
  try rfl

theorem w_main_v2 : W (F := F) m c main_v2 = ((broadcastInDim S64 ![] bcast_S_S64 : (⟨S_, .f32⟩ : BufTy).Contents (Elt F) → (⟨S64, .f32⟩ : BufTy).Contents (Elt F))) (W (F := F) m c main_cst) := by
  unfold W
  peel
  conv_lhs => rw [unary_result]
  try peel
  try rfl

theorem w_main_v3 : W (F := F) m c main_v3 = ((mulf : (⟨S64, .f32⟩ : BufTy).Contents (Elt F) → (⟨S64, .f32⟩ : BufTy).Contents (Elt F) → (⟨S64, .f32⟩ : BufTy).Contents (Elt F))) (W (F := F) m c main_v1) (W (F := F) m c main_v2) := by
  unfold W
  peel
  conv_lhs => rw [binary_result]
  try peel
  try rfl

theorem w_main_v4 : W (F := F) m c main_v4 = ((fptosi 32 : (⟨S64, .f32⟩ : BufTy).Contents (Elt F) → (⟨S64, .i32⟩ : BufTy).Contents (Elt F))) (W (F := F) m c main_v3) := by
  unfold W
  peel
  conv_lhs => rw [unary_result]
  try peel
  try rfl

theorem w_main_c : W (F := F) m c main_c = ((constantI S_ 32 0#32)) := by
  unfold W
  peel
  conv_lhs => rw [nullary_result]
  try peel
  try rfl

theorem w_main_c_0 : W (F := F) m c main_c_0 = ((constantI S_ 32 31#32)) := by
  unfold W
  peel
  conv_lhs => rw [nullary_result]
  try peel
  try rfl

theorem w_main_call0_v0 : W (F := F) m c main_call0_v0 = (id) (W (F := F) m c main_c) := by
  unfold W
  peel
  conv_lhs => rw [unary_result]
  try peel
  try rfl

theorem w_main_call0_v1 : W (F := F) m c main_call0_v1 = ((broadcastInDim S64 ![] bcast_S_S64)) (W (F := F) m c main_call0_v0) := by
  unfold W
  peel
  conv_lhs => rw [unary_result]
  try peel
  try rfl

theorem w_main_call0_v2 : W (F := F) m c main_call0_v2 = (maxsi) (W (F := F) m c main_call0_v1) (W (F := F) m c main_v4) := by
  unfold W
  peel
  conv_lhs => rw [binary_result]
  try peel
  try rfl

theorem w_main_call0_v3 : W (F := F) m c main_call0_v3 = (id) (W (F := F) m c main_c_0) := by
  unfold W
  peel
  conv_lhs => rw [unary_result]
  try peel
  try rfl

theorem w_main_call0_v4 : W (F := F) m c main_call0_v4 = ((broadcastInDim S64 ![] bcast_S_S64)) (W (F := F) m c main_call0_v3) := by
  unfold W
  peel
  conv_lhs => rw [unary_result]
  try peel
  try rfl

theorem w_main_v5 : W (F := F) m c main_v5 = (minsi) (W (F := F) m c main_call0_v4) (W (F := F) m c main_call0_v2) := by
  unfold W
  peel
  conv_lhs => rw [binary_result]
  try peel
  try rfl

theorem w_main_v6 : W (F := F) m c main_v6 = (((extractStridedSlice S64x1 ![0, 1] · slices_S64x2_S64x1_0_1) : (⟨S64x2, .f32⟩ : BufTy).Contents (Elt F) → (⟨S64x1, .f32⟩ : BufTy).Contents (Elt F))) (W (F := F) m c main_arg1) := by
  unfold W
  peel
  conv_lhs => rw [unary_result]
  try peel
  try rfl

theorem w_main_v7 : W (F := F) m c main_v7 = shapeCast _ (W (F := F) m c main_v6) shapeCasts_S64x1_S64 := by
  unfold W
  peel
  conv_lhs => rw [reshape_result]
  try peel
  try rfl

theorem w_main_cst_1 : W (F := F) m c main_cst_1 = ((constant S_ .f32 0x42000000#32)) := by
  unfold W
  peel
  conv_lhs => rw [nullary_result]
  try peel
  try rfl

theorem w_main_v8 : W (F := F) m c main_v8 = ((broadcastInDim S64 ![] bcast_S_S64 : (⟨S_, .f32⟩ : BufTy).Contents (Elt F) → (⟨S64, .f32⟩ : BufTy).Contents (Elt F))) (W (F := F) m c main_cst_1) := by
  unfold W
  peel
  conv_lhs => rw [unary_result]
  try peel
  try rfl

theorem w_main_v9 : W (F := F) m c main_v9 = ((mulf : (⟨S64, .f32⟩ : BufTy).Contents (Elt F) → (⟨S64, .f32⟩ : BufTy).Contents (Elt F) → (⟨S64, .f32⟩ : BufTy).Contents (Elt F))) (W (F := F) m c main_v7) (W (F := F) m c main_v8) := by
  unfold W
  peel
  conv_lhs => rw [binary_result]
  try peel
  try rfl

theorem w_main_v10 : W (F := F) m c main_v10 = ((fptosi 32 : (⟨S64, .f32⟩ : BufTy).Contents (Elt F) → (⟨S64, .i32⟩ : BufTy).Contents (Elt F))) (W (F := F) m c main_v9) := by
  unfold W
  peel
  conv_lhs => rw [unary_result]
  try peel
  try rfl

theorem w_main_c_2 : W (F := F) m c main_c_2 = ((constantI S_ 32 0#32)) := by
  unfold W
  peel
  conv_lhs => rw [nullary_result]
  try peel
  try rfl

theorem w_main_c_3 : W (F := F) m c main_c_3 = ((constantI S_ 32 31#32)) := by
  unfold W
  peel
  conv_lhs => rw [nullary_result]
  try peel
  try rfl

theorem w_main_call1_v0 : W (F := F) m c main_call1_v0 = (id) (W (F := F) m c main_c_2) := by
  unfold W
  peel
  conv_lhs => rw [unary_result]
  try peel
  try rfl

theorem w_main_call1_v1 : W (F := F) m c main_call1_v1 = ((broadcastInDim S64 ![] bcast_S_S64)) (W (F := F) m c main_call1_v0) := by
  unfold W
  peel
  conv_lhs => rw [unary_result]
  try peel
  try rfl

theorem w_main_call1_v2 : W (F := F) m c main_call1_v2 = (maxsi) (W (F := F) m c main_call1_v1) (W (F := F) m c main_v10) := by
  unfold W
  peel
  conv_lhs => rw [binary_result]
  try peel
  try rfl

theorem w_main_call1_v3 : W (F := F) m c main_call1_v3 = (id) (W (F := F) m c main_c_3) := by
  unfold W
  peel
  conv_lhs => rw [unary_result]
  try peel
  try rfl

theorem w_main_call1_v4 : W (F := F) m c main_call1_v4 = ((broadcastInDim S64 ![] bcast_S_S64)) (W (F := F) m c main_call1_v3) := by
  unfold W
  peel
  conv_lhs => rw [unary_result]
  try peel
  try rfl

theorem w_main_v11 : W (F := F) m c main_v11 = (minsi) (W (F := F) m c main_call1_v4) (W (F := F) m c main_call1_v2) := by
  unfold W
  peel
  conv_lhs => rw [binary_result]
  try peel
  try rfl

theorem w_main_c_4 : W (F := F) m c main_c_4 = ((constantI S_ 32 0#32)) := by
  unfold W
  peel
  conv_lhs => rw [nullary_result]
  try peel
  try rfl

theorem w_main_v12 : W (F := F) m c main_v12 = ((broadcastInDim S64 ![] bcast_S_S64 : (⟨S_, .i32⟩ : BufTy).Contents (Elt F) → (⟨S64, .i32⟩ : BufTy).Contents (Elt F))) (W (F := F) m c main_c_4) := by
  unfold W
  peel
  conv_lhs => rw [unary_result]
  try peel
  try rfl

theorem w_main_v13 : W (F := F) m c main_v13 = ((cmpi .slt : (⟨S64, .i32⟩ : BufTy).Contents (Elt F) → (⟨S64, .i32⟩ : BufTy).Contents (Elt F) → (⟨S64, .i1⟩ : BufTy).Contents (Elt F))) (W (F := F) m c main_v11) (W (F := F) m c main_v12) := by
  unfold W
  peel
  conv_lhs => rw [binary_result]
  try peel
  try rfl

theorem w_main_c_5 : W (F := F) m c main_c_5 = ((constantI S_ 32 32#32)) := by
  unfold W
  peel
  conv_lhs => rw [nullary_result]
  try peel
  try rfl

theorem w_main_v14 : W (F := F) m c main_v14 = ((broadcastInDim S64 ![] bcast_S_S64 : (⟨S_, .i32⟩ : BufTy).Contents (Elt F) → (⟨S64, .i32⟩ : BufTy).Contents (Elt F))) (W (F := F) m c main_c_5) := by
  unfold W
  peel
  conv_lhs => rw [unary_result]
  try peel
  try rfl

theorem w_main_v15 : W (F := F) m c main_v15 = ((addi : (⟨S64, .i32⟩ : BufTy).Contents (Elt F) → (⟨S64, .i32⟩ : BufTy).Contents (Elt F) → (⟨S64, .i32⟩ : BufTy).Contents (Elt F))) (W (F := F) m c main_v11) (W (F := F) m c main_v14) := by
  unfold W
  peel
  conv_lhs => rw [binary_result]
  try peel
  try rfl

theorem w_main_v16 : W (F := F) m c main_v16 = ((select : (⟨S64, .i1⟩ : BufTy).Contents (Elt F) → (⟨S64, .i32⟩ : BufTy).Contents (Elt F) → (⟨S64, .i32⟩ : BufTy).Contents (Elt F) → (⟨S64, .i32⟩ : BufTy).Contents (Elt F))) (W (F := F) m c main_v13) (W (F := F) m c main_v15) (W (F := F) m c main_v11) := by
  unfold W
  peel
  conv_lhs => rw [ternary_result]
  try peel
  try rfl

theorem w_main_c_6 : W (F := F) m c main_c_6 = ((constantI S_ 32 0#32)) := by
  unfold W
  peel
  conv_lhs => rw [nullary_result]
  try peel
  try rfl

theorem w_main_v17 : W (F := F) m c main_v17 = ((broadcastInDim S64 ![] bcast_S_S64 : (⟨S_, .i32⟩ : BufTy).Contents (Elt F) → (⟨S64, .i32⟩ : BufTy).Contents (Elt F))) (W (F := F) m c main_c_6) := by
  unfold W
  peel
  conv_lhs => rw [unary_result]
  try peel
  try rfl

theorem w_main_v18 : W (F := F) m c main_v18 = ((cmpi .slt : (⟨S64, .i32⟩ : BufTy).Contents (Elt F) → (⟨S64, .i32⟩ : BufTy).Contents (Elt F) → (⟨S64, .i1⟩ : BufTy).Contents (Elt F))) (W (F := F) m c main_v5) (W (F := F) m c main_v17) := by
  unfold W
  peel
  conv_lhs => rw [binary_result]
  try peel
  try rfl

theorem w_main_c_7 : W (F := F) m c main_c_7 = ((constantI S_ 32 32#32)) := by
  unfold W
  peel
  conv_lhs => rw [nullary_result]
  try peel
  try rfl

theorem w_main_v19 : W (F := F) m c main_v19 = ((broadcastInDim S64 ![] bcast_S_S64 : (⟨S_, .i32⟩ : BufTy).Contents (Elt F) → (⟨S64, .i32⟩ : BufTy).Contents (Elt F))) (W (F := F) m c main_c_7) := by
  unfold W
  peel
  conv_lhs => rw [unary_result]
  try peel
  try rfl

theorem w_main_v20 : W (F := F) m c main_v20 = ((addi : (⟨S64, .i32⟩ : BufTy).Contents (Elt F) → (⟨S64, .i32⟩ : BufTy).Contents (Elt F) → (⟨S64, .i32⟩ : BufTy).Contents (Elt F))) (W (F := F) m c main_v5) (W (F := F) m c main_v19) := by
  unfold W
  peel
  conv_lhs => rw [binary_result]
  try peel
  try rfl

theorem w_main_v21 : W (F := F) m c main_v21 = ((select : (⟨S64, .i1⟩ : BufTy).Contents (Elt F) → (⟨S64, .i32⟩ : BufTy).Contents (Elt F) → (⟨S64, .i32⟩ : BufTy).Contents (Elt F) → (⟨S64, .i32⟩ : BufTy).Contents (Elt F))) (W (F := F) m c main_v18) (W (F := F) m c main_v20) (W (F := F) m c main_v5) := by
  unfold W
  peel
  conv_lhs => rw [ternary_result]
  try peel
  try rfl

theorem w_main_v22 : W (F := F) m c main_v22 = ((broadcastInDim S64x1 ![0] bcast_S64_S64x1_0 : (⟨S64, .i32⟩ : BufTy).Contents (Elt F) → (⟨S64x1, .i32⟩ : BufTy).Contents (Elt F))) (W (F := F) m c main_v16) := by
  unfold W
  peel
  conv_lhs => rw [unary_result]
  try peel
  try rfl

theorem w_main_v23 : W (F := F) m c main_v23 = ((broadcastInDim S64x1 ![0] bcast_S64_S64x1_0 : (⟨S64, .i32⟩ : BufTy).Contents (Elt F) → (⟨S64x1, .i32⟩ : BufTy).Contents (Elt F))) (W (F := F) m c main_v21) := by
  unfold W
  peel
  conv_lhs => rw [unary_result]
  try peel
  try rfl

theorem w_main_v24 : W (F := F) m c main_v24 = (((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F))) (W (F := F) m c main_v22) (W (F := F) m c main_v23) := by
  unfold W
  peel
  conv_lhs => rw [binary_result]
  try peel
  try rfl

theorem w_main_v25 : W (F := F) m c main_v25 = (((fun x i => Host.gather gather_S16x2048x32x32_S64x2_S16x2048x64_01_23_n_n_23_1_16204811 x i) : (⟨S16x2048x32x32, .f32⟩ : BufTy).Contents (Elt F) → (⟨S64x2, .i32⟩ : BufTy).Contents (Elt F) → (⟨S16x2048x64, .f32⟩ : BufTy).Contents (Elt F))) (W (F := F) m c main_arg0) (W (F := F) m c main_v24) := by
  unfold W
  peel
  conv_lhs => rw [binary_result]
  try peel
  try rfl

theorem w_main_call2_v0 : W (F := F) m c main_call2_v0 = (mulf) (W (F := F) m c main_arg0) (W (F := F) m c main_arg0) := by
  unfold W
  peel
  conv_lhs => rw [binary_result]
  try peel
  try rfl

theorem w_main_call2_cst : W (F := F) m c main_call2_cst = ((constant S_ .f32 0x00000000#32)) := by
  unfold W
  peel
  conv_lhs => rw [nullary_result]
  try peel
  try rfl

theorem w_main_call2_v1 : W (F := F) m c main_call2_v1 = ((fun x v => Host.reduceAdd x v reducesTo_S16x2048x32x32_S16x32x32_d1 h_S_)) (W (F := F) m c main_call2_v0) (W (F := F) m c main_call2_cst) := by
  unfold W
  peel
  conv_lhs => rw [binary_result]
  try peel
  try rfl

theorem w_main_call2_v2 : W (F := F) m c main_call2_v2 = ((broadcastInDim S16x1x32x32 ![0, 2, 3] bcast_S16x32x32_S16x1x32x32_0_2_3)) (W (F := F) m c main_call2_v1) := by
  unfold W
  peel
  conv_lhs => rw [unary_result]
  try peel
  try rfl

theorem w_main_v26 : W (F := F) m c main_v26 = (Host.sqrt) (W (F := F) m c main_call2_v2) := by
  unfold W
  peel
  conv_lhs => rw [unary_result]
  try peel
  try rfl

theorem w_main_v27 : W (F := F) m c main_v27 = ((broadcastInDim S16x2048x32x32 ![0, 1, 2, 3] bcast_S16x1x32x32_S16x2048x32x32_0_1_2_3 : (⟨S16x1x32x32, .f32⟩ : BufTy).Contents (Elt F) → (⟨S16x2048x32x32, .f32⟩ : BufTy).Contents (Elt F))) (W (F := F) m c main_v26) := by
  unfold W
  peel
  conv_lhs => rw [unary_result]
  try peel
  try rfl

theorem w_main_v28 : W (F := F) m c main_v28 = ((Host.divf : (⟨S16x2048x32x32, .f32⟩ : BufTy).Contents (Elt F) → (⟨S16x2048x32x32, .f32⟩ : BufTy).Contents (Elt F) → (⟨S16x2048x32x32, .f32⟩ : BufTy).Contents (Elt F))) (W (F := F) m c main_arg0) (W (F := F) m c main_v27) := by
  unfold W
  peel
  conv_lhs => rw [binary_result]
  try peel
  try rfl

theorem w_main_call3_v0 : W (F := F) m c main_call3_v0 = (mulf) (W (F := F) m c main_v25) (W (F := F) m c main_v25) := by
  unfold W
  peel
  conv_lhs => rw [binary_result]
  try peel
  try rfl

theorem w_main_call3_cst : W (F := F) m c main_call3_cst = ((constant S_ .f32 0x00000000#32)) := by
  unfold W
  peel
  conv_lhs => rw [nullary_result]
  try peel
  try rfl

theorem w_main_call3_v1 : W (F := F) m c main_call3_v1 = ((fun x v => Host.reduceAdd x v reducesTo_S16x2048x64_S16x64_d1 h_S_)) (W (F := F) m c main_call3_v0) (W (F := F) m c main_call3_cst) := by
  unfold W
  peel
  conv_lhs => rw [binary_result]
  try peel
  try rfl

theorem w_main_call3_v2 : W (F := F) m c main_call3_v2 = ((broadcastInDim S16x1x64 ![0, 2] bcast_S16x64_S16x1x64_0_2)) (W (F := F) m c main_call3_v1) := by
  unfold W
  peel
  conv_lhs => rw [unary_result]
  try peel
  try rfl

theorem w_main_v29 : W (F := F) m c main_v29 = (Host.sqrt) (W (F := F) m c main_call3_v2) := by
  unfold W
  peel
  conv_lhs => rw [unary_result]
  try peel
  try rfl

theorem w_main_v30 : W (F := F) m c main_v30 = ((broadcastInDim S16x2048x64 ![0, 1, 2] bcast_S16x1x64_S16x2048x64_0_1_2 : (⟨S16x1x64, .f32⟩ : BufTy).Contents (Elt F) → (⟨S16x2048x64, .f32⟩ : BufTy).Contents (Elt F))) (W (F := F) m c main_v29) := by
  unfold W
  peel
  conv_lhs => rw [unary_result]
  try peel
  try rfl

theorem w_main_v31 : W (F := F) m c main_v31 = ((Host.divf : (⟨S16x2048x64, .f32⟩ : BufTy).Contents (Elt F) → (⟨S16x2048x64, .f32⟩ : BufTy).Contents (Elt F) → (⟨S16x2048x64, .f32⟩ : BufTy).Contents (Elt F))) (W (F := F) m c main_v25) (W (F := F) m c main_v30) := by
  unfold W
  peel
  conv_lhs => rw [binary_result]
  try peel
  try rfl

theorem w_main_v32 : W (F := F) m c main_v32 = shapeCast _ (W (F := F) m c main_v28) shapeCasts_S16x2048x32x32_S16x2048x1024 := by
  unfold W
  peel
  conv_lhs => rw [reshape_result]
  try peel
  try rfl

theorem w_main_v33 : W (F := F) m c main_v33 = (((fun l r => Host.dotGeneral dot_S16x2048x64_S16x2048x1024_S16x64x1024_1_1_2_2_0_0 none l r) : (⟨S16x2048x64, .f32⟩ : BufTy).Contents (Elt F) → (⟨S16x2048x1024, .f32⟩ : BufTy).Contents (Elt F) → (⟨S16x64x1024, .f32⟩ : BufTy).Contents (Elt F))) (W (F := F) m c main_v31) (W (F := F) m c main_v32) := by
  unfold W
  peel
  conv_lhs => rw [binary_result]
  try peel
  try rfl

theorem w_main_cst_8 : W (F := F) m c main_cst_8 = ((constant S_ .f32 0x7F800000#32)) := by
  unfold W
  peel
  conv_lhs => rw [nullary_result]
  try peel
  try rfl

theorem w_main_v34 : W (F := F) m c main_v34 = (((fun x v => Host.reduce FloatOps.minimumf x v reducesTo_S16x64x1024_S16x64_d2 h_S_) : (⟨S16x64x1024, .f32⟩ : BufTy).Contents (Elt F) → (⟨S_, .f32⟩ : BufTy).Contents (Elt F) → (⟨S16x64, .f32⟩ : BufTy).Contents (Elt F))) (W (F := F) m c main_v33) (W (F := F) m c main_cst_8) := by
  unfold W
  peel
  conv_lhs => rw [binary_result]
  try peel
  try rfl

theorem w_main_v35 : W (F := F) m c main_v35 = ((broadcastInDim S16x64x1 ![0, 1] bcast_S16x64_S16x64x1_0_1 : (⟨S16x64, .f32⟩ : BufTy).Contents (Elt F) → (⟨S16x64x1, .f32⟩ : BufTy).Contents (Elt F))) (W (F := F) m c main_v34) := by
  unfold W
  peel
  conv_lhs => rw [unary_result]
  try peel
  try rfl

theorem w_main_cst_9 : W (F := F) m c main_cst_9 = ((constant S_ .f32 0xFF800000#32)) := by
  unfold W
  peel
  conv_lhs => rw [nullary_result]
  try peel
  try rfl

theorem w_main_v36 : W (F := F) m c main_v36 = (((fun x v => Host.reduce FloatOps.maximumf x v reducesTo_S16x64x1024_S16x64_d2 h_S_) : (⟨S16x64x1024, .f32⟩ : BufTy).Contents (Elt F) → (⟨S_, .f32⟩ : BufTy).Contents (Elt F) → (⟨S16x64, .f32⟩ : BufTy).Contents (Elt F))) (W (F := F) m c main_v33) (W (F := F) m c main_cst_9) := by
  unfold W
  peel
  conv_lhs => rw [binary_result]
  try peel
  try rfl

theorem w_main_v37 : W (F := F) m c main_v37 = ((broadcastInDim S16x64x1 ![0, 1] bcast_S16x64_S16x64x1_0_1 : (⟨S16x64, .f32⟩ : BufTy).Contents (Elt F) → (⟨S16x64x1, .f32⟩ : BufTy).Contents (Elt F))) (W (F := F) m c main_v36) := by
  unfold W
  peel
  conv_lhs => rw [unary_result]
  try peel
  try rfl

theorem w_main_v38 : W (F := F) m c main_v38 = ((broadcastInDim S16x64x1024 ![0, 1, 2] bcast_S16x64x1_S16x64x1024_0_1_2 : (⟨S16x64x1, .f32⟩ : BufTy).Contents (Elt F) → (⟨S16x64x1024, .f32⟩ : BufTy).Contents (Elt F))) (W (F := F) m c main_v35) := by
  unfold W
  peel
  conv_lhs => rw [unary_result]
  try peel
  try rfl

theorem w_main_v39 : W (F := F) m c main_v39 = ((subf : (⟨S16x64x1024, .f32⟩ : BufTy).Contents (Elt F) → (⟨S16x64x1024, .f32⟩ : BufTy).Contents (Elt F) → (⟨S16x64x1024, .f32⟩ : BufTy).Contents (Elt F))) (W (F := F) m c main_v33) (W (F := F) m c main_v38) := by
  unfold W
  peel
  conv_lhs => rw [binary_result]
  try peel
  try rfl

theorem w_main_v40 : W (F := F) m c main_v40 = ((broadcastInDim S16x64x1024 ![0, 1, 2] bcast_S16x64x1_S16x64x1024_0_1_2 : (⟨S16x64x1, .f32⟩ : BufTy).Contents (Elt F) → (⟨S16x64x1024, .f32⟩ : BufTy).Contents (Elt F))) (W (F := F) m c main_v37) := by
  unfold W
  peel
  conv_lhs => rw [unary_result]
  try peel
  try rfl

theorem w_main_v41 : W (F := F) m c main_v41 = ((Host.divf : (⟨S16x64x1024, .f32⟩ : BufTy).Contents (Elt F) → (⟨S16x64x1024, .f32⟩ : BufTy).Contents (Elt F) → (⟨S16x64x1024, .f32⟩ : BufTy).Contents (Elt F))) (W (F := F) m c main_v39) (W (F := F) m c main_v40) := by
  unfold W
  peel
  conv_lhs => rw [binary_result]
  try peel
  try rfl

theorem w_main_v42 : W (F := F) m c main_v42 = shapeCast _ (W (F := F) m c main_v41) shapeCasts_S16x64x1024_S16x64x32x32 := by
  unfold W
  peel
  conv_lhs => rw [reshape_result]
  try peel
  try rfl

theorem w_main_v43 : W (F := F) m c main_v43 = ((broadcastInDim S1x64x1x1 ![1] bcast_S64_S1x64x1x1_1 : (⟨S64, .i1⟩ : BufTy).Contents (Elt F) → (⟨S1x64x1x1, .i1⟩ : BufTy).Contents (Elt F))) (W (F := F) m c main_arg2) := by
  unfold W
  peel
  conv_lhs => rw [unary_result]
  try peel
  try rfl

theorem w_main_cst_10 : W (F := F) m c main_cst_10 = ((constant S_ .f32 0x00000000#32)) := by
  unfold W
  peel
  conv_lhs => rw [nullary_result]
  try peel
  try rfl

theorem w_main_call4_v0 : W (F := F) m c main_call4_v0 = ((broadcastInDim S16x64x32x32 ![0, 1, 2, 3] bcast_S1x64x1x1_S16x64x32x32_0_1_2_3)) (W (F := F) m c main_v43) := by
  unfold W
  peel
  conv_lhs => rw [unary_result]
  try peel
  try rfl

theorem w_main_call4_v1 : W (F := F) m c main_call4_v1 = ((broadcastInDim S16x64x32x32 ![] bcast_S_S16x64x32x32)) (W (F := F) m c main_cst_10) := by
  unfold W
  peel
  conv_lhs => rw [unary_result]
  try peel
  try rfl

theorem w_main_v44 : W (F := F) m c main_v44 = (select) (W (F := F) m c main_call4_v0) (W (F := F) m c main_v42) (W (F := F) m c main_call4_v1) := by
  unfold W
  peel
  conv_lhs => rw [ternary_result]
  try peel
  try rfl

end Steps

/-! ## The named stages -/

section Stages

variable (m : (ℓ : Loc nD τ sig) → Buf (Elt Ideal) ℓ) (c : Dev nD)

/-- The feature map the program is launched with. -/
abbrev feaOf : FVec Ideal S16x2048x32x32 .f32 := m ((c.tc : Thread nD τ).loc main_arg0)
/-- The point list the program is launched with. -/
abbrev ptsOf : FVec Ideal S64x2 .f32 := m ((c.tc : Thread nD τ).loc main_arg1)
/-- The valid flags the program is launched with. -/
abbrev validOf : IVec S64 1 := m ((c.tc : Thread nD τ).loc main_arg2)

/-- The column words: the first coordinate of each point, times 32, converted to an integer. -/
theorem st_v4 :
    (W (F := Ideal) m c main_v4 : IVec S64 32)
      = fptosi 32 (mulf (shapeCast S64 (extractStridedSlice S64x1 ![0, 0] (ptsOf m c) slices_S64x2_S64x1_0_0) shapeCasts_S64x1_S64)
          (broadcastInDim S64 ![] bcast_S_S64 (constant (F := Ideal) S_ .f32 0x42000000#32))) := by
  rw [w_main_v4, w_main_v3, w_main_v1, w_main_v0, w_main_v2, w_main_cst, W_main_arg1]
  try rfl

/-- The row words: the second coordinate of each point, times 32, converted to an integer. -/
theorem st_v10 :
    (W (F := Ideal) m c main_v10 : IVec S64 32)
      = fptosi 32 (mulf (shapeCast S64 (extractStridedSlice S64x1 ![0, 1] (ptsOf m c) slices_S64x2_S64x1_0_1) shapeCasts_S64x1_S64)
          (broadcastInDim S64 ![] bcast_S_S64 (constant (F := Ideal) S_ .f32 0x42000000#32))) := by
  rw [w_main_v10, w_main_v9, w_main_v7, w_main_v6, w_main_v8, w_main_cst_1, W_main_arg1]
  try rfl

/-- The clamped column words. -/
theorem st_v5 :
    (W (F := Ideal) m c main_v5 : IVec S64 32) = Cert.RefIndex.clampV bcast_S_S64 (W (F := Ideal) m c main_v4) := by
  rw [w_main_v5, w_main_call0_v4, w_main_call0_v3, w_main_c_0, w_main_call0_v2, w_main_call0_v1, w_main_call0_v0, w_main_c]
  try rfl

/-- The clamped row words. -/
theorem st_v11 :
    (W (F := Ideal) m c main_v11 : IVec S64 32) = Cert.RefIndex.clampV bcast_S_S64 (W (F := Ideal) m c main_v10) := by
  rw [w_main_v11, w_main_call1_v4, w_main_call1_v3, w_main_c_3, w_main_call1_v2, w_main_call1_v1, w_main_call1_v0, w_main_c_2]
  try rfl

/-- The wrapped clamped row words. -/
theorem st_v16 :
    (W (F := Ideal) m c main_v16 : IVec S64 32) = Cert.RefIndex.wrapV bcast_S_S64 (W (F := Ideal) m c main_v11) := by
  rw [w_main_v16, w_main_v13, w_main_v12, w_main_c_4, w_main_v15, w_main_v14, w_main_c_5]
  try rfl

/-- The wrapped clamped column words. -/
theorem st_v21 :
    (W (F := Ideal) m c main_v21 : IVec S64 32) = Cert.RefIndex.wrapV bcast_S_S64 (W (F := Ideal) m c main_v5) := by
  rw [w_main_v21, w_main_v18, w_main_v17, w_main_c_6, w_main_v20, w_main_v19, w_main_c_7]
  try rfl

/-- The index array: rows on the left, columns on the right. -/
theorem st_v24 :
    (W (F := Ideal) m c main_v24 : IVec S64x2 32)
      = Cert.RefIndex.indexArray bcast_S_S64 bcast_S64_S64x1_0 concatenates_S64x1_S64x1_S64x2_d1
          (W (F := Ideal) m c main_v10) (W (F := Ideal) m c main_v4) := by
  rw [w_main_v24, w_main_v22, w_main_v23, st_v16, st_v21, st_v11, st_v5]
  try rfl

/-- The sampled columns: the gather of the feature map at the index array. -/
theorem st_v25 :
    (W (F := Ideal) m c main_v25 : FVec Ideal S16x2048x64 .f32)
      = Host.gather gather_S16x2048x32x32_S64x2_S16x2048x64_01_23_n_n_23_1_16204811 (feaOf m c) (W (F := Ideal) m c main_v24) := by
  rw [w_main_v25, W_main_arg0]
  try rfl

/-- The norm of every location's channel column. -/
theorem st_v26 :
    (W (F := Ideal) m c main_v26 : FVec Ideal S16x1x32x32 .f32)
      = Host.sqrt (broadcastInDim S16x1x32x32 ![0, 2, 3] bcast_S16x32x32_S16x1x32x32_0_2_3
          (Host.reduceAdd (mulf (feaOf m c) (feaOf m c)) (constant (F := Ideal) S_ .f32 0x00000000#32)
            reducesTo_S16x2048x32x32_S16x32x32_d1 h_S_)) := by
  rw [w_main_v26, w_main_call2_v2, w_main_call2_v1, w_main_call2_v0, w_main_call2_cst, W_main_arg0]
  try rfl

/-- The feature map with every column divided by its norm. -/
theorem st_v28 :
    (W (F := Ideal) m c main_v28 : FVec Ideal S16x2048x32x32 .f32)
      = Host.divf (feaOf m c) (broadcastInDim S16x2048x32x32 ![0, 1, 2, 3] bcast_S16x1x32x32_S16x2048x32x32_0_1_2_3
          (W (F := Ideal) m c main_v26)) := by
  rw [w_main_v28, w_main_v27, W_main_arg0]
  try rfl

/-- The norm of every sampled column. -/
theorem st_v29 :
    (W (F := Ideal) m c main_v29 : FVec Ideal S16x1x64 .f32)
      = Host.sqrt (broadcastInDim S16x1x64 ![0, 2] bcast_S16x64_S16x1x64_0_2
          (Host.reduceAdd (mulf (W (F := Ideal) m c main_v25) (W (F := Ideal) m c main_v25))
            (constant (F := Ideal) S_ .f32 0x00000000#32) reducesTo_S16x2048x64_S16x64_d1 h_S_)) := by
  rw [w_main_v29, w_main_call3_v2, w_main_call3_v1, w_main_call3_v0, w_main_call3_cst]
  try rfl

/-- The sampled columns, each divided by its norm. -/
theorem st_v31 :
    (W (F := Ideal) m c main_v31 : FVec Ideal S16x2048x64 .f32)
      = (Host.divf (W (F := Ideal) m c main_v25) (broadcastInDim S16x2048x64 ![0, 1, 2] bcast_S16x1x64_S16x2048x64_0_1_2
          (W (F := Ideal) m c main_v29)) : FVec Ideal S16x2048x64 .f32) := by
  rw [w_main_v31, w_main_v30]
  try rfl

/-- The normalised feature map with row and column flattened into one location number. -/
theorem st_v32 :
    (W (F := Ideal) m c main_v32 : FVec Ideal S16x2048x1024 .f32)
      = shapeCast S16x2048x1024 (W (F := Ideal) m c main_v28) shapeCasts_S16x2048x32x32_S16x2048x1024 := by
  rw [w_main_v32]
  try rfl

/-- The similarities: the contraction over channels of the normalised sampled columns with the normalised map. -/
theorem st_v33 :
    (W (F := Ideal) m c main_v33 : FVec Ideal S16x64x1024 .f32)
      = (Host.dotGeneral (φ₁ := .f32) (φ₂ := .f32) dot_S16x2048x64_S16x2048x1024_S16x64x1024_1_1_2_2_0_0 none
          (W (F := Ideal) m c main_v31) (W (F := Ideal) m c main_v32) : FVec Ideal S16x64x1024 .f32) := by
  rw [w_main_v33]
  try rfl

/-- The least similarity of each point. -/
theorem st_v34 :
    (W (F := Ideal) m c main_v34 : FVec Ideal S16x64 .f32)
      = Host.reduce FloatOps.minimumf (W (F := Ideal) m c main_v33) (constant (F := Ideal) S_ .f32 0x7F800000#32)
          reducesTo_S16x64x1024_S16x64_d2 h_S_ := by
  rw [w_main_v34, w_main_cst_8]
  try rfl

/-- The greatest similarity of each point. -/
theorem st_v36 :
    (W (F := Ideal) m c main_v36 : FVec Ideal S16x64 .f32)
      = Host.reduce FloatOps.maximumf (W (F := Ideal) m c main_v33) (constant (F := Ideal) S_ .f32 0xFF800000#32)
          reducesTo_S16x64x1024_S16x64_d2 h_S_ := by
  rw [w_main_v36, w_main_cst_9]
  try rfl

/-- The rescaled similarities: the least subtracted, then divided by the greatest. -/
theorem st_v41 :
    (W (F := Ideal) m c main_v41 : FVec Ideal S16x64x1024 .f32)
      = (Host.divf
          (subf (W (F := Ideal) m c main_v33)
            (broadcastInDim S16x64x1024 ![0, 1, 2] bcast_S16x64x1_S16x64x1024_0_1_2
              (broadcastInDim S16x64x1 ![0, 1] bcast_S16x64_S16x64x1_0_1 (W (F := Ideal) m c main_v34))))
          (broadcastInDim S16x64x1024 ![0, 1, 2] bcast_S16x64x1_S16x64x1024_0_1_2
            (broadcastInDim S16x64x1 ![0, 1] bcast_S16x64_S16x64x1_0_1 (W (F := Ideal) m c main_v36))) : FVec Ideal S16x64x1024 .f32) := by
  rw [w_main_v41, w_main_v39, w_main_v38, w_main_v35, w_main_v40, w_main_v37]
  try rfl

/-- The rescaled similarities with the location number split back into row and column. -/
theorem st_v42 :
    (W (F := Ideal) m c main_v42 : FVec Ideal S16x64x32x32 .f32)
      = shapeCast S16x64x32x32 (W (F := Ideal) m c main_v41) shapeCasts_S16x64x1024_S16x64x32x32 := by
  rw [w_main_v42]
  try rfl

/-- The result: the rescaled similarities where the point's flag is set, zero elsewhere. -/
theorem st_v44 :
    (W (F := Ideal) m c main_v44 : FVec Ideal S16x64x32x32 .f32)
      = select
          (broadcastInDim S16x64x32x32 ![0, 1, 2, 3] bcast_S1x64x1x1_S16x64x32x32_0_1_2_3
            (broadcastInDim S1x64x1x1 ![1] bcast_S64_S1x64x1x1_1 (validOf m c)))
          (W (F := Ideal) m c main_v42)
          (broadcastInDim S16x64x32x32 ![] bcast_S_S16x64x32x32 (constant (F := Ideal) S_ .f32 0x00000000#32)) := by
  rw [w_main_v44, w_main_call4_v0, w_main_v43, w_main_call4_v1, w_main_cst_10, W_main_arg2]
  try rfl

end Stages

end Cert.RefStages

end
-- ==== Proof.RefMath.lean ====
/-
  The reference's cosine is the specification's.

  The reference normalises first: it divides every entry of a channel column by the column's norm, then takes the
  inner product of the sampled column with each column. The specification divides the raw inner product once by the
  product of the two norms. Where every entry is a real number and no column is all zero, each norm is a positive
  real — the square root of a sum of squares of reals, one of them nonzero — and the two spellings agree (the cosine
  law on the extended reals).
-/
import proofs.«174781_j17617955848291_1_alg».proof.Proof.Spec
import proofs.«174781_j17617955848291_1_alg».proof.Proof.LibCosineLaw
import Idealize.ShloMosaic.Lib.ValueIdx
import Mathlib.Analysis.SpecialFunctions.Pow.Real

noncomputable section

namespace Cert.RefMath

open Idealize.ShloMosaic Idealize.ShloMosaic.ValueIdx Cert.Spec Cert.Lib.CosineLaw

variable (fea : (⟨4, ![16, 2048, 32, 32]⟩ : Shape).Idx → EReal)
variable (hreal : ∀ i, ∃ r : ℝ, fea i = (r : EReal))
variable (hnz : ∀ (b : Fin 16) (y x : Fin 32), ∃ c : Fin 2048, fea (ix4 b c y x) ≠ 0)

/-- The real number an entry is. -/
def re (b : Fin 16) (c : Fin 2048) (k : Fin 1024) : ℝ := (hreal (ix4 b c ⟨k.val / 32, by have := k.isLt; omega⟩ ⟨k.val % 32, Nat.mod_lt _ (by decide)⟩)).choose

theorem feaAt_re (b : Fin 16) (c : Fin 2048) (k : Fin 1024) : feaAt fea b c k = ((re fea hreal b c k : ℝ) : EReal) :=
  (hreal _).choose_spec

/-- The squared norm of a column, as a real. -/
def nsq (b : Fin 16) (k : Fin 1024) : ℝ := ∑ c : Fin 2048, re fea hreal b c k * re fea hreal b c k

theorem normSq_re (b : Fin 16) (k : Fin 1024) : normSq fea b k = ((nsq fea hreal b k : ℝ) : EReal) := by
  unfold normSq nsq
  rw [← coe_sum]
  exact Finset.sum_congr rfl fun c _ => by rw [feaAt_re fea hreal, ← EReal.coe_mul]

include hnz in
/-- A column's squared norm is positive: one of its entries is not zero. -/
theorem nsq_pos (b : Fin 16) (k : Fin 1024) : 0 < nsq fea hreal b k := by
  obtain ⟨c, hc⟩ := hnz b ⟨k.val / 32, by have := k.isLt; omega⟩ ⟨k.val % 32, Nat.mod_lt _ (by decide)⟩
  have hc' : re fea hreal b c k ≠ 0 := fun h => hc (by
    have := feaAt_re fea hreal b c k
    unfold feaAt at this
    rw [this, h]; rfl)
  unfold nsq
  refine lt_of_lt_of_le (mul_self_pos.mpr hc') ?_
  exact Finset.single_le_sum (f := fun c => re fea hreal b c k * re fea hreal b c k) (fun c _ => mul_self_nonneg _) (Finset.mem_univ c)

include hnz in
/-- A column's norm, on the extended reals, is the positive real square root. -/
theorem sqrt_normSq (b : Fin 16) (k : Fin 1024) :
    Ideal.sqrt (normSq fea b k) = ((Real.sqrt (nsq fea hreal b k) : ℝ) : EReal) := by
  rw [normSq_re fea hreal]
  show (if nsq fea hreal b k < 0 then (⊥ : EReal) else ((Real.sqrt (nsq fea hreal b k) : ℝ) : EReal)) = _
  rw [if_neg (not_lt.mpr (le_of_lt (nsq_pos fea hreal hnz b k)))]

include hnz in
theorem sqrt_ne_zero (b : Fin 16) (k : Fin 1024) : Real.sqrt (nsq fea hreal b k) ≠ 0 :=
  (Real.sqrt_pos.mpr (nsq_pos fea hreal hnz b k)).ne'

include hreal hnz in
/-- The reference's normalised inner product is the specification's cosine. -/
theorem normalised_inner (s : Fin 64 → Fin 1024) (b : Fin 16) (p : Fin 64) (k : Fin 1024) :
    (∑ c : Fin 2048, Ideal.div (feaAt fea b c (s p)) (Ideal.sqrt (normSq fea b (s p)))
        * Ideal.div (feaAt fea b c k) (Ideal.sqrt (normSq fea b k)))
      = cosine fea s b p k := by
  unfold cosine Spec.inner
  rw [sqrt_normSq fea hreal hnz b k, sqrt_normSq fea hreal hnz b (s p)]
  simp only [feaAt_re fea hreal]
  exact (inner_div_norms (fun c => re fea hreal b c (s p)) (fun c => re fea hreal b c k)
    (sqrt_ne_zero fea hreal hnz b k) (sqrt_ne_zero fea hreal hnz b (s p))).symm

end Cert.RefMath

end
-- ==== Proof.RefIsSpec.lean ====
/-
  The reference computes the specification.

  Read index by index: the index words of each point are its two coordinates scaled and converted; the gather
  reads the feature map at the location the clamped words name; both families of columns are divided by their
  norms; the contraction over channels of the two normalised families is the cosine; its row minimum and
  maximum are the least and greatest cosine; and the final selection keeps the rescaled cosine where the
  point is valid and writes zero elsewhere.
-/
import proofs.«174781_j17617955848291_1_alg».proof.Proof.RefIndex
import proofs.«174781_j17617955848291_1_alg».proof.Proof.RefExtremes
import proofs.«174781_j17617955848291_1_alg».proof.Proof.Spec
import proofs.«174781_j17617955848291_1_alg».proof.Proof.Sampled
import proofs.«174781_j17617955848291_1_alg».proof.Proof.LibCosineLaw
import proofs.«174781_j17617955848291_1_alg».proof.Proof.RefStages
import proofs.«174781_j17617955848291_1_alg».proof.Proof.RefMath
import Idealize.ShloMosaic.Lib.Pipeline.Value
import Idealize.ShloMosaic.Lib.ValueIdx
import Idealize.ShloMosaic.PureOps.Ideal.Laws

noncomputable section

namespace Cert.RefIsSpec

open Cert.ReferenceIdeal Cert.ReferenceIdeal.Gen Idealize.ShloMosaic Idealize.ShloMosaic.ValueIdx
open scoped BigOperators

/-! ## Reading the layout operations at an index -/

section Reads
variable {α : Type}

/-- A [64] vector got by slicing column k of a [64, 2] array and dropping the unit axis, read at p. -/
theorem col0_read (pts : S64x2.Idx → α) (p : Fin 64) :
    shapeCast S64 (extractStridedSlice S64x1 ![0, 0] pts slices_S64x2_S64x1_0_0) shapeCasts_S64x1_S64 (ix1 p)
      = pts (ix2 p (0 : Fin 2)) := by
  rw [shapeCast_apply _ shapeCasts_S64x1_S64 (ix1 p) (ix2 p (0 : Fin 1))
    (by rw [Shape.rowMajor_val_two, Shape.rowMajor_val_one]; show p.val * 1 + 0 = p.val; omega)]
  exact extractStridedSlice_apply ![0, 0] pts slices_S64x2_S64x1_0_0 _ (ix2 p (0 : Fin 2)) (fun a => match a with
    | ⟨0, _⟩ => by show p.val = 0 + p.val; omega
    | ⟨1, _⟩ => by show 0 = 0 + 0; rfl)

theorem col1_read (pts : S64x2.Idx → α) (p : Fin 64) :
    shapeCast S64 (extractStridedSlice S64x1 ![0, 1] pts slices_S64x2_S64x1_0_1) shapeCasts_S64x1_S64 (ix1 p)
      = pts (ix2 p (1 : Fin 2)) := by
  rw [shapeCast_apply _ shapeCasts_S64x1_S64 (ix1 p) (ix2 p (0 : Fin 1))
    (by rw [Shape.rowMajor_val_two, Shape.rowMajor_val_one]; show p.val * 1 + 0 = p.val; omega)]
  exact extractStridedSlice_apply ![0, 1] pts slices_S64x2_S64x1_0_1 _ (ix2 p (1 : Fin 2)) (fun a => match a with
    | ⟨0, _⟩ => by show p.val = 0 + p.val; omega
    | ⟨1, _⟩ => by show 1 = 1 + 0; rfl)

/-- The map with row and column flattened, read at (b, ch, k): the map at row k / 32, column k % 32. -/
theorem flat_read (X : S16x2048x32x32.Idx → α) (b : Fin 16) (ch : Fin 2048) (k : Fin 1024) :
    shapeCast S16x2048x1024 X shapeCasts_S16x2048x32x32_S16x2048x1024 (ix3 b ch k)
      = X (ix4 b ch (⟨k.val / 32, by have := k.isLt; omega⟩ : Fin 32) (⟨k.val % 32, Nat.mod_lt _ (by decide)⟩ : Fin 32)) := by
  refine shapeCast_apply X shapeCasts_S16x2048x32x32_S16x2048x1024 (ix3 b ch k) _ ?_
  rw [Shape.rowMajor_val_four, Shape.rowMajor_val_three]
  show ((b.val * 2048 + ch.val) * 32 + k.val / 32) * 32 + k.val % 32 = (b.val * 2048 + ch.val) * 1024 + k.val
  omega

/-- The similarities with the location split into row and column, read at (b, p, y, x): at location 32 y + x. -/
theorem unflat_read (X : S16x64x1024.Idx → α) (j : S16x64x32x32.Idx) :
    shapeCast S16x64x32x32 X shapeCasts_S16x64x1024_S16x64x32x32 j
      = X (ix3 (j 0) (j 1) (⟨(j 2).val * 32 + (j 3).val, by
          have h2 : (j 2).val < 32 := (j 2).isLt; have h3 : (j 3).val < 32 := (j 3).isLt; omega⟩ : Fin 1024)) := by
  refine shapeCast_apply X shapeCasts_S16x64x1024_S16x64x32x32 j _ ?_
  rw [Shape.rowMajor_val_three, Shape.rowMajor_val_four]
  show ((j 0).val * 64 + (j 1).val) * 1024 + ((j 2).val * 32 + (j 3).val)
    = (((j 0).val * 64 + (j 1).val) * 32 + (j 2).val) * 32 + (j 3).val
  omega

/-- A per-location value spread over the channels, read at (b, ch, y, x): the value at (b, 0, y, x). -/
theorem bcast_keys_read (Y : S16x1x32x32.Idx → α) (b : Fin 16) (ch : Fin 2048) (y x : Fin 32) :
    broadcastInDim S16x2048x32x32 ![0, 1, 2, 3] bcast_S16x1x32x32_S16x2048x32x32_0_1_2_3 Y (ix4 b ch y x)
      = Y (ix4 b (0 : Fin 1) y x) :=
  broadcastInDim_apply _ _ Y _ _ (fun a => match a with
    | ⟨0, _⟩ => by show b.val = if (16 : Nat) = 1 then 0 else b.val; rw [if_neg (by decide)]
    | ⟨1, _⟩ => by show 0 = if (1 : Nat) = 1 then 0 else ch.val; rw [if_pos rfl]
    | ⟨2, _⟩ => by show y.val = if (32 : Nat) = 1 then 0 else y.val; rw [if_neg (by decide)]
    | ⟨3, _⟩ => by show x.val = if (32 : Nat) = 1 then 0 else x.val; rw [if_neg (by decide)])

/-- A per-point value spread over the channels, read at (b, ch, p): the value at (b, 0, p). -/
theorem bcast_query_read (Y : S16x1x64.Idx → α) (b : Fin 16) (ch : Fin 2048) (p : Fin 64) :
    broadcastInDim S16x2048x64 ![0, 1, 2] bcast_S16x1x64_S16x2048x64_0_1_2 Y (ix3 b ch p) = Y (ix3 b (0 : Fin 1) p) :=
  broadcastInDim_apply _ _ Y _ _ (fun a => match a with
    | ⟨0, _⟩ => by show b.val = if (16 : Nat) = 1 then 0 else b.val; rw [if_neg (by decide)]
    | ⟨1, _⟩ => by show 0 = if (1 : Nat) = 1 then 0 else ch.val; rw [if_pos rfl]
    | ⟨2, _⟩ => by show p.val = if (64 : Nat) = 1 then 0 else p.val; rw [if_neg (by decide)])

/-- A per-(batch, point) value spread over the locations, read at (b, p, k): the value at (b, p). -/
theorem bcast_row_read (Y : S16x64.Idx → α) (b : Fin 16) (p : Fin 64) (k : Fin 1024) :
    broadcastInDim S16x64x1024 ![0, 1, 2] bcast_S16x64x1_S16x64x1024_0_1_2
        (broadcastInDim S16x64x1 ![0, 1] bcast_S16x64_S16x64x1_0_1 Y) (ix3 b p k) = Y (ix2 b p) := by
  rw [broadcastInDim_apply _ bcast_S16x64x1_S16x64x1024_0_1_2 _ (ix3 b p k) (ix3 b p (0 : Fin 1)) (fun a => match a with
    | ⟨0, _⟩ => by show b.val = if (16 : Nat) = 1 then 0 else b.val; rw [if_neg (by decide)]
    | ⟨1, _⟩ => by show p.val = if (64 : Nat) = 1 then 0 else p.val; rw [if_neg (by decide)]
    | ⟨2, _⟩ => by show 0 = if (1 : Nat) = 1 then 0 else k.val; rw [if_pos rfl])]
  exact broadcastInDim_apply _ bcast_S16x64_S16x64x1_0_1 Y _ (ix2 b p) (fun a => match a with
    | ⟨0, _⟩ => by show b.val = if (16 : Nat) = 1 then 0 else b.val; rw [if_neg (by decide)]
    | ⟨1, _⟩ => by show p.val = if (64 : Nat) = 1 then 0 else p.val; rw [if_neg (by decide)])

/-- The flags spread over batches and locations, read at j: the flag of point j 1. -/
theorem bcast_valid_read (v : S64.Idx → α) (j : S16x64x32x32.Idx) :
    broadcastInDim S16x64x32x32 ![0, 1, 2, 3] bcast_S1x64x1x1_S16x64x32x32_0_1_2_3
        (broadcastInDim S1x64x1x1 ![1] bcast_S64_S1x64x1x1_1 v) j = v (ix1 (j 1)) := by
  rw [broadcastInDim_apply _ bcast_S1x64x1x1_S16x64x32x32_0_1_2_3 _ j (ix4 (0 : Fin 1) (j 1) (0 : Fin 1) (0 : Fin 1)) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)]
    | ⟨2, _⟩ => by show 0 = if (1 : Nat) = 1 then 0 else (j 2).val; rw [if_pos rfl]
    | ⟨3, _⟩ => by show 0 = if (1 : Nat) = 1 then 0 else (j 3).val; rw [if_pos rfl])]
  exact broadcastInDim_apply _ bcast_S64_S1x64x1x1_1 v _ (ix1 (j 1)) (fun a => match a with
    | ⟨0, _⟩ => by show (j 1).val = if (64 : Nat) = 1 then 0 else (j 1).val; rw [if_neg (by decide)])

end Reads

/-- A square root of an array, read at an index. -/
theorem sqrt_read {s : Shape} (A : FVec Ideal s .f32) (i : s.Idx) : Host.sqrt A i = Ideal.sqrt (A i) := rfl

/-! ## The sums over channels -/

/-- The sum over channels of a [16, 2048, 32, 32] array from zero, read at (b, y, x). -/
theorem keySum_read (X : FVec Ideal S16x2048x32x32 .f32) (b : Fin 16) (y x : Fin 32) :
    Host.reduceAdd X (constant (F := Ideal) S_ .f32 0x00000000#32) reducesTo_S16x2048x32x32_S16x32x32_d1 h_S_ (ix3 b y x)
      = ∑ ch : Fin 2048, X (ix4 b ch y x) := by
  simp only [Host.reduceAdd, Ideal.hostReduceAdd_def]
  rw [Ideal.hostReduceAdd_single reducesTo_S16x2048x32x32_S16x32x32_d1 (by decide)]
  have h0 : (constant (F := Ideal) S_ .f32 0x00000000#32) (Shape.Idx.first h_S_) = (0 : EReal) := Ideal.ofBits_zero_f32
  rw [h0, zero_add]
  exact Finset.sum_congr rfl fun k _ => congrArg X (funext fun a => Fin.ext (by
    match a with | ⟨0, _⟩ => rfl | ⟨1, _⟩ => rfl | ⟨2, _⟩ => rfl | ⟨3, _⟩ => rfl))

/-- The sum over channels of a [16, 2048, 64] array from zero, read at (b, p). -/
theorem querySum_read (X : FVec Ideal S16x2048x64 .f32) (b : Fin 16) (p : Fin 64) :
    Host.reduceAdd X (constant (F := Ideal) S_ .f32 0x00000000#32) reducesTo_S16x2048x64_S16x64_d1 h_S_ (ix2 b p)
      = ∑ ch : Fin 2048, X (ix3 b ch p) := by
  simp only [Host.reduceAdd, Ideal.hostReduceAdd_def]
  rw [Ideal.hostReduceAdd_single reducesTo_S16x2048x64_S16x64_d1 (by decide)]
  have h0 : (constant (F := Ideal) S_ .f32 0x00000000#32) (Shape.Idx.first h_S_) = (0 : EReal) := Ideal.ofBits_zero_f32
  rw [h0, zero_add]
  exact Finset.sum_congr rfl fun k _ => congrArg X (funext fun a => Fin.ext (by
    match a with | ⟨0, _⟩ => rfl | ⟨1, _⟩ => rfl | ⟨2, _⟩ => rfl))

/-- The norm of the channel column at every location, read at (b, 0, y, x). -/
theorem keyNorm_read (fea : FVec Ideal S16x2048x32x32 .f32) (b : Fin 16) (y x : Fin 32) :
    Host.sqrt (broadcastInDim S16x1x32x32 ![0, 2, 3] bcast_S16x32x32_S16x1x32x32_0_2_3
        (Host.reduceAdd (mulf fea fea) (constant (F := Ideal) S_ .f32 0x00000000#32)
          reducesTo_S16x2048x32x32_S16x32x32_d1 h_S_)) (ix4 b (0 : Fin 1) y x)
      = Ideal.sqrt (∑ ch : Fin 2048, fea (ix4 b ch y x) * fea (ix4 b ch y x)) := by
  rw [sqrt_read, broadcastInDim_apply _ bcast_S16x32x32_S16x1x32x32_0_2_3 _ _ (ix3 b y x) (fun a => match a with
    | ⟨0, _⟩ => by show b.val = if (16 : Nat) = 1 then 0 else b.val; rw [if_neg (by decide)]
    | ⟨1, _⟩ => by show y.val = if (32 : Nat) = 1 then 0 else y.val; rw [if_neg (by decide)]
    | ⟨2, _⟩ => by show x.val = if (32 : Nat) = 1 then 0 else x.val; rw [if_neg (by decide)]), keySum_read]
  rfl

/-- The norm of every sampled column, read at (b, 0, p). -/
theorem queryNorm_read (G : FVec Ideal S16x2048x64 .f32) (b : Fin 16) (p : Fin 64) :
    Host.sqrt (broadcastInDim S16x1x64 ![0, 2] bcast_S16x64_S16x1x64_0_2
        (Host.reduceAdd (mulf G G) (constant (F := Ideal) S_ .f32 0x00000000#32)
          reducesTo_S16x2048x64_S16x64_d1 h_S_)) (ix3 b (0 : Fin 1) p)
      = Ideal.sqrt (∑ ch : Fin 2048, G (ix3 b ch p) * G (ix3 b ch p)) := by
  rw [sqrt_read, broadcastInDim_apply _ bcast_S16x64_S16x1x64_0_2 _ _ (ix2 b p) (fun a => match a with
    | ⟨0, _⟩ => by show b.val = if (16 : Nat) = 1 then 0 else b.val; rw [if_neg (by decide)]
    | ⟨1, _⟩ => by show p.val = if (64 : Nat) = 1 then 0 else p.val; rw [if_neg (by decide)]), querySum_read]
  rfl

/-! ## The contraction over channels, read at an index -/

section Dot

theorem lhs0 (i : S16x64x1024.Idx) (q : dot_S16x2048x64_S16x2048x1024_S16x64x1024_1_1_2_2_0_0.contr.Idx) : (dot_S16x2048x64_S16x2048x1024_S16x64x1024_1_1_2_2_0_0.lhsIdx i q 0).val = (i 0).val := by
  unfold DotDims.lhsIdx
  rw [dif_pos (show (0 : Fin S16x2048x64.rank) ∈ dot_S16x2048x64_S16x2048x1024_S16x64x1024_1_1_2_2_0_0.lhsBatch by decide)]
  rfl
theorem lhs1 (i : S16x64x1024.Idx) (q : dot_S16x2048x64_S16x2048x1024_S16x64x1024_1_1_2_2_0_0.contr.Idx) : (dot_S16x2048x64_S16x2048x1024_S16x64x1024_1_1_2_2_0_0.lhsIdx i q 1).val = (q ⟨0, by decide⟩).val :=
  dot_S16x2048x64_S16x2048x1024_S16x64x1024_1_1_2_2_0_0.lhsIdx_val_of_single rfl i q
theorem lhs2 (i : S16x64x1024.Idx) (q : dot_S16x2048x64_S16x2048x1024_S16x64x1024_1_1_2_2_0_0.contr.Idx) : (dot_S16x2048x64_S16x2048x1024_S16x64x1024_1_1_2_2_0_0.lhsIdx i q 2).val = (i 1).val := by
  unfold DotDims.lhsIdx
  rw [dif_neg (show ¬(2 : Fin S16x2048x64.rank) ∈ dot_S16x2048x64_S16x2048x1024_S16x64x1024_1_1_2_2_0_0.lhsBatch by decide),
    dif_pos (show (2 : Fin S16x2048x64.rank) ∈ dot_S16x2048x64_S16x2048x1024_S16x64x1024_1_1_2_2_0_0.lhsNonContracting by decide)]
  rfl
theorem rhs0 (i : S16x64x1024.Idx) (q : dot_S16x2048x64_S16x2048x1024_S16x64x1024_1_1_2_2_0_0.contr.Idx) : (dot_S16x2048x64_S16x2048x1024_S16x64x1024_1_1_2_2_0_0.rhsIdx i q 0).val = (i 0).val := by
  unfold DotDims.rhsIdx
  rw [dif_pos (show (0 : Fin S16x2048x1024.rank) ∈ dot_S16x2048x64_S16x2048x1024_S16x64x1024_1_1_2_2_0_0.rhsBatch by decide)]
  rfl
theorem rhs1 (i : S16x64x1024.Idx) (q : dot_S16x2048x64_S16x2048x1024_S16x64x1024_1_1_2_2_0_0.contr.Idx) : (dot_S16x2048x64_S16x2048x1024_S16x64x1024_1_1_2_2_0_0.rhsIdx i q 1).val = (q ⟨0, by decide⟩).val :=
  dot_S16x2048x64_S16x2048x1024_S16x64x1024_1_1_2_2_0_0.rhsIdx_val_of_single rfl i q
theorem rhs2 (i : S16x64x1024.Idx) (q : dot_S16x2048x64_S16x2048x1024_S16x64x1024_1_1_2_2_0_0.contr.Idx) : (dot_S16x2048x64_S16x2048x1024_S16x64x1024_1_1_2_2_0_0.rhsIdx i q 2).val = (i 2).val := by
  unfold DotDims.rhsIdx
  rw [dif_neg (show ¬(2 : Fin S16x2048x1024.rank) ∈ dot_S16x2048x64_S16x2048x1024_S16x64x1024_1_1_2_2_0_0.rhsBatch by decide),
    dif_pos (show (2 : Fin S16x2048x1024.rank) ∈ dot_S16x2048x64_S16x2048x1024_S16x64x1024_1_1_2_2_0_0.rhsNonContracting by decide)]
  rfl

/-- The contraction of a [16, 2048, 64] array with a [16, 2048, 1024] array over the channel axis, batch by
    batch, read at (b, p, k): the sum over channels of the products. -/
theorem dot_read (L : FVec Ideal S16x2048x64 .f32) (R : FVec Ideal S16x2048x1024 .f32) (b : Fin 16) (p : Fin 64) (k : Fin 1024) :
    Host.dotGeneral dot_S16x2048x64_S16x2048x1024_S16x64x1024_1_1_2_2_0_0 none L R (ix3 b p k) = ∑ ch : Fin 2048, L (ix3 b ch p) * R (ix3 b ch k) := by
  simp only [Host.dotGeneral]
  rw [Ideal.dotGeneral_apply, ← Equiv.sum_comp (ValueIdx.contrEquiv1 dot_S16x2048x64_S16x2048x1024_S16x64x1024_1_1_2_2_0_0 2048 rfl rfl).symm]
  refine Finset.sum_congr rfl fun ch _ => ?_
  have hk := ValueIdx.contrEquiv1_symm_val dot_S16x2048x64_S16x2048x1024_S16x64x1024_1_1_2_2_0_0 2048 rfl rfl ch
  have el : dot_S16x2048x64_S16x2048x1024_S16x64x1024_1_1_2_2_0_0.lhsIdx (ix3 b p k) ((ValueIdx.contrEquiv1 dot_S16x2048x64_S16x2048x1024_S16x64x1024_1_1_2_2_0_0 2048 rfl rfl).symm ch) = ix3 b ch p := funext fun a => Fin.ext (by
    match a with
    | ⟨0, _⟩ => exact lhs0 _ _
    | ⟨1, _⟩ => exact (lhs1 _ _).trans hk
    | ⟨2, _⟩ => exact lhs2 _ _)
  have er : dot_S16x2048x64_S16x2048x1024_S16x64x1024_1_1_2_2_0_0.rhsIdx (ix3 b p k) ((ValueIdx.contrEquiv1 dot_S16x2048x64_S16x2048x1024_S16x64x1024_1_1_2_2_0_0 2048 rfl rfl).symm ch) = ix3 b ch k := funext fun a => Fin.ext (by
    match a with
    | ⟨0, _⟩ => exact rhs0 _ _
    | ⟨1, _⟩ => exact (rhs1 _ _).trans hk
    | ⟨2, _⟩ => exact rhs2 _ _)
  rw [el, er]

end Dot

/-! ## The elementwise operations read at an index -/

theorem divf_read {s : Shape} (A B : FVec Ideal s .f32) (i : s.Idx) : Host.divf A B i = Ideal.div (A i) (B i) := rfl
theorem subf_read {s : Shape} (A B : FVec Ideal s .f32) (i : s.Idx) : subf A B i = A i - B i := rfl
theorem select_read {s : Shape} {α : Type} (C : IVec s 1) (A B : s.Idx → α) (i : s.Idx) :
    select C A B i = if C i = 1#1 then A i else B i := rfl

/-- An array of extended reals read at an index. -/
abbrev rd {s : Shape} (A : FVec Ideal s .f32) (i : s.Idx) : EReal := A i
/-- An array of words read at an index. -/
abbrev rdI {s : Shape} {w : Nat} (A : IVec s w) (i : s.Idx) : BitVec w := A i

/-! ## The reference's stages read at an index, and the result -/

section Final
open Cert.RefRun Cert.RefStages Cert.RefIndex Cert.RefExtremes Idealize.ShloMosaic.TcCoe Idealize.SL.Sem Cert.Spec

attribute [local irreducible] Cert.RefRun.W

variable (m : (ℓ : Loc nD τ sig) → Buf (Elt Ideal) ℓ) (c : Dev nD)

/-- The column word of point p. -/
theorem colWord_read (p : Fin 64) :
    rdI (W (F := Ideal) m c main_v4) (ix1 p) = Cert.Sampled.colWord (ptsOf m c) p := by
  rw [st_v4]
  exact congrArg (fun x : EReal => Ideal.fptosi 32 (x * Cert.Sampled.scale)) (col0_read (ptsOf m c) p)

/-- The row word of point p. -/
theorem rowWord_read (p : Fin 64) :
    rdI (W (F := Ideal) m c main_v10) (ix1 p) = Cert.Sampled.rowWord (ptsOf m c) p := by
  rw [st_v10]
  exact congrArg (fun x : EReal => Ideal.fptosi 32 (x * Cert.Sampled.scale)) (col1_read (ptsOf m c) p)

/-- The sampled columns: the feature map at the location the point samples. -/
theorem sampled_read (b : Fin 16) (ch : Fin 2048) (p : Fin 64) :
    rd (W (F := Ideal) m c main_v25) (ix3 b ch p) = feaAt (feaOf m c) b ch (Cert.Sampled.loc (ptsOf m c) p) := by
  rw [st_v25, st_v24]
  dsimp only [rd]
  rw [gather_indexArray_apply]
  unfold feaAt
  refine congrArg (feaOf m c) (congrArg₂ (ix4 b ch) (Fin.ext ?_) (Fin.ext ?_))
  · exact (congrArg (fun w => (clampW w).toNat) (rowWord_read m c p)).trans (Cert.Sampled.loc_div (ptsOf m c) p).symm
  · exact (congrArg (fun w => (clampW w).toNat) (colWord_read m c p)).trans (Cert.Sampled.loc_mod (ptsOf m c) p).symm

/-- The normalised sampled columns. -/
theorem query_read (b : Fin 16) (ch : Fin 2048) (p : Fin 64) :
    rd (W (F := Ideal) m c main_v31) (ix3 b ch p)
      = Ideal.div (feaAt (feaOf m c) b ch (Cert.Sampled.loc (ptsOf m c) p))
          (Ideal.sqrt (normSq (feaOf m c) b (Cert.Sampled.loc (ptsOf m c) p))) := by
  rw [st_v31]
  dsimp only [rd]
  rw [divf_read, bcast_query_read, st_v29, queryNorm_read]
  have h25 : ∀ ch' : Fin 2048, rd (W (F := Ideal) m c main_v25) (ix3 b ch' p)
      = feaAt (feaOf m c) b ch' (Cert.Sampled.loc (ptsOf m c) p) := fun ch' => sampled_read m c b ch' p
  dsimp only [rd] at h25
  simp only [h25]
  rfl

/-- The normalised feature map at a flat location. -/
theorem key_read (b : Fin 16) (ch : Fin 2048) (k : Fin 1024) :
    rd (W (F := Ideal) m c main_v32) (ix3 b ch k)
      = Ideal.div (feaAt (feaOf m c) b ch k) (Ideal.sqrt (normSq (feaOf m c) b k)) := by
  rw [st_v32]
  dsimp only [rd]
  rw [flat_read, st_v28, divf_read, bcast_keys_read, st_v26, keyNorm_read]
  rfl

/-- The similarities: the sum over channels of normalised sampled column times normalised column. -/
theorem sim_read (b : Fin 16) (p : Fin 64) (k : Fin 1024) :
    rd (W (F := Ideal) m c main_v33) (ix3 b p k)
      = ∑ ch : Fin 2048,
          Ideal.div (feaAt (feaOf m c) b ch (Cert.Sampled.loc (ptsOf m c) p))
              (Ideal.sqrt (normSq (feaOf m c) b (Cert.Sampled.loc (ptsOf m c) p)))
            * Ideal.div (feaAt (feaOf m c) b ch k) (Ideal.sqrt (normSq (feaOf m c) b k)) := by
  rw [st_v33]
  dsimp only [rd]
  rw [dot_read]
  exact Finset.sum_congr rfl fun ch _ => congrArg₂ (· * ·) (query_read m c b ch p) (key_read m c b ch k)

/-- The result read at an index is the specification's. -/
theorem value_at
    (hreal : ∀ i, ∃ r : ℝ, m ((c.tc : Thread nD τ).loc main_arg0) i = (r : EReal))
    (hnz : ∀ (b : Fin 16) (y x : Fin 32), ∃ ch : Fin 2048, m ((c.tc : Thread nD τ).loc main_arg0) (ix4 b ch y x) ≠ (0 : EReal))
    (j : S16x64x32x32.Idx) :
    rd (W (F := Ideal) m c main_v44) j
      = result (feaOf m c) (Cert.Sampled.loc (ptsOf m c)) (Cert.Sampled.validAt (validOf m c)) j := by
  have hsim : ∀ (b : Fin 16) (p : Fin 64) (k : Fin 1024), rd (W (F := Ideal) m c main_v33) (ix3 b p k)
      = cosine (feaOf m c) (Cert.Sampled.loc (ptsOf m c)) b p k := fun b p k =>
    (sim_read m c b p k).trans (Cert.RefMath.normalised_inner (feaOf m c) hreal hnz (Cert.Sampled.loc (ptsOf m c)) b p k)
  have hmin : ∀ (b : Fin 16) (p : Fin 64), rd (W (F := Ideal) m c main_v34) (ix2 b p)
      = least (feaOf m c) (Cert.Sampled.loc (ptsOf m c)) b p := by
    intro b p
    rw [st_v34]
    dsimp only [rd]
    rw [reduce_min_apply]
    exact Finset.inf_congr rfl fun k _ => hsim b p k
  have hmax : ∀ (b : Fin 16) (p : Fin 64), rd (W (F := Ideal) m c main_v36) (ix2 b p)
      = greatest (feaOf m c) (Cert.Sampled.loc (ptsOf m c)) b p := by
    intro b p
    rw [st_v36]
    dsimp only [rd]
    rw [reduce_max_apply]
    exact Finset.sup_congr rfl fun k _ => hsim b p k
  rw [st_v44]
  dsimp only [rd]
  rw [select_read, bcast_valid_read]
  unfold result Cert.Sampled.validAt
  by_cases hv : validOf m c (ix1 (j 1)) = 1#1
  · rw [if_pos hv, if_pos (decide_eq_true hv), st_v42, unflat_read, st_v41, divf_read, subf_read]
    exact congrArg₂ Ideal.div
      (congrArg₂ (· - ·) (hsim _ _ _) ((bcast_row_read (W (F := Ideal) m c main_v34) (j 0) (j 1) _).trans (hmin _ _)))
      ((bcast_row_read (W (F := Ideal) m c main_v36) (j 0) (j 1) _).trans (hmax _ _))
  · rw [if_neg hv, if_neg (fun h => hv (of_decide_eq_true h))]
    exact Ideal.ofBits_zero_f32

/-- The reference's result is the specification's. -/
theorem value
    (hreal : ∀ i, ∃ r : ℝ, m ((c.tc : Thread nD τ).loc main_arg0) i = (r : EReal))
    (hnz : ∀ (b : Fin 16) (y x : Fin 32), ∃ ch : Fin 2048, m ((c.tc : Thread nD τ).loc main_arg0) (ix4 b ch y x) ≠ (0 : EReal)) :
    W (F := Ideal) m c main_v44
      = result (m ((c.tc : Thread nD τ).loc main_arg0)) (Cert.Sampled.loc (m ((c.tc : Thread nD τ).loc main_arg1)))
          (Cert.Sampled.validAt (m ((c.tc : Thread nD τ).loc main_arg2))) :=
  funext fun j => value_at m c hreal hnz j

end Final

end Cert.RefIsSpec

end
-- ==== Proof.Domain.lean ====
/-
  The precondition, decoded. The certificate's claims assume that the printed predicate over
  (fea : f32[16, 2048, 32, 32], point_list : f32[64, 2], valid : i1[64]) answers 1. That predicate is the
  conjunction of three universally quantified facts: |fea| < +∞ at every index, |point_list| < +∞ at every
  index, and, at every location (batch, row, column), "some channel's entry of fea is not zero" (an OR over
  the channel axis of the elementwise "≠ 0", then an AND over the three remaining axes). Read at the
  extended reals, where a float is an EReal and an unordered comparison answers as its ordered twin, the
  first says every entry of fea is a real number (neither infinity) and the third says no location's channel
  column is all zero. These are the two facts the rest of the proof consumes.
-/
import proofs.«174781_j17617955848291_1_alg».proof.Proof.Gen.Pre_finite_inputs
import Idealize.ShloMosaic.Lib.ReduceAll
import Idealize.ShloMosaic.Lib.ValueIdx
import Idealize.ShloMosaic.PureOps.Ideal.Laws

noncomputable section

namespace Cert.Domain

open Idealize.ShloMosaic Idealize.ShloMosaic.ValueIdx
open Cert.Pre_finite_inputs

/-- The rank-zero shape has one index. -/
instance : Subsingleton S_.Idx := ⟨fun a b => funext fun d => d.elim0⟩

/-! ## A fold by OR over one-bit words -/

/-- A left fold by `or` over one-bit words that came out 1 either started at 1 or met a 1. -/
theorem foldl_ori_eq_one {ι : Type} (f : ι → BitVec 1) :
    ∀ (l : List ι) (init : BitVec 1), l.foldl (fun r n => IntOp.ori r (f n)) init = 1#1 →
      init = 1#1 ∨ ∃ n ∈ l, f n = 1#1
  | [], init, h => Or.inl h
  | a :: l, init, h => by
    rcases foldl_ori_eq_one f l _ h with h1 | ⟨n, hn, e⟩
    · rcases IntOp.ori_eq_one.1 h1 with hi | ha
      · exact Or.inl hi
      · exact Or.inr ⟨a, List.mem_cons_self, ha⟩
    · exact Or.inr ⟨n, List.mem_cons_of_mem _ hn, e⟩

/-- An OR-reduce from the initial value 0 that is 1 at `j` met a 1 at some operand index that reduces
    into `j`. -/
theorem reduce_ori_eq_one {s t u : Shape} {axes : List (Fin s.rank)} (x : s.Idx → BitVec 1)
    (init : u.Idx → BitVec 1) (h : s.ReducesTo axes t) (hu : 0 < u.numel)
    (h0 : init (Shape.Idx.first hu) = 0#1) (j : t.Idx)
    (e : Host.reduce IntOp.ori x init h hu j = 1#1) : ∃ i : s.Idx, h.drop i = j ∧ x i = 1#1 := by
  rw [Host.reduce_eq_foldl, h0] at e
  rcases foldl_ori_eq_one x _ _ e with h1 | ⟨i, hi, hx⟩
  · exact absurd h1 (by decide)
  · rw [List.mem_filter] at hi
    exact ⟨i, by simpa using hi.2, hx⟩

/-! ## The two element facts at the extended reals -/

/-- The pattern 0x7F800000 is +∞. -/
theorem ofBits_inf : Ideal.ofBits .f32 0x7F800000#32 = ⊤ := by simp [Ideal.ofBits, Ideal.ieee]

/-- `|x| < +∞` says `x` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

/-- `x ≠ 0` as the comparison answers it: at the extended reals "unordered or not equal" is "not equal". -/
theorem ne_zero_of_une_zero (x : Ideal .f32)
    (h : FloatOps.cmpf .une x (FloatOps.ofBits (F := Ideal) .f32 0x00000000#32) = 1#1) : (x : EReal) ≠ 0 := by
  change Ideal.cmp .une (x : EReal) (Ideal.ofBits .f32 0x00000000#32) = 1#1 at h
  rw [Ideal.ofBits_zero_f32] at h
  unfold Ideal.cmp at h
  intro hx
  subst hx
  simp at h

/-! ## The precondition's three conjuncts -/

section Decode

variable (fea : FVec Ideal S16x2048x32x32 .f32) (point_list : FVec Ideal S64x2 .f32) (valid : IVec S64 1)

/-- The predicate answering 1 is its three reductions answering 1. -/
theorem conjuncts (h : fn (F := Ideal) fea point_list valid = (fun _ => 1#1)) :
    (Host.reduce IntOp.andi
        (cmpf .olt (Host.absf fea)
          (broadcastInDim S16x2048x32x32 ![] Facts.bcast_S_S16x2048x32x32 (constant (F := Ideal) S_ .f32 0x7F800000#32)))
        (constantI S_ 1 1#1) Facts.reducesTo_S16x2048x32x32_S_d0_1_2_3 Facts.h_S_ ix0 = 1#1)
    ∧ (Host.reduce IntOp.andi
        (Host.reduce IntOp.ori
          (cmpf .une fea
            (broadcastInDim S16x2048x32x32 ![] Facts.bcast_S_S16x2048x32x32 (constant (F := Ideal) S_ .f32 0x00000000#32)))
          (constantI S_ 1 0#1) Facts.reducesTo_S16x2048x32x32_S16x32x32_d1 Facts.h_S_)
        (constantI S_ 1 1#1) Facts.reducesTo_S16x32x32_S_d0_1_2 Facts.h_S_ ix0 = 1#1) := by
  have e := congrFun h ix0
  dsimp only [fn] at e
  obtain ⟨e12, e3⟩ := IntOp.andi_eq_one.1 e
  obtain ⟨e1, -⟩ := IntOp.andi_eq_one.1 e12
  exact ⟨e1, e3⟩

/-- (1) Every entry of `fea` is a real number. -/
theorem real_fea (h : fn (F := Ideal) fea point_list valid = (fun _ => 1#1)) (i : S16x2048x32x32.Idx) :
    ∃ r : ℝ, fea i = (r : EReal) :=
  real_of_abs_lt_inf (fea i)
    (Host.reduce_andi_all _ _ _ _ ix0 (conjuncts fea point_list valid h).1 i)

/-- (2) At every location (batch `b`, row `y`, column `x`) some channel `c` holds a nonzero entry. -/
theorem nonzero_column (h : fn (F := Ideal) fea point_list valid = (fun _ => 1#1))
    (b : Fin 16) (y : Fin 32) (x : Fin 32) : ∃ c : Fin 2048, fea (ix4 b c y x) ≠ 0 := by
  -- the OR over the channel axis answers 1 at the location
  have hor := Host.reduce_andi_all _ _ _ _ ix0 (conjuncts fea point_list valid h).2 (ix3 b y x)
  -- so some index that drops to the location holds a 1 of the elementwise "≠ 0"
  obtain ⟨i, hd, hi⟩ := reduce_ori_eq_one _ _ Facts.reducesTo_S16x2048x32x32_S16x32x32_d1 Facts.h_S_ rfl _ hor
  have hne : fea i ≠ 0 := ne_zero_of_une_zero (fea i) hi
  -- dropping the channel axis keeps axes 0, 2, 3: the index is the location with its own channel inserted
  have h0 : (i 0).val = b.val := by
    rw [← Facts.reducesTo_S16x2048x32x32_S16x32x32_d1.drop_apply_val_of_eq i 0 0, hd]
  have h2 : (i 2).val = y.val := by
    rw [← Facts.reducesTo_S16x2048x32x32_S16x32x32_d1.drop_apply_val_of_eq i 1 2, hd]
  have h3 : (i 3).val = x.val := by
    rw [← Facts.reducesTo_S16x2048x32x32_S16x32x32_d1.drop_apply_val_of_eq i 2 3, hd]
  have hix : i = ix4 b (i 1) y x := by
    funext a
    match a with
    | ⟨0, _⟩ => exact Fin.ext h0
    | ⟨1, _⟩ => rfl
    | ⟨2, _⟩ => exact Fin.ext h2
    | ⟨3, _⟩ => exact Fin.ext h3
  exact ⟨i 1, hix ▸ hne⟩

end Decode

end Cert.Domain

end
-- ==== Proof.lean ====
/-
  The certificate: a cosine-similarity attention kernel against its reference.

  Both programs take a feature map [16, 2048, 32, 32], 64 points and 64 valid flags. Each point samples one of the
  1024 locations; for every batch, point and location the result is the cosine between the sampled channel column
  and the location's channel column, rescaled by the least and greatest cosine of the point, and zero for a point
  that is not valid. The kernel streams the 2048 channels in four tiles, carrying three running sums (inner
  products, column norms, query norms), selects the sampled column by a product with a zero-or-one matrix, and
  divides the inner product once by the product of the two norms; the reference gathers the sampled column,
  normalises every column first and contracts afterwards. On the extended reals the two agree where every entry of
  the feature map is a real number and no channel column is all zero (there the reference itself divides zero by
  zero): the precondition states exactly that.

  The three frames: the two kernel programs' are the generated frame certificates; the reference's is its run with
  the result dropped. The kernel is its own idealization (no rewrite was applied). The value claim: the kernel's run
  ends at the specification of its inputs (KernelValue), the reference's run at the specification of its inputs
  (RefIsSpec), and the inputs agree.
-/
import proofs.«174781_j17617955848291_1_alg».proof.Defs
import proofs.«174781_j17617955848291_1_alg».proof.Proof.Gen.Kernel
import proofs.«174781_j17617955848291_1_alg».proof.Proof.Gen.Kernel.Skeleton
import proofs.«174781_j17617955848291_1_alg».proof.Proof.Gen.Kernel.Launch
import proofs.«174781_j17617955848291_1_alg».proof.Proof.Gen.Kernel.Points
import proofs.«174781_j17617955848291_1_alg».proof.Proof.Gen.Kernel.Frame
import proofs.«174781_j17617955848291_1_alg».proof.Proof.Gen.KernelIdeal
import proofs.«174781_j17617955848291_1_alg».proof.Proof.Gen.KernelIdeal.Skeleton
import proofs.«174781_j17617955848291_1_alg».proof.Proof.Gen.KernelIdeal.Launch
import proofs.«174781_j17617955848291_1_alg».proof.Proof.Gen.KernelIdeal.Points
import proofs.«174781_j17617955848291_1_alg».proof.Proof.Gen.KernelIdeal.Frame
import proofs.«174781_j17617955848291_1_alg».proof.Proof.Gen.ReferenceIdeal
import proofs.«174781_j17617955848291_1_alg».proof.Proof.Gen.Pre_finite_inputs
import proofs.«174781_j17617955848291_1_alg».proof.Proof.KernelValue
import proofs.«174781_j17617955848291_1_alg».proof.Proof.RefRun
import proofs.«174781_j17617955848291_1_alg».proof.Proof.RefIsSpec
import proofs.«174781_j17617955848291_1_alg».proof.Proof.Domain
import Idealize.ShloMosaic.Adequacy
import Idealize.ShloMosaic.Init

noncomputable section

namespace Cert.Proof

open Idealize.ShloMosaic Idealize.SL.Sem Idealize.ShloMosaic.ValueIdx

/-- The word-level kernel runs and leaves its inputs unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its inputs unchanged. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its inputs unchanged: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- From memories that agree on the inputs, where every entry of the feature map is real and no channel column is
    all zero, both programs end at the specification of the inputs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelValue.resultArray m c, Cert.KernelValue.run m ρ, ?_⟩
  refine (θ_run Cert.ReferenceIdeal.defs _ _).mono (fun _ h c => ⟨(h c).1.trans ?_, (h c).2⟩) (Cert.RefRun.run (F := Ideal) m' ρ')
  have hr := Cert.Domain.real_fea _ _ _ (hpre c)
  have hn := Cert.Domain.nonzero_column _ _ _ (hpre c)
  rw [Cert.RefIsSpec.value m' c (by rw [(hagree c).1]; exact hr) (by rw [(hagree c).1]; exact hn)]
  unfold Cert.KernelValue.resultArray
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
